-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x1024 : Shape := ⟨2, ![16384, 1024]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16384x128 .f32) (main_arg1 : FVec F S16384x1024 .f32) (main_arg2 : IVec S16384x128 32) (main_arg3 : IVec S16384x1024 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S16384x128 : Shape := ⟨2, ![16384, 128]⟩
abbrev S16384x1024 : Shape := ⟨2, ![16384, 1024]⟩
abbrev S16384x128x8 : Shape := ⟨3, ![16384, 128, 8]⟩
abbrev S16384x8x128 : Shape := ⟨3, ![16384, 8, 128]⟩
abbrev S128 : Shape := ⟨1, ![128]⟩
abbrev S8x128 : Shape := ⟨2, ![8, 128]⟩
abbrev S1024x128 : Shape := ⟨2, ![1024, 128]⟩
abbrev S1024x8x128 : Shape := ⟨3, ![1024, 8, 128]⟩
abbrev S_ : Shape := ⟨0, ![]⟩
abbrev S512x128 : Shape := ⟨2, ![512, 128]⟩
abbrev S512x8x128 : Shape := ⟨3, ![512, 8, 128]⟩
abbrev S1x128 : Shape := ⟨2, ![1, 128]⟩
abbrev S1x8x128 : Shape := ⟨3, ![1, 8, 128]⟩

abbrev nBuf : Space → Nat
  | .hbm => 87
  | .vmem => 21
  | .smem => 0
  | _ => 0

abbrev bufTy : (tb : Table) → Fin (tcTables nBuf tb) → BufTy
  | .hbm, ⟨0, _⟩ => ⟨S16384x128, .f32⟩
  | .hbm, ⟨1, _⟩ => ⟨S16384x1024, .f32⟩
  | .hbm, ⟨2, _⟩ => ⟨S16384x128, .i32⟩
  | .hbm, ⟨3, _⟩ => ⟨S16384x1024, .i32⟩
  | .hbm, ⟨4, _⟩ => ⟨S16384x128x8, .f32⟩
  | .hbm, ⟨5, _⟩ => ⟨S16384x8x128, .f32⟩
  | .hbm, ⟨6, _⟩ => ⟨S16384x128x8, .i32⟩
  | .hbm, ⟨7, _⟩ => ⟨S16384x8x128, .i32⟩
  | .hbm, ⟨8, _⟩ => ⟨S128, .f32⟩
  | .hbm, ⟨9, _⟩ => ⟨S8x128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x128, .f32⟩
  | .hbm, ⟨36, _⟩ => ⟨S8x128, .f32⟩
  | .hbm, ⟨37, _⟩ => ⟨S_, .f32⟩
  | .hbm, ⟨38, _⟩ => ⟨S8x128, .f32⟩
  | .hbm, ⟨39, _⟩ => ⟨S8x128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S1024x128, .i32⟩
  | .local _ .vmem, ⟨1, _⟩ => ⟨S1024x128, .i32⟩
  | .local _ .vmem, ⟨2, _⟩ => ⟨S1024x8x128, .i32⟩
  | .local _ .vmem, ⟨3, _⟩ => ⟨S1024x8x128, .i32⟩
  | .local _ .vmem, ⟨4, _⟩ => ⟨S128, .f32⟩
  | .local _ .vmem, ⟨5, _⟩ => ⟨S8x128, .f32⟩
  | .local _ .vmem, ⟨6, _⟩ => ⟨S512x128, .f32⟩
  | .local _ .vmem, ⟨7, _⟩ => ⟨S512x128, .f32⟩
  | .local _ .vmem, ⟨8, _⟩ => ⟨S512x128, .i32⟩
  | .local _ .vmem, ⟨9, _⟩ => ⟨S512x128, .i32⟩
  | .local _ .vmem, ⟨10, _⟩ => ⟨S128, .f32⟩
  | .local _ .vmem, ⟨11, _⟩ => ⟨S512x8x128, .f32⟩
  | .local _ .vmem, ⟨12, _⟩ => ⟨S512x8x128, .f32⟩
  | .local _ .vmem, ⟨13, _⟩ => ⟨S512x8x128, .i32⟩
  | .local _ .vmem, ⟨14, _⟩ => ⟨S512x8x128, .i32⟩
  | .local _ .vmem, ⟨15, _⟩ => ⟨S8x128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v16 : Ref sig .tc := ⟨.hbm, 39, rfl⟩
abbrev main_v17_0 : Ref sig .tc := ⟨.hbm, 40, rfl⟩
abbrev main_v17_1 : Ref sig .tc := ⟨.hbm, 41, rfl⟩
abbrev main_v17_2 : Ref sig .tc := ⟨.hbm, 42, rfl⟩
abbrev main_v17_3 : Ref sig .tc := ⟨.hbm, 43, rfl⟩
abbrev main_v17_4 : Ref sig .tc := ⟨.hbm, 44, rfl⟩
abbrev main_cst_7 : Ref sig .tc := ⟨.hbm, 45, rfl⟩
abbrev main_v18 : Ref sig .tc := ⟨.hbm, 46, rfl⟩
abbrev main_cst_8 : Ref sig .tc := ⟨.hbm, 47, rfl⟩
abbrev main_v19 : Ref sig .tc := ⟨.hbm, 48, rfl⟩
abbrev main_cst_9 : Ref sig .tc := ⟨.hbm, 49, rfl⟩
abbrev main_v20 : Ref sig .tc := ⟨.hbm, 50, rfl⟩
abbrev main_cst_10 : Ref sig .tc := ⟨.hbm, 51, rfl⟩
abbrev main_v21 : Ref sig .tc := ⟨.hbm, 52, rfl⟩
abbrev main_cst_11 : Ref sig .tc := ⟨.hbm, 53, rfl⟩
abbrev main_v22 : Ref sig .tc := ⟨.hbm, 54, rfl⟩
abbrev main_cst_12 : Ref sig .tc := ⟨.hbm, 55, rfl⟩
abbrev main_v23 : Ref sig .tc := ⟨.hbm, 56, rfl⟩
abbrev main_v24 : Ref sig .tc := ⟨.hbm, 57, rfl⟩
abbrev main_cst_13 : Ref sig .tc := ⟨.hbm, 58, rfl⟩
abbrev main_call2_v0 : Ref sig .tc := ⟨.hbm, 59, rfl⟩
abbrev main_v25 : Ref sig .tc := ⟨.hbm, 60, rfl⟩
abbrev main_cst_14 : Ref sig .tc := ⟨.hbm, 61, rfl⟩
abbrev main_v26 : Ref sig .tc := ⟨.hbm, 62, rfl⟩
abbrev main_cst_15 : Ref sig .tc := ⟨.hbm, 63, rfl⟩
abbrev main_v27 : Ref sig .tc := ⟨.hbm, 64, rfl⟩
abbrev main_cst_16 : Ref sig .tc := ⟨.hbm, 65, rfl⟩
abbrev main_v28 : Ref sig .tc := ⟨.hbm, 66, rfl⟩
abbrev main_cst_17 : Ref sig .tc := ⟨.hbm, 67, rfl⟩
abbrev main_v29 : Ref sig .tc := ⟨.hbm, 68, rfl⟩
abbrev main_cst_18 : Ref sig .tc := ⟨.hbm, 69, rfl⟩
abbrev main_v30 : Ref sig .tc := ⟨.hbm, 70, rfl⟩
abbrev main_cst_19 : Ref sig .tc := ⟨.hbm, 71, rfl⟩
abbrev main_v31 : Ref sig .tc := ⟨.hbm, 72, rfl⟩
abbrev main_cst_20 : Ref sig .tc := ⟨.hbm, 73, rfl⟩
abbrev main_v32 : Ref sig .tc := ⟨.hbm, 74, rfl⟩
abbrev main_v33 : Ref sig .tc := ⟨.hbm, 75, rfl⟩
abbrev main_cst_21 : Ref sig .tc := ⟨.hbm, 76, rfl⟩
abbrev main_v34 : Ref sig .tc := ⟨.hbm, 77, rfl⟩
abbrev main_cst_22 : Ref sig .tc := ⟨.hbm, 78, rfl⟩
abbrev main_v35 : Ref sig .tc := ⟨.hbm, 79, rfl⟩
abbrev main_v36 : Ref sig .tc := ⟨.hbm, 80, rfl⟩
abbrev main_cst_23 : Ref sig .tc := ⟨.hbm, 81, rfl⟩
abbrev main_v37 : Ref sig .tc := ⟨.hbm, 82, rfl⟩
abbrev main_v38 : Ref sig .tc := ⟨.hbm, 83, rfl⟩
abbrev main_cst_24 : Ref sig .tc := ⟨.hbm, 84, rfl⟩
abbrev main_v39 : Ref sig .tc := ⟨.hbm, 85, rfl⟩
abbrev main_v40 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x8x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

class Facts₀ : Prop where
  shapeCasts_S16384x1024_S16384x128x8 : S16384x1024.ShapeCasts S16384x128x8
  transposes_S16384x128x8_S16384x8x128_0_2_1 : S16384x128x8.Transposes [0, 2, 1] S16384x8x128
  inb_S128_S128_0 : ∀ a, (![0] : Fin 1 → Nat) a + S128.size a ≤ S128.size a
  h_S128 : 0 < S128.numel
  inb_S8x128_S8x128_0_0 : ∀ a, (![0, 0] : Fin 2 → Nat) a + S8x128.size a ≤ S8x128.size a
  h_S8x128 : 0 < S8x128.numel
  inb_S1024x128_S1024x128_0_0 : ∀ a, (![0, 0] : Fin 2 → Nat) a + S1024x128.size a ≤ S1024x128.size a
  h_S1024x128 : 0 < S1024x128.numel
  inb_S1024x8x128_S1024x8x128_0_0_0 : ∀ a, (![0, 0, 0] : Fin 3 → Nat) a + S1024x8x128.size a ≤ S1024x8x128.size a
  h_S1024x8x128 : 0 < S1024x8x128.numel
  shapeCasts_S1024x8x128_S1024x8x128 : S1024x8x128.ShapeCasts S1024x8x128
  shapeCasts_S128_S128 : S128.ShapeCasts S128
  reduces_S1024x128_S128 : S1024x128.Reduces [0] S128
  shapeCasts_S8x128_S8x128 : S8x128.ShapeCasts S8x128
  reduces_S1024x8x128_S8x128 : S1024x8x128.Reduces [0] S8x128
  bcast_S_S128 : S_.BroadcastsInDim S128 (![] : Fin 0 → Fin S128.rank)
  bcast_S_S8x128 : S_.BroadcastsInDim S8x128 (![] : Fin 0 → Fin S8x128.rank)
  inb_S512x128_S512x128_0_0 : ∀ a, (![0, 0] : Fin 2 → Nat) a + S512x128.size a ≤ S512x128.size a
  h_S512x128 : 0 < S512x128.numel
  shapeCasts_S128_S1x128 : S128.ShapeCasts S1x128
  broadcasts_S1x128_S512x128 : S1x128.Broadcasts S512x128
  reduces_S512x128_S128 : S512x128.Reduces [0] S128
  inb_S512x8x128_S512x8x128_0_0_0 : ∀ a, (![0, 0, 0] : Fin 3 → Nat) a + S512x8x128.size a ≤ S512x8x128.size a
  h_S512x8x128 : 0 < S512x8x128.numel
  shapeCasts_S512x8x128_S512x8x128 : S512x8x128.ShapeCasts S512x8x128
  shapeCasts_S8x128_S1x8x128 : S8x128.ShapeCasts S1x8x128
  broadcasts_S1x8x128_S512x8x128 : S1x8x128.Broadcasts S512x8x128
  reduces_S512x8x128_S512x128 : S512x8x128.Reduces [1] S512x128
  reduces_S512x8x128_S8x128 : S512x8x128.Reduces [0] S8x128
  reduces_S8x128_S128 : S8x128.Reduces [0] S128
  reducesTo_S128_S_d0 : S128.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .i32 = 32 ∨ (Rect.block (s := S16384x128) S1024x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x128.size a ≤ S16384x8x128.size a
  hwx0_1 : ∀ i : grid0.Coords, EltTy.bits .i32 = 32 ∨ (Rect.block (s := S16384x8x128) S1024x8x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S16384x128.size a
  hwx1_0 : ∀ i : grid1.Coords, EltTy.bits .f32 = 32 ∨ (Rect.block (s := S16384x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S16384x128.size a
  hwx1_1 : ∀ i : grid1.Coords, EltTy.bits .i32 = 32 ∨ (Rect.block (s := S16384x128) S512x128.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x8x128.size a ≤ S16384x8x128.size a
  hwx1_3 : ∀ i : grid1.Coords, EltTy.bits .f32 = 32 ∨ (Rect.block (s := S16384x8x128) S512x8x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x8x128.size a ≤ S16384x8x128.size a
  hwx1_4 : ∀ i : grid1.Coords, EltTy.bits .i32 = 32 ∨ (Rect.block (s := S16384x8x128) S512x8x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)

variable [Facts₀]

abbrev win0_0 : Pipeline.Window sig grid0 :=
  Pipeline.Window.ofSpec (Memref.whole main_arg2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x8x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S512x8x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S8x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17_0) S128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17_1) S128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17_2) S128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17_3) S128.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v17_4) S128.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16384x128 : Shape := ⟨2, ![16384, 128]⟩
abbrev S16384x1024 : Shape := ⟨2, ![16384, 1024]⟩
abbrev S_ : Shape := ⟨0, ![]⟩
abbrev S128 : Shape := ⟨1, ![128]⟩
abbrev S1024 : Shape := ⟨1, ![1024]⟩
abbrev S1x128 : Shape := ⟨2, ![1, 128]⟩
abbrev S1x1024 : Shape := ⟨2, ![1, 1024]⟩
abbrev S16384x128x8 : Shape := ⟨3, ![16384, 128, 8]⟩

abbrev nBuf : Space → Nat
  | .hbm => 241
  | .vmem => 0
  | .smem => 0
  | _ => 0

abbrev hbmTy0_0 (i : Nat) : BufTy := match i % 128 with
  | 0 => ⟨S16384x128, .f32⟩
  | 1 => ⟨S16384x1024, .f32⟩
  | 2 => ⟨S16384x128, .i32⟩
  | 3 => ⟨S16384x1024, .i32⟩
  | 4 => ⟨S16384x128, .f32⟩
  | 5 => ⟨S16384x1024, .f32⟩
  | 6 => ⟨S_, .f32⟩
  | 7 => ⟨S16384x128, .f32⟩
  | 8 => ⟨S16384x128, .f32⟩
  | 9 => ⟨S_, .f32⟩
  | 10 => ⟨S128, .f32⟩
  | 11 => ⟨S_, .f32⟩
  | 12 => ⟨S128, .f32⟩
  | 13 => ⟨S_, .f32⟩
  | 14 => ⟨S128, .f32⟩
  | 15 => ⟨S128, .f32⟩
  | 16 => ⟨S128, .f32⟩
  | 17 => ⟨S_, .f32⟩
  | 18 => ⟨S_, .f32⟩
  | 19 => ⟨S_, .f32⟩
  | 20 => ⟨S128, .f32⟩
  | 21 => ⟨S128, .f32⟩
  | 22 => ⟨S_, .f32⟩
  | 23 => ⟨S128, .f32⟩
  | 24 => ⟨S128, .f32⟩
  | 25 => ⟨S_, .f32⟩
  | 26 => ⟨S16384x1024, .f32⟩
  | 27 => ⟨S16384x1024, .f32⟩
  | 28 => ⟨S_, .f32⟩
  | 29 => ⟨S1024, .f32⟩
  | 30 => ⟨S_, .f32⟩
  | 31 => ⟨S1024, .f32⟩
  | 32 => ⟨S_, .f32⟩
  | 33 => ⟨S1024, .f32⟩
  | 34 => ⟨S1024, .f32⟩
  | 35 => ⟨S1024, .f32⟩
  | 36 => ⟨S_, .f32⟩
  | 37 => ⟨S_, .f32⟩
  | 38 => ⟨S_, .f32⟩
  | 39 => ⟨S1024, .f32⟩
  | 40 => ⟨S1024, .f32⟩
  | 41 => ⟨S_, .f32⟩
  | 42 => ⟨S1024, .f32⟩
  | 43 => ⟨S1024, .f32⟩
  | 44 => ⟨S1x128, .f32⟩
  | 45 => ⟨S16384x128, .f32⟩
  | 46 => ⟨S16384x128, .f32⟩
  | 47 => ⟨S16384x128, .f32⟩
  | 48 => ⟨S_, .f32⟩
  | 49 => ⟨S16384x128, .f32⟩
  | 50 => ⟨S16384x128, .f32⟩
  | 51 => ⟨S16384x128, .f32⟩
  | 52 => ⟨S16384x128, .f32⟩
  | 53 => ⟨S16384x128, .i1⟩
  | 54 => ⟨S16384x128, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S16384x128, .f32⟩
  | 61 => ⟨S16384x128, .f32⟩
  | 62 => ⟨S16384x128, .f32⟩
  | 63 => ⟨S_, .f32⟩
  | 64 => ⟨S16384x128, .f32⟩
  | 65 => ⟨S16384x128, .f32⟩
  | 66 => ⟨S_, .f32⟩
  | 67 => ⟨S16384x128, .f32⟩
  | 68 => ⟨S16384x128, .f32⟩
  | 69 => ⟨S16384x128, .f32⟩
  | 70 => ⟨S16384x128, .f32⟩
  | 71 => ⟨S16384x128, .i1⟩
  | 72 => ⟨S16384x128, .f32⟩
  | 73 => ⟨S16384x128, .f32⟩
  | 74 => ⟨S16384x128, .f32⟩
  | 75 => ⟨S16384x128, .f32⟩
  | 76 => ⟨S16384x128, .f32⟩
  | 77 => ⟨S16384x128, .f32⟩
  | 78 => ⟨S16384x128, .f32⟩
  | 79 => ⟨S16384x128, .f32⟩
  | 80 => ⟨S16384x128, .f32⟩
  | 81 => ⟨S16384x128, .f32⟩
  | 82 => ⟨S_, .f32⟩
  | 83 => ⟨S_, .f32⟩
  | 84 => ⟨S_, .f32⟩
  | 85 => ⟨S_, .f32⟩
  | 86 => ⟨S1x1024, .f32⟩
  | 87 => ⟨S16384x1024, .f32⟩
  | 88 => ⟨S16384x1024, .f32⟩
  | 89 => ⟨S16384x1024, .f32⟩
  | 90 => ⟨S_, .f32⟩
  | 91 => ⟨S16384x1024, .f32⟩
  | 92 => ⟨S16384x1024, .f32⟩
  | 93 => ⟨S16384x1024, .f32⟩
  | 94 => ⟨S16384x1024, .f32⟩
  | 95 => ⟨S16384x1024, .i1⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S_, .f32⟩
  | 109 => ⟨S16384x1024, .f32⟩
  | 110 => ⟨S16384x1024, .f32⟩
  | 111 => ⟨S16384x1024, .f32⟩
  | 112 => ⟨S16384x1024, .f32⟩
  | 113 => ⟨S16384x1024, .i1⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S16384x1024, .f32⟩
  | 121 => ⟨S16384x1024, .f32⟩
  | 122 => ⟨S16384x1024, .f32⟩
  | 123 => ⟨S16384x1024, .f32⟩
  | 124 => ⟨S16384x128x8, .f32⟩
  | 125 => ⟨S_, .f32⟩
  | 126 => ⟨S16384x128, .f32⟩
  | 127 => ⟨S_, .f32⟩
  | _ => ⟨S16384x128, .f32⟩

abbrev hbmTy0_1 (i : Nat) : BufTy := match i % 128 with
  | 0 => ⟨S16384x128, .f32⟩
  | 1 => ⟨S16384x128, .f32⟩
  | 2 => ⟨S_, .f32⟩
  | 3 => ⟨S_, .f32⟩
  | 4 => ⟨S_, .f32⟩
  | 5 => ⟨S_, .i1⟩
  | 6 => ⟨S16384x128, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S16384x128, .f32⟩
  | 16 => ⟨S16384x128, .f32⟩
  | 17 => ⟨S_, .f32⟩
  | 18 => ⟨S16384x128, .f32⟩
  | 19 => ⟨S16384x128, .f32⟩
  | 20 => ⟨S_, .f32⟩
  | 21 => ⟨S16384x128, .f32⟩
  | 22 => ⟨S16384x128, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S16384x128x8, .f32⟩
  | 32 => ⟨S_, .f32⟩
  | 33 => ⟨S16384x128, .f32⟩
  | 34 => ⟨S16384x128, .f32⟩
  | 35 => ⟨S_, .f32⟩
  | 36 => ⟨S16384x128, .f32⟩
  | 37 => ⟨S16384x128, .f32⟩
  | 38 => ⟨S16384x128, .f32⟩
  | 39 => ⟨S_, .f32⟩
  | 40 => ⟨S_, .f32⟩
  | 41 => ⟨S_, .f32⟩
  | 42 => ⟨S_, .f32⟩
  | 43 => ⟨S_, .f32⟩
  | 44 => ⟨S16384x128, .f32⟩
  | 45 => ⟨S16384x128, .f32⟩
  | 46 => ⟨S_, .f32⟩
  | 47 => ⟨S16384x128, .f32⟩
  | 48 => ⟨S16384x128, .f32⟩
  | 49 => ⟨S16384x128, .f32⟩
  | 50 => ⟨S16384x128, .f32⟩
  | 51 => ⟨S_, .f32⟩
  | 52 => ⟨S16384x128, .f32⟩
  | 53 => ⟨S16384x128, .f32⟩
  | 54 => ⟨S16384x128, .f32⟩
  | 55 => ⟨S16384x128, .f32⟩
  | 56 => ⟨S16384x128, .i1⟩
  | 57 => ⟨S16384x128, .f32⟩
  | 58 => ⟨S16384x128, .f32⟩
  | 59 => ⟨S16384x128, .f32⟩
  | 60 => ⟨S16384x128, .f32⟩
  | 61 => ⟨S16384x128, .f32⟩
  | 62 => ⟨S16384x128, .f32⟩
  | 63 => ⟨S16384x128, .f32⟩
  | 64 => ⟨S16384x128, .f32⟩
  | 65 => ⟨S16384x128, .f32⟩
  | 66 => ⟨S16384x128, .f32⟩
  | 67 => ⟨S_, .f32⟩
  | 68 => ⟨S_, .f32⟩
  | 69 => ⟨S_, .f32⟩
  | 70 => ⟨S_, .f32⟩
  | 71 => ⟨S_, .f32⟩
  | 72 => ⟨S16384x1024, .f32⟩
  | 73 => ⟨S16384x1024, .f32⟩
  | 74 => ⟨S_, .f32⟩
  | 75 => ⟨S16384x1024, .f32⟩
  | 76 => ⟨S16384x1024, .f32⟩
  | 77 => ⟨S16384x1024, .f32⟩
  | 78 => ⟨S16384x1024, .f32⟩
  | 79 => ⟨S_, .f32⟩
  | 80 => ⟨S16384x1024, .f32⟩
  | 81 => ⟨S16384x1024, .f32⟩
  | 82 => ⟨S16384x1024, .f32⟩
  | 83 => ⟨S16384x1024, .f32⟩
  | 84 => ⟨S16384x1024, .i1⟩
  | 85 => ⟨S16384x1024, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_cst_4 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_cst_5 : Ref sig .tc := ⟨.hbm, 25, rfl⟩
abbrev main_v10 : Ref sig .tc := ⟨.hbm, 26, rfl⟩
abbrev main_v11 : Ref sig .tc := ⟨.hbm, 27, rfl⟩
abbrev main_cst_6 : Ref sig .tc := ⟨.hbm, 28, rfl⟩
abbrev main_v12 : Ref sig .tc := ⟨.hbm, 29, rfl⟩
abbrev main_cst_7 : Ref sig .tc := ⟨.hbm, 30, rfl⟩
abbrev main_v13 : Ref sig .tc := ⟨.hbm, 31, rfl⟩
abbrev main_cst_8 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_9 : Ref sig .tc := ⟨.hbm, 36, rfl⟩
abbrev main_cst_10 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_v22 : Ref sig .tc := ⟨.hbm, 61, rfl⟩
abbrev main_v23 : Ref sig .tc := ⟨.hbm, 62, rfl⟩
abbrev main_cst_11 : Ref sig .tc := ⟨.hbm, 63, rfl⟩
abbrev main_v24 : Ref sig .tc := ⟨.hbm, 64, rfl⟩
abbrev main_v25 : Ref sig .tc := ⟨.hbm, 65, rfl⟩
abbrev main_call3_cst : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_cst_12 : Ref sig .tc := ⟨.hbm, 82, rfl⟩
abbrev main_v29 : Ref sig .tc := ⟨.hbm, 83, rfl⟩
abbrev main_cst_13 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_call4_cst : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_v35 : Ref sig .tc := ⟨.hbm, 103, rfl⟩
abbrev main_v36 : Ref sig .tc := ⟨.hbm, 104, rfl⟩
abbrev main_cst_14 : Ref sig .tc := ⟨.hbm, 105, rfl⟩
abbrev main_v37 : Ref sig .tc := ⟨.hbm, 106, rfl⟩
abbrev main_v38 : Ref sig .tc := ⟨.hbm, 107, rfl⟩
abbrev main_call5_cst : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_v7 : Ref sig .tc := ⟨.hbm, 116, rfl⟩
abbrev main_call5_v8 : Ref sig .tc := ⟨.hbm, 117, rfl⟩
abbrev main_call5_v9 : Ref sig .tc := ⟨.hbm, 118, rfl⟩
abbrev main_call5_v10 : Ref sig .tc := ⟨.hbm, 119, rfl⟩
abbrev main_call5_v11 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_cst_15 : Ref sig .tc := ⟨.hbm, 125, rfl⟩
abbrev main_v43 : Ref sig .tc := ⟨.hbm, 126, rfl⟩
abbrev main_cst_16 : Ref sig .tc := ⟨.hbm, 127, rfl⟩
abbrev main_v44 : Ref sig .tc := ⟨.hbm, 128, rfl⟩
abbrev main_v45 : Ref sig .tc := ⟨.hbm, 129, rfl⟩
abbrev main_cst_17 : Ref sig .tc := ⟨.hbm, 130, rfl⟩
abbrev main_v46 : Ref sig .tc := ⟨.hbm, 131, rfl⟩
abbrev main_cst_18 : Ref sig .tc := ⟨.hbm, 132, rfl⟩
abbrev main_v47 : Ref sig .tc := ⟨.hbm, 133, rfl⟩
abbrev main_v48 : Ref sig .tc := ⟨.hbm, 134, rfl⟩
abbrev main_cst_19 : Ref sig .tc := ⟨.hbm, 135, rfl⟩
abbrev main_v49 : Ref sig .tc := ⟨.hbm, 136, rfl⟩
abbrev main_cst_20 : Ref sig .tc := ⟨.hbm, 137, rfl⟩
abbrev main_v50 : Ref sig .tc := ⟨.hbm, 138, rfl⟩
abbrev main_v51 : Ref sig .tc := ⟨.hbm, 139, rfl⟩
abbrev main_cst_21 : Ref sig .tc := ⟨.hbm, 140, rfl⟩
abbrev main_call6_v0 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_cst_22 : Ref sig .tc := ⟨.hbm, 145, rfl⟩
abbrev main_v55 : Ref sig .tc := ⟨.hbm, 146, rfl⟩
abbrev main_v56 : Ref sig .tc := ⟨.hbm, 147, rfl⟩
abbrev main_cst_23 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_24 : Ref sig .tc := ⟨.hbm, 153, rfl⟩
abbrev main_v61 : Ref sig .tc := ⟨.hbm, 154, rfl⟩
abbrev main_v62 : Ref sig .tc := ⟨.hbm, 155, rfl⟩
abbrev main_cst_25 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_cst_26 : Ref sig .tc := ⟨.hbm, 160, rfl⟩
abbrev main_v66 : Ref sig .tc := ⟨.hbm, 161, rfl⟩
abbrev main_v67 : Ref sig .tc := ⟨.hbm, 162, rfl⟩
abbrev main_call7_cst : Ref sig .tc := ⟨.hbm, 163, rfl⟩
abbrev main_call7_v0 : Ref sig .tc := ⟨.hbm, 164, rfl⟩
abbrev main_v68 : Ref sig .tc := ⟨.hbm, 165, rfl⟩
abbrev main_v69 : Ref sig .tc := ⟨.hbm, 166, rfl⟩
abbrev main_cst_27 : Ref sig .tc := ⟨.hbm, 167, rfl⟩
abbrev main_v70 : Ref sig .tc := ⟨.hbm, 168, rfl⟩
abbrev main_cst_28 : Ref sig .tc := ⟨.hbm, 169, rfl⟩
abbrev main_v71 : Ref sig .tc := ⟨.hbm, 170, rfl⟩
abbrev main_cst_29 : Ref sig .tc := ⟨.hbm, 171, rfl⟩
abbrev main_v72 : Ref sig .tc := ⟨.hbm, 172, rfl⟩
abbrev main_v73 : Ref sig .tc := ⟨.hbm, 173, rfl⟩
abbrev main_cst_30 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_call8_v0 : Ref sig .tc := ⟨.hbm, 178, rfl⟩
abbrev main_call8_call0_cst : Ref sig .tc := ⟨.hbm, 179, rfl⟩
abbrev main_call8_call0_v0 : Ref sig .tc := ⟨.hbm, 180, rfl⟩
abbrev main_call8_call0_v1 : Ref sig .tc := ⟨.hbm, 181, rfl⟩
abbrev main_call8_call0_v2 : Ref sig .tc := ⟨.hbm, 182, rfl⟩
abbrev main_call8_call0_v3 : Ref sig .tc := ⟨.hbm, 183, rfl⟩
abbrev main_call8_call0_v4 : Ref sig .tc := ⟨.hbm, 184, rfl⟩
abbrev main_call8_call0_v5 : Ref sig .tc := ⟨.hbm, 185, rfl⟩
abbrev main_call8_call0_v6 : Ref sig .tc := ⟨.hbm, 186, rfl⟩
abbrev main_call8_call0_v7 : Ref sig .tc := ⟨.hbm, 187, rfl⟩
abbrev main_call8_call0_v8 : Ref sig .tc := ⟨.hbm, 188, rfl⟩
abbrev main_call8_call0_v9 : Ref sig .tc := ⟨.hbm, 189, rfl⟩
abbrev main_call8_call0_v10 : Ref sig .tc := ⟨.hbm, 190, rfl⟩
abbrev main_call8_call0_v11 : Ref sig .tc := ⟨.hbm, 191, rfl⟩
abbrev main_call8_v1 : Ref sig .tc := ⟨.hbm, 192, rfl⟩
abbrev main_v77 : Ref sig .tc := ⟨.hbm, 193, rfl⟩
abbrev main_v78 : Ref sig .tc := ⟨.hbm, 194, rfl⟩
abbrev main_cst_31 : Ref sig .tc := ⟨.hbm, 195, rfl⟩
abbrev main_v79 : Ref sig .tc := ⟨.hbm, 196, rfl⟩
abbrev main_cst_32 : Ref sig .tc := ⟨.hbm, 197, rfl⟩
abbrev main_v80 : Ref sig .tc := ⟨.hbm, 198, rfl⟩
abbrev main_cst_33 : Ref sig .tc := ⟨.hbm, 199, rfl⟩
abbrev main_v81 : Ref sig .tc := ⟨.hbm, 200, rfl⟩
abbrev main_v82 : Ref sig .tc := ⟨.hbm, 201, rfl⟩
abbrev main_cst_34 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_call9_v0 : Ref sig .tc := ⟨.hbm, 206, rfl⟩
abbrev main_call9_call0_cst : Ref sig .tc := ⟨.hbm, 207, rfl⟩
abbrev main_call9_call0_v0 : Ref sig .tc := ⟨.hbm, 208, rfl⟩
abbrev main_call9_call0_v1 : Ref sig .tc := ⟨.hbm, 209, rfl⟩
abbrev main_call9_call0_v2 : Ref sig .tc := ⟨.hbm, 210, rfl⟩
abbrev main_call9_call0_v3 : Ref sig .tc := ⟨.hbm, 211, rfl⟩
abbrev main_call9_call0_v4 : Ref sig .tc := ⟨.hbm, 212, rfl⟩
abbrev main_call9_call0_v5 : Ref sig .tc := ⟨.hbm, 213, rfl⟩
abbrev main_call9_call0_v6 : Ref sig .tc := ⟨.hbm, 214, rfl⟩
abbrev main_call9_call0_v7 : Ref sig .tc := ⟨.hbm, 215, rfl⟩
abbrev main_call9_call0_v8 : Ref sig .tc := ⟨.hbm, 216, rfl⟩
abbrev main_call9_call0_v9 : Ref sig .tc := ⟨.hbm, 217, rfl⟩
abbrev main_call9_call0_v10 : Ref sig .tc := ⟨.hbm, 218, rfl⟩
abbrev main_call9_call0_v11 : Ref sig .tc := ⟨.hbm, 219, rfl⟩
abbrev main_call9_v1 : Ref sig .tc := ⟨.hbm, 220, rfl⟩
abbrev main_v86 : Ref sig .tc := ⟨.hbm, 221, rfl⟩
abbrev main_v87 : Ref sig .tc := ⟨.hbm, 222, rfl⟩
abbrev main_cst_35 : Ref sig .tc := ⟨.hbm, 223, rfl⟩
abbrev main_v88 : Ref sig .tc := ⟨.hbm, 224, rfl⟩
abbrev main_cst_36 : Ref sig .tc := ⟨.hbm, 225, rfl⟩
abbrev main_v89 : Ref sig .tc := ⟨.hbm, 226, rfl⟩
abbrev main_cst_37 : Ref sig .tc := ⟨.hbm, 227, rfl⟩
abbrev main_v90 : Ref sig .tc := ⟨.hbm, 228, rfl⟩
abbrev main_v91 : Ref sig .tc := ⟨.hbm, 229, rfl⟩
abbrev main_cst_38 : Ref sig .tc := ⟨.hbm, 230, rfl⟩
abbrev main_v92 : Ref sig .tc := ⟨.hbm, 231, rfl⟩
abbrev main_cst_39 : Ref sig .tc := ⟨.hbm, 232, rfl⟩
abbrev main_v93 : Ref sig .tc := ⟨.hbm, 233, rfl⟩
abbrev main_v94 : Ref sig .tc := ⟨.hbm, 234, rfl⟩
abbrev main_cst_40 : Ref sig .tc := ⟨.hbm, 235, rfl⟩
abbrev main_v95 : Ref sig .tc := ⟨.hbm, 236, rfl⟩
abbrev main_v96 : Ref sig .tc := ⟨.hbm, 237, rfl⟩
abbrev main_cst_41 : Ref sig .tc := ⟨.hbm, 238, rfl⟩
abbrev main_v97 : Ref sig .tc := ⟨.hbm, 239, rfl⟩
abbrev main_v98 : Ref sig .tc := ⟨.hbm, 240, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  reducesTo_S16384x128_S128_d0 : S16384x128.ReducesTo [0] S128
  h_S_ : 0 < S_.numel
  bcast_S_S128 : S_.BroadcastsInDim S128 (![] : Fin 0 → Fin S128.rank)
  bcast_S_S16384x1024 : S_.BroadcastsInDim S16384x1024 (![] : Fin 0 → Fin S16384x1024.rank)
  reducesTo_S16384x1024_S1024_d0 : S16384x1024.ReducesTo [0] S1024
  bcast_S_S1024 : S_.BroadcastsInDim S1024 (![] : Fin 0 → Fin S1024.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S_d0_1 : S16384x128.ReducesTo [0, 1] S_
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x128x8 : S16384x1024.ShapeCasts S16384x128x8
  reducesTo_S16384x128x8_S16384x128_d2 : S16384x128x8.ReducesTo [2] S16384x128
  reducesTo_S16384x1024_S_d0_1 : S16384x1024.ReducesTo [0, 1] S_

variable [Facts₀]

class Facts : Prop extends Facts₀ where

variable [Facts]
-- ==== Proof.KRun.lean ====
/-
  The kernel program's run, read for its result: every weakly fair execution of @main terminates, and the final
  state holds, in the scalar result buffer, what the last stretch of host operations leaves there — the fold of the
  ten segments (host stretches and the two pallas_calls) from the launch memory — while the four argument arrays
  end as launched.  The segments, the proof data of both pipelines and the launch are the frame's; only the
  post-condition read off the final thread state is wider (the result buffer beside the arguments).
-/
import proofs.«117294_j80676665688521_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the scalar result buffer ends at the last boundary's contents `W10`, the fold of
    every segment over the launch memory, and the arguments end unchanged. -/
theorem run : θ_run defs (onTc (τ := τ) (main (F := F))) ⟨m, fun _ => 0, ρ⟩ (fun r => ∀ c : Dev nD,
      r.2.mem ((c.tc : Thread nD τ).loc main_v40) = W10 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v40 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.KernelIdeal.KRun

end
-- ==== Proof.KHost.lean ====
/-
  The host operations of the kernel program, read as pure functions of the buffers they take.

  Before the first pallas_call the subnarrative arrays are re-laid [16384,1024] → [16384,128,8] → [16384,8,128]
  (`relay`: entry (b,k,n) is entry (b, 8n+k)).  Between the two calls the class weights are formed from the column sums
  the first call left: `pw s = min 50 (max 1 ((16384 - s) / (s + 1e-6)))`, entry by entry, for the [128] narrative sums
  and the [8,128] subnarrative sums.  After the second call its five [128] accumulators and the narrative column sums are
  summed to scalars and combined: `outK`.  Each statement holds for ANY contents of the buffers the stretch does not write.
-/
import proofs.«117294_j80676665688521_2_alg».proof.Proof.Gen.KernelIdeal.Launch
import Idealize.ShloMosaic.Lib.StableHlo.Run

set_option maxRecDepth 16384

noncomputable section

namespace Cert.KernelIdeal.KHost

open Idealize.ShloMosaic Idealize.ShloMosaic.TcCoe Idealize.SL.Sem
open Cert.KernelIdeal Cert.KernelIdeal.Gen

variable {F : FTy → Type} [FloatOps F]

/-- A subnarrative array re-laid so that the group axis comes before the narrative axis. -/
def relay {e : EltTy} (x : Vec F S16384x1024 e) : Vec F S16384x8x128 e :=
  transpose S16384x8x128 [0, 2, 1] (shapeCast S16384x128x8 x shapeCasts_S16384x1024_S16384x128x8)
    transposes_S16384x128x8_S16384x8x128_0_2_1

/-- The narrative class weights from the narrative column sums. -/
def pwN (s : FVec F S128 .f32) : FVec F S128 .f32 :=
  minimumf (broadcastInDim S128 ![] bcast_S_S128 (constant (F := F) S_ .f32 0x42480000#32))
    (maximumf (broadcastInDim S128 ![] bcast_S_S128 (constant (F := F) S_ .f32 0x3F800000#32))
      (Host.divf (subf (broadcastInDim S128 ![] bcast_S_S128 (constant (F := F) S_ .f32 0x46800000#32)) s)
        (addf s (broadcastInDim S128 ![] bcast_S_S128 (constant (F := F) S_ .f32 0x358637BD#32)))))

/-- The subnarrative class weights from the subnarrative column sums, in the re-laid [8,128] arrangement. -/
def pwS (s : FVec F S8x128 .f32) : FVec F S8x128 .f32 :=
  minimumf (broadcastInDim S8x128 ![] bcast_S_S8x128 (constant (F := F) S_ .f32 0x42480000#32))
    (maximumf (broadcastInDim S8x128 ![] bcast_S_S8x128 (constant (F := F) S_ .f32 0x3F800000#32))
      (Host.divf (subf (broadcastInDim S8x128 ![] bcast_S_S8x128 (constant (F := F) S_ .f32 0x46800000#32)) s)
        (addf s (broadcastInDim S8x128 ![] bcast_S_S8x128 (constant (F := F) S_ .f32 0x358637BD#32)))))

/-- A [128] vector summed to a scalar from zero. -/
def tot (a : FVec F S128 .f32) : FVec F S_ .f32 :=
  Host.reduceAdd a (constant (F := F) S_ .f32 0x00000000#32) reducesTo_S128_S_d0 h_S_

/-- The subnarrative loss: the grouped sum over the count of positive pairs, zero when there is none. -/
def lossS (a7 ns : FVec F S128 .f32) : FVec F S_ .f32 :=
  select (cmpf .ogt (tot ns) (constant (F := F) S_ .f32 0x00000000#32))
    (Host.divf (tot a7) (maximumf (tot ns) (constant (F := F) S_ .f32 0x3F800000#32)))
    (constant (F := F) S_ .f32 0x00000000#32)

/-- The scalar result from the five accumulators and the narrative column sums. -/
def outK (a6 a7 a8 a9 a10 ns : FVec F S128 .f32) : FVec F S_ .f32 :=
  addf
    (addf
      (mulf (constant (F := F) S_ .f32 0x3F800000#32)
        (subf (Host.divf (tot a6) (constant (F := F) S_ .f32 0x4A000000#32))
          (mulf (constant (F := F) S_ .f32 0x3DCCCCCD#32) (Host.divf (tot a9) (constant (F := F) S_ .f32 0x4A000000#32)))))
      (mulf (constant (F := F) S_ .f32 0x3F800000#32)
        (subf (lossS a7 ns)
          (mulf (constant (F := F) S_ .f32 0x3DCCCCCD#32) (Host.divf (tot a10) (constant (F := F) S_ .f32 0x4B800000#32))))))
    (mulf (constant (F := F) S_ .f32 0x3F000000#32) (Host.divf (tot a8) (constant (F := F) S_ .f32 0x46800000#32)))

variable (Wx : Valuation τ sig (Elt F))

/-- The first stretch re-lays the subnarrative labels. -/
theorem relay_labels : StableHlo.after hostOps0 Wx (Proc.devRef .tc main_v3) = relay (Wx (Proc.devRef .tc main_arg3)) := by
  after_results; rfl

/-- The first stretch re-lays the subnarrative logits. -/
theorem relay_logits : StableHlo.after hostOps0 Wx (Proc.devRef .tc main_v1) = relay (Wx (Proc.devRef .tc main_arg1)) := by
  after_results; rfl

/-- The first stretch leaves the narrative labels alone. -/
theorem hostOps0_arg2 : StableHlo.after hostOps0 Wx (Proc.devRef .tc main_arg2) = Wx (Proc.devRef .tc main_arg2) := by
  after_results

/-- The first stretch leaves the narrative logits alone. -/
theorem hostOps0_arg0 : StableHlo.after hostOps0 Wx (Proc.devRef .tc main_arg0) = Wx (Proc.devRef .tc main_arg0) := by
  after_results

/-- The stretches between the two calls, as one valuation transformer. -/
abbrev mid (Wx : Valuation τ sig (Elt F)) : Valuation τ sig (Elt F) :=
  StableHlo.after hostOps1_3 (StableHlo.after hostOps1_2 (StableHlo.after hostOps1_1 (StableHlo.after hostOps1 Wx)))

set_option maxHeartbeats 2000000 in
/-- Between the calls the narrative class weights are formed from the narrative column sums. -/
theorem mid_v10 : mid Wx (Proc.devRef .tc main_v10) = pwN (Wx (Proc.devRef .tc main_v4_0)) := by
  after_results; rfl

set_option maxHeartbeats 2000000 in
/-- Between the calls the subnarrative class weights are formed from the subnarrative column sums. -/
theorem mid_v16 : mid Wx (Proc.devRef .tc main_v16) = pwS (Wx (Proc.devRef .tc main_v4_1)) := by
  after_results; rfl

set_option maxHeartbeats 2000000 in
theorem mid_arg0 : mid Wx (Proc.devRef .tc main_arg0) = Wx (Proc.devRef .tc main_arg0) := by after_results
set_option maxHeartbeats 2000000 in
theorem mid_arg2 : mid Wx (Proc.devRef .tc main_arg2) = Wx (Proc.devRef .tc main_arg2) := by after_results
set_option maxHeartbeats 2000000 in
theorem mid_v1 : mid Wx (Proc.devRef .tc main_v1) = Wx (Proc.devRef .tc main_v1) := by after_results
set_option maxHeartbeats 2000000 in
theorem mid_v3 : mid Wx (Proc.devRef .tc main_v3) = Wx (Proc.devRef .tc main_v3) := by after_results
set_option maxHeartbeats 2000000 in
theorem mid_v4_0 : mid Wx (Proc.devRef .tc main_v4_0) = Wx (Proc.devRef .tc main_v4_0) := by after_results

end Cert.KernelIdeal.KHost

end
-- ==== Proof.Spec.lean ====
/-
  The loss both programs compute, written once over the extended reals as a function of the four argument arrays:
  narrative logits x0 [16384,128], subnarrative logits x1 [16384,1024], and the integer labels l2, l3 of the same
  shapes, read as signed integers.  Subnarrative 8n+k belongs to narrative n.

    softplus     sp x   = max x 0 + log(1 + exp(-|x|))
    sigmoid      sig x  = 1 / (1 + exp(-x)),   log-sigmoid  lsig x = -sp(-x)
    weighted BCE bce w y x = w·y·sp(-x) + (1 - y)·sp x
    pos-weight   posw S s = min 50 (max 1 (S / (s + 1e-6)))  with S = Σ_b (1 - y_b), s = Σ_b y_b, per class
    A  = Σ_{b,n} bce (npw n) y x            (narrative BCE, summed)
    Vc = Σ_{b,n} y                          (number of positive pairs)
    G  = Σ_{b,n} ((Σ_k bce (spw (8n+k)) ...) / 8) · y
    H  = Σ_{b,n} max (max_k sig(x1(b,8n+k)) - sig(x0(b,n))) 0 · y
    NF = Σ_{b,n} (1 - sig x)^2 · y · lsig x,   SF the same over the subnarratives
    total = 1·(A/2^21 - 0.1·NF/2^21) + 1·((Vc > 0 ? G / max Vc 1 : 0) - 0.1·SF/2^24) + 0.5·H/2^14
  The float literals stay as their f32 words except 0 and 1, which are the numbers.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SN : Shape := ⟨2, ![16384, 128]⟩
abbrev SS : Shape := ⟨2, ![16384, 1024]⟩

/-- The f32 word of 1.0 is the number 1. -/
theorem ofBits_one_f32 : Ideal.ofBits .f32 0x3F800000#32 = 1 := by
  simp [Ideal.ofBits, Ideal.ieee, -EReal.coe_mul]; norm_num

/-- A label word read as a signed integer, as an extended real. -/
def lab (w : BitVec 32) : EReal := ((w.toInt : ℝ) : EReal)

def sp (x : EReal) : EReal := max x 0 + Ideal.log1p (Ideal.exp (-(max x (-x))))
def sig (x : EReal) : EReal := Ideal.div 1 (1 + Ideal.exp (-x))
def lsig (x : EReal) : EReal := -(sp (-x))
def bce (w y x : EReal) : EReal := w * y * sp (-x) + (1 - y) * sp x
/-- The focal term with the square spelt as a power with the f32 exponent 2.0. -/
def focal (y x : EReal) : EReal := Ideal.pow (1 - sig x) (Ideal.ofBits .f32 0x40000000#32) * y * lsig x
/-- The focal term with the square spelt as a product. -/
def focalSq (y x : EReal) : EReal := (1 - sig x) * (1 - sig x) * y * lsig x
def eps : EReal := Ideal.ofBits .f32 0x358637BD#32
/-- The f32 word of 0.125. -/
def eighth : EReal := Ideal.ofBits .f32 0x3E000000#32
def clip (v : EReal) : EReal := min (Ideal.ofBits .f32 0x42480000#32) (max 1 v)
def posw (S s : EReal) : EReal := clip (Ideal.div S (s + eps))

/-- Subnarrative k of narrative n. -/
def sub (n : Fin 128) (k : Fin 8) : Fin 1024 := ⟨8 * n.val + k.val, by omega⟩

def cBN : EReal := Ideal.ofBits .f32 0x4A000000#32
def cBS : EReal := Ideal.ofBits .f32 0x4B800000#32
def cB : EReal := Ideal.ofBits .f32 0x46800000#32
def tenth : EReal := Ideal.ofBits .f32 0x3DCCCCCD#32
def half : EReal := Ideal.ofBits .f32 0x3F000000#32

/-- The last lines of both programs: the three losses and two focal means combined. -/
def tail (a g vc h nf sf : EReal) : EReal :=
  (1 * (Ideal.div a cBN - tenth * Ideal.div nf cBN)
    + 1 * (Scalar.select (Ideal.cmp .ogt vc 0) (Ideal.div g (max vc 1)) 0 - tenth * Ideal.div sf cBS))
  + half * Ideal.div h cB

section
variable (x0 : SN.Idx → EReal) (x1 : SS.Idx → EReal) (l2 : SN.Idx → BitVec 32) (l3 : SS.Idx → BitVec 32)

def npw (n : Fin 128) : EReal :=
  posw (∑ b : Fin 16384, (1 - lab (l2 (ix2 b n)))) (∑ b : Fin 16384, lab (l2 (ix2 b n)))
def spw (j : Fin 1024) : EReal :=
  posw (∑ b : Fin 16384, (1 - lab (l3 (ix2 b j)))) (∑ b : Fin 16384, lab (l3 (ix2 b j)))

def bceN (b : Fin 16384) (n : Fin 128) : EReal := bce (npw l2 n) (lab (l2 (ix2 b n))) (x0 (ix2 b n))
def bceS (b : Fin 16384) (j : Fin 1024) : EReal := bce (spw l3 j) (lab (l3 (ix2 b j))) (x1 (ix2 b j))

def grp (b : Fin 16384) (n : Fin 128) : EReal :=
  Ideal.div (∑ k : Fin 8, bceS x1 l3 b (sub n k)) (Ideal.ofBits .f32 0x41000000#32)
def gmax (b : Fin 16384) (n : Fin 128) : EReal :=
  (Finset.univ : Finset (Fin 8)).fold max (Ideal.ofBits .f32 0xFF800000#32) (fun k => sig (x1 (ix2 b (sub n k))))

def A : EReal := ∑ i : SN.Idx, bceN x0 l2 (i 0) (i 1)
def Vc : EReal := ∑ i : SN.Idx, lab (l2 i)
def G : EReal := ∑ i : SN.Idx, grp x1 l3 (i 0) (i 1) * lab (l2 i)
def H : EReal := ∑ i : SN.Idx, max (gmax x1 (i 0) (i 1) - sig (x0 i)) 0 * lab (l2 i)
def NF : EReal := ∑ i : SN.Idx, focal (lab (l2 i)) (x0 i)
def SF : EReal := ∑ j : SS.Idx, focal (lab (l3 j)) (x1 j)

def total : EReal := tail (A x0 l2) (G x1 l2 l3) (Vc l2) (H x0 x1 l2) (NF x0 l2) (SF x1 l3)
end

end Cert.Spec

end
-- ==== Proof.KLayout.lean ====
/-
  The re-laid subnarrative arrays read at an entry: the [16384,1024] array seen as [16384,128,8] and then with its
  last two axes exchanged holds, at (b, k, n), the original entry (b, 8n+k) — subnarrative k of narrative n.
  Also: a sum over the indices of a vector is the sum over its one coordinate.
-/
import proofs.«117294_j80676665688521_2_alg».proof.Proof.KHost
import proofs.«117294_j80676665688521_2_alg».proof.Proof.Spec
import Idealize.ShloMosaic.Lib.Pipeline.Value
import Idealize.ShloMosaic.Lib.ValueLayout

set_option maxRecDepth 16384

noncomputable section

namespace Cert.KernelIdeal.KLayout

open Idealize.ShloMosaic Idealize.ShloMosaic.ValueIdx
open Cert.KernelIdeal Cert.KernelIdeal.Gen Cert.KernelIdeal.KHost Cert.Spec

variable {F : FTy → Type} [FloatOps F]

/-- The re-laid array at (b, k, n) is the original at (b, 8n+k). -/
theorem relay_apply {e : EltTy} (x : Vec F S16384x1024 e) (b : Fin 16384) (k : Fin 8) (n : Fin 128) :
    relay x (ix3 b k n) = x (ix2 b (sub n k)) := by
  unfold relay
  rw [transpose_ix3_021_apply]
  refine shapeCast_apply x _ _ _ ?_
  rw [Shape.rowMajor_val_two, Shape.rowMajor_val_three]
  show b.val * 1024 + (8 * n.val + k.val) = (b.val * 128 + n.val) * 8 + k.val
  omega

/-- The indices of a vector of `n` entries are its coordinates. -/
def idxEquiv1 {n : ℕ} : (⟨1, ![n]⟩ : Shape).Idx ≃ Fin n where
  toFun j := j 0
  invFun a := ix1 a
  left_inv j := (eq_ix1 j).symm
  right_inv _ := rfl

/-- A sum over the indices of a vector is the sum over its coordinate. -/
theorem sum_idx1 {M : Type*} [AddCommMonoid M] {n : ℕ} (f : (⟨1, ![n]⟩ : Shape).Idx → M) :
    ∑ j : (⟨1, ![n]⟩ : Shape).Idx, f j = ∑ a : Fin n, f (ix1 a) :=
  (idxEquiv1.symm.sum_comp f).symm

end Cert.KernelIdeal.KLayout

end
-- ==== Proof.KWeights.lean ====
/-
  The kernel program's host stages read at an entry, over the extended reals.

  The class weight at an entry is `posw (16384 - s) s` of the column sum `s` there, and the scalar result is the common
  `tail` of the six totals: each [128] accumulator summed over its entries from zero.
-/
import proofs.«117294_j80676665688521_2_alg».proof.Proof.KHost
import proofs.«117294_j80676665688521_2_alg».proof.Proof.KLayout
import proofs.«117294_j80676665688521_2_alg».proof.Proof.Spec
import Idealize.ShloMosaic.Lib.IdealHost

set_option maxRecDepth 16384

noncomputable section

namespace Cert.KernelIdeal.KWeights

open Idealize.ShloMosaic Idealize.ShloMosaic.ValueIdx
open Cert.KernelIdeal Cert.KernelIdeal.Gen Cert.KernelIdeal.KHost Cert.KernelIdeal.KLayout

/-- The narrative class weight at entry `n` from the column sums `s`. -/
theorem pwN_apply (s : FVec Ideal S128 .f32) (n : Fin 128) :
    pwN s (ix1 n) = Spec.posw (Spec.cB - s (ix1 n)) (s (ix1 n)) := by
  unfold pwN Spec.posw Spec.clip Spec.cB Spec.eps
  simp only [minimumf, maximumf, Host.divf, subf, addf, broadcastInDim, constant, Ideal.minimumf_def,
    Ideal.maximumf_def, Ideal.hostDivf_def, Ideal.subf_def, Ideal.addf_def, Ideal.ofBits_def, Spec.ofBits_one_f32]

/-- The subnarrative class weight at entry `(k, n)` from the column sums `s`. -/
theorem pwS_apply (s : FVec Ideal S8x128 .f32) (k : Fin 8) (n : Fin 128) :
    pwS s (ix2 k n) = Spec.posw (Spec.cB - s (ix2 k n)) (s (ix2 k n)) := by
  unfold pwS Spec.posw Spec.clip Spec.cB Spec.eps
  simp only [minimumf, maximumf, Host.divf, subf, addf, broadcastInDim, constant, Ideal.minimumf_def,
    Ideal.maximumf_def, Ideal.hostDivf_def, Ideal.subf_def, Ideal.addf_def, Ideal.ofBits_def, Spec.ofBits_one_f32]

/-- A [128] vector summed to a scalar from zero is the sum of its entries. -/
theorem tot_apply (a : FVec Ideal S128 .f32) : tot a ix0 = ∑ n : Fin 128, a (ix1 n) := by
  unfold tot
  rw [hostReduceAdd_apply, Ideal.hostReduceAdd_total _ (fun b => b.elim0)]
  show Ideal.ofBits .f32 0x00000000#32 + _ = _
  rw [Ideal.ofBits_zero_f32, zero_add]
  exact sum_idx1 a

/-- The scalar result is the common tail of the six totals. -/
theorem outK_apply (a6 a7 a8 a9 a10 ns : FVec Ideal S128 .f32) :
    outK a6 a7 a8 a9 a10 ns ix0
      = Spec.tail (∑ n : Fin 128, a6 (ix1 n)) (∑ n : Fin 128, a7 (ix1 n)) (∑ n : Fin 128, ns (ix1 n))
          (∑ n : Fin 128, a8 (ix1 n)) (∑ n : Fin 128, a9 (ix1 n)) (∑ n : Fin 128, a10 (ix1 n)) := by
  unfold outK lossS Spec.tail Spec.cBN Spec.cBS Spec.cB Spec.tenth Spec.half
  simp only [addf, mulf, subf, Host.divf, select, cmpf, maximumf, constant, Ideal.addf_def, Ideal.mulf_def, Ideal.subf_def,
    Ideal.hostDivf_def, Ideal.maximumf_def, Ideal.ofBits_def, tot_apply, Spec.ofBits_one_f32, Ideal.ofBits_zero_f32]
  rfl

end Cert.KernelIdeal.KWeights

end
-- ==== Proof.KAcc0.lean ====
/-
  The column-sum kernel, read for its values.  Its grid has 16 points; point t reads row block t (1024 rows) of the
  narrative labels [16384,128] and of the transposed subnarrative labels [16384,8,128], both integer arrays, and keeps
  two running sums in output blocks whose index never moves: a [128] vector and an [8,128] matrix.  At the first
  point the two blocks are set to zero and the first block's column sums are added; at every later point the block's
  column sums (the labels converted to floats, summed over the 1024 rows) are added to what the point before left.
  So after point n the blocks hold  s_0 = 0 + colsum(block 0),  s_{n+1} = s_n + colsum(block n+1),  and since each
  output array is one block, written back after the last point only, the arrays end holding s_15.
  Everything is stated for any float type and any contents of the arrays when the region is entered.
-/
import proofs.«117294_j80676665688521_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KAcc

open Cert.KernelIdeal Cert.KernelIdeal.Gen

variable {F : FTy → Type} [FloatOps F]
variable (V : (c : Dev nD) → (b : Ref sig .tc) → Buf (Elt F) ((c : Thread nD τ).loc b))

/-- The zero offsets of a one-axis block, as a constant function. -/
theorem hz1 : (![0] : Fin 1 → Nat) = fun _ => 0 := funext fun a => by fin_cases a <;> rfl
/-- The zero offsets of a two-axis block, as a constant function. -/
theorem hz2 : (![0, 0] : Fin 2 → Nat) = fun _ => 0 := funext fun a => by fin_cases a <;> rfl
/-- The zero offsets of a three-axis block, as a constant function. -/
theorem hz3 : (![0, 0, 0] : Fin 3 → Nat) = fun _ => 0 := funext fun a => by fin_cases a <;> rfl

/-! ## What one point leaves in the two blocks -/

/-- A later point leaves in the [128] block its contents plus the column sums of the narrative-label block. -/
theorem out0_B_2_eq (c : Dev nD) (i : grid0.Coords) (a1 : Memref sig .tc .vmem S1024x128 .i32) (h1 : a1.IsWhole)
    (a2 : Memref sig .tc .vmem S1024x8x128 .i32) (h2 : a2.IsWhole) (a3 : Memref sig .tc .vmem S128 .f32) (h3 : a3.IsWhole)
    (a4 : Memref sig .tc .vmem S8x128 .f32) (h4 : a4.IsWhole) (hc : ¬cond0_0 i)
    (x0 : Vec F S1024x128 .i32) (x1 : Vec F S1024x8x128 .i32) (xo2 : Vec F S128 .f32) (xo3 : Vec F S8x128 .f32) :
    out0_B_2 c i a1 h1 a2 h2 a3 h3 a4 h4 hc x0 x1 xo2 xo3 = k0_pay3 x0 xo2 := by
  unfold out0_B_2
  rw [View.read_writes_eq_canon _ _ _ (cover0_B_2 c i a1 h1 a2 h2 a3 h3 a4 h4 hc x0 x1 xo2 xo3)]
  unfold kernelRun0_B
  dsimp only
  rw [View.canon_unit_zero (S := S128) hz1]
  simp only [View.readAt_eq_ld, h1.read_unread, h3.read_unread, View.ld_unit_zero (S := S1024x128) hz2,
    View.ld_unit_zero (S := S128) hz1]

/-- A later point leaves in the [8,128] block its contents plus the column sums of the subnarrative-label block. -/
theorem out0_B_3_eq (c : Dev nD) (i : grid0.Coords) (a1 : Memref sig .tc .vmem S1024x128 .i32) (h1 : a1.IsWhole)
    (a2 : Memref sig .tc .vmem S1024x8x128 .i32) (h2 : a2.IsWhole) (a3 : Memref sig .tc .vmem S128 .f32) (h3 : a3.IsWhole)
    (a4 : Memref sig .tc .vmem S8x128 .f32) (h4 : a4.IsWhole) (hc : ¬cond0_0 i)
    (x0 : Vec F S1024x128 .i32) (x1 : Vec F S1024x8x128 .i32) (xo2 : Vec F S128 .f32) (xo3 : Vec F S8x128 .f32) :
    out0_B_3 c i a1 h1 a2 h2 a3 h3 a4 h4 hc x0 x1 xo2 xo3 = k0_pay4 x1 xo3 := by
  unfold out0_B_3
  rw [View.read_writes_eq_canon _ _ _ (cover0_B_3 c i a1 h1 a2 h2 a3 h3 a4 h4 hc x0 x1 xo2 xo3)]
  unfold kernelRun0_B
  dsimp only
  rw [View.canon_unit_zero (S := S8x128) hz2]
  simp only [View.readAt_eq_ld, h2.read_unread, h4.read_unread, View.ld_unit_zero (S := S1024x8x128) hz3,
    View.ld_unit_zero (S := S8x128) hz2]

/-- The first point stores the zero vector, reads it back, and leaves zero plus the first block's column sums. -/
theorem out0_A_2_eq (c : Dev nD) (i : grid0.Coords) (a1 : Memref sig .tc .vmem S1024x128 .i32) (h1 : a1.IsWhole)
    (a2 : Memref sig .tc .vmem S1024x8x128 .i32) (h2 : a2.IsWhole) (a3 : Memref sig .tc .vmem S128 .f32) (h3 : a3.IsWhole)
    (a4 : Memref sig .tc .vmem S8x128 .f32) (h4 : a4.IsWhole) (hc : cond0_0 i)
    (x0 : Vec F S1024x128 .i32) (x1 : Vec F S1024x8x128 .i32) :
    out0_A_2 c i a1 h1 a2 h2 a3 h3 a4 h4 hc x0 x1 = k0_pay3 x0 k0_pay1 := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S128) hz1, View.readCov_unit_zero (S := S128) _ hz1]
  simp only [View.readAt_eq_ld, h1.read_unread, View.ld_unit_zero (S := S1024x128) hz2]

/-- The first point stores the zero matrix, reads it back, and leaves zero plus the first block's column sums. -/
theorem out0_A_3_eq (c : Dev nD) (i : grid0.Coords) (a1 : Memref sig .tc .vmem S1024x128 .i32) (h1 : a1.IsWhole)
    (a2 : Memref sig .tc .vmem S1024x8x128 .i32) (h2 : a2.IsWhole) (a3 : Memref sig .tc .vmem S128 .f32) (h3 : a3.IsWhole)
    (a4 : Memref sig .tc .vmem S8x128 .f32) (h4 : a4.IsWhole) (hc : cond0_0 i)
    (x0 : Vec F S1024x128 .i32) (x1 : Vec F S1024x8x128 .i32) :
    out0_A_3 c i a1 h1 a2 h2 a3 h3 a4 h4 hc x0 x1 = k0_pay4 x1 k0_pay2 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S1024x8x128) hz3]

/-! ## The running sums -/

/-- The two running sums after point `n`: zero plus the first block's column sums, then each block's added in turn. -/
def acc0 (c : Dev nD) : (n : ℕ) → n < cfg0.N → Vec F S128 .f32 × Vec F S8x128 .f32
  | 0, h => (k0_pay3 (iblk0 V c 0 ⟨0, h⟩) k0_pay1, k0_pay4 (iblk0 V c 1 ⟨0, h⟩) k0_pay2)
  | n + 1, h => (k0_pay3 (iblk0 V c 0 ⟨n + 1, h⟩) (acc0 c n (Nat.lt_of_succ_lt h)).1,
      k0_pay4 (iblk0 V c 1 ⟨n + 1, h⟩) (acc0 c n (Nat.lt_of_succ_lt h)).2)

/-- What the two blocks hold after point `n` is the running sums, by induction on the point. -/
theorem outsAt0_eq (c : Dev nD) : ∀ (n : ℕ) (h : n < cfg0.N), outsAt0 V c n h = acc0 V c n h
  | 0, h => by
    rw [outsAt0_A V c ⟨0, h⟩ rfl, out0_A_2_eq, out0_A_3_eq]
    rfl
  | n + 1, h => by
    have hN : cfg0.N = 16 := N_0
    have hB : ¬(⟨n + 1, h⟩ : Fin cfg0.N).val % 16 = 0 := by dsimp only; omega
    rw [outsAt0_B V c ⟨n + 1, h⟩ hB, out0_B_2_eq, out0_B_3_eq]
    show (k0_pay3 (iblk0 V c 0 ⟨n + 1, h⟩) (outsAt0 V c n (Nat.lt_of_succ_lt h)).1,
        k0_pay4 (iblk0 V c 1 ⟨n + 1, h⟩) (outsAt0 V c n (Nat.lt_of_succ_lt h)).2) = acc0 V c (n + 1) h
    rw [outsAt0_eq c n (Nat.lt_of_succ_lt h)]
    rfl

/-! ## The arrays after the region -/

/-- The last point is a point of the grid. -/
theorem lt0_15 : 15 < cfg0.N := by rw [show cfg0.N = 16 from N_0]; decide

/-- The one write-back of the [128] sums, after the last point, writes the running sum: the block is the array. -/
theorem flushed0_2_eq (c : Dev nD) (t : Fin cfg0.N) (hf : (cfg0.win 2).flush t = true) :
    (dat0 V c).flushed 2 t = ((cfg0.win 2).blk t).view.read (Elt F) (acc0 V c 15 lt0_15).1 := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt0_eq]
  have hz' : (fun a => win0_2.index t0_15 a * main_v4_0.ty.shape.size a) = fun _ => 0 := funext fun a => by fin_cases a <;> decide
  exact (Memref.read_access_unit_zero (Elt F) main_v4_0 hz' (fun a => by rw [congrFun hz' a]; simp) (acc0 V c 15 lt0_15).1).symm

/-- The one write-back of the [8,128] sums, after the last point, writes the running sum: the block is the array. -/
theorem flushed0_3_eq (c : Dev nD) (t : Fin cfg0.N) (hf : (cfg0.win 3).flush t = true) :
    (dat0 V c).flushed 3 t = ((cfg0.win 3).blk t).view.read (Elt F) (acc0 V c 15 lt0_15).2 := by
  have hN : cfg0.N = 16 := N_0
  have h15 : t.val = 15 := by have := (flush0_3 t).mp hf; have := t.isLt; omega
  obtain rfl : t = t0_15 := Fin.ext h15
  show (cfg0.win 3).cut (grid0.coords t0_15) ((dat0 V c).after 3 t0_15) = _
  rw [after0_3, outsAt0_eq]
  have hz' : (fun a => win0_3.index t0_15 a * main_v4_1.ty.shape.size a) = fun _ => 0 := funext fun a => by fin_cases a <;> decide
  exact (Memref.read_access_unit_zero (Elt F) main_v4_1 hz' (fun a => by rw [congrFun hz' a]; simp) (acc0 V c 15 lt0_15).2).symm

/-- The [128] array of narrative column sums ends holding the running sum after the last point. -/
theorem final0_2 (c : Dev nD) : (dat0 V c).arrAt 2 cfg0.N = (acc0 V c 15 lt0_15).1 :=
  (dat0 V c).arrAt_eq_of_cover 2 (acc0 V c 15 lt0_15).1 (flushed0_2_eq V c) fun i =>
    ⟨t0_15, (flush0_2 t0_15).mpr rfl, by
      show i ∈ ((View.whole main_v4_0).slice (win0_2.rect t0_15)).set
      rw [View.set_slice_whole, Rect.mem_set_unit]
      intro a
      have h0 : (i 0 : Nat) < 128 := (i 0).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 128 from by decide +kernel]; omega⟩

/-- The [8,128] array of subnarrative column sums ends holding the running sum after the last point. -/
theorem final0_3 (c : Dev nD) : (dat0 V c).arrAt 3 cfg0.N = (acc0 V c 15 lt0_15).2 :=
  (dat0 V c).arrAt_eq_of_cover 3 (acc0 V c 15 lt0_15).2 (flushed0_3_eq V c) fun i =>
    ⟨t0_15, (flush0_3 t0_15).mpr rfl, by
      show i ∈ ((View.whole main_v4_1).slice (win0_3.rect t0_15)).set
      rw [View.set_slice_whole, Rect.mem_set_unit]
      intro a
      have h0 : (i 0 : Nat) < 8 := (i 0).isLt
      have h1 : (i 1 : Nat) < 128 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 8 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 128 from by decide +kernel]; omega⟩

end Cert.KernelIdeal.KAcc

end
-- ==== Proof.KAcc1.lean ====
/-
  The main-loss kernel, read for its values.  Its grid has 32 points; point t reads row block t (512 rows) of the
  narrative logits and labels [16384,128] and of the transposed subnarrative logits and labels [16384,8,128], and
  at every point the same two pos-weight arrays ([128] and [8,128]).  It keeps five running column sums, each a
  [128] vector in an output block whose index never moves: the narrative weighted BCE, the group loss, the hierarchy
  penalty, the narrative focal term and the subnarrative focal term.  At the first point the five blocks are set to
  zero and the first block's terms are added; at every later point the block's terms are added to what the point
  before left.  Each term is a function `step1` of the six input blocks and of the five running sums; so after
  point n the blocks hold  s_0 = step1 (blocks 0) 0,  s_{n+1} = step1 (blocks n+1) s_n,  and since each output array
  is one block, written back after the last point only, the five arrays end holding the components of s_31.
  Everything is stated for any float type and any contents of the arrays when the region is entered.
-/
import proofs.«117294_j80676665688521_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KAcc

open Cert.KernelIdeal Cert.KernelIdeal.Gen

variable {F : FTy → Type} [FloatOps F]
variable (V : (c : Dev nD) → (b : Ref sig .tc) → Buf (Elt F) ((c : Thread nD τ).loc b))

/-- The zero offsets of a one-axis block, as a constant function. -/
theorem hy1 : (![0] : Fin 1 → Nat) = fun _ => 0 := funext fun a => by fin_cases a <;> rfl
/-- The zero offsets of a two-axis block, as a constant function. -/
theorem hy2 : (![0, 0] : Fin 2 → Nat) = fun _ => 0 := funext fun a => by fin_cases a <;> rfl
/-- The zero offsets of a three-axis block, as a constant function. -/
theorem hy3 : (![0, 0, 0] : Fin 3 → Nat) = fun _ => 0 := funext fun a => by fin_cases a <;> rfl

/-! ## What one point leaves in the five blocks -/

/-- A later point adds its block's terms of the narrative weighted-BCE column sums to the block's contents. -/
theorem out1_B_6_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : ¬cond1_0 i)
    (x0 : Vec F S512x128 .f32) (x1 : Vec F S512x128 .i32) (x2 : Vec F S128 .f32) (x3 : Vec F S512x8x128 .f32)
    (x4 : Vec F S512x8x128 .i32) (x5 : Vec F S8x128 .f32) (xo6 xo7 xo8 xo9 xo10 : Vec F S128 .f32) :
    out1_B_6 c i a1 h1 a2 h2 a3 h3 a4 h4 a5 h5 a6 h6 a7 h7 a8 h8 a9 h9 a10 h10 a11 h11 hc x0 x1 x2 x3 x4 x5 xo6 xo7 xo8 xo9 xo10 = k1_pay9 (k1_pay7 x1 x0 x2) (k1_pay8 x1 x0) xo6 := by
  unfold out1_B_6
  rw [View.read_writes_eq_canon _ _ _ (cover1_B_6 c i a1 h1 a2 h2 a3 h3 a4 h4 a5 h5 a6 h6 a7 h7 a8 h8 a9 h9 a10 h10 a11 h11 hc x0 x1 x2 x3 x4 x5 xo6 xo7 xo8 xo9 xo10)]
  unfold kernelRun1_B
  dsimp only
  sl_unfold_words
  rw [View.canon_unit_zero (S := S128) hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- A later point adds its block's terms of the group-loss column sums (subnarrative BCE averaged per narrative, times the narrative label) to the block's contents. -/
theorem out1_B_7_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : ¬cond1_0 i)
    (x0 : Vec F S512x128 .f32) (x1 : Vec F S512x128 .i32) (x2 : Vec F S128 .f32) (x3 : Vec F S512x8x128 .f32)
    (x4 : Vec F S512x8x128 .i32) (x5 : Vec F S8x128 .f32) (xo6 xo7 xo8 xo9 xo10 : Vec F S128 .f32) :
    out1_B_7 c i a1 h1 a2 h2 a3 h3 a4 h4 a5 h5 a6 h6 a7 h7 a8 h8 a9 h9 a10 h10 a11 h11 hc x0 x1 x2 x3 x4 x5 xo6 xo7 xo8 xo9 xo10 = k1_pay14 (k1_pay6 x1) (k1_pay12 x4) (k1_pay13 x3) x5 xo7 := by
  unfold out1_B_7
  rw [View.read_writes_eq_canon _ _ _ (cover1_B_7 c i a1 h1 a2 h2 a3 h3 a4 h4 a5 h5 a6 h6 a7 h7 a8 h8 a9 h9 a10 h10 a11 h11 hc x0 x1 x2 x3 x4 x5 xo6 xo7 xo8 xo9 xo10)]
  unfold kernelRun1_B
  dsimp only
  sl_unfold_words
  rw [View.canon_unit_zero (S := S128) hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- A later point adds its block's terms of the hierarchy-penalty column sums to the block's contents. -/
theorem out1_B_8_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : ¬cond1_0 i)
    (x0 : Vec F S512x128 .f32) (x1 : Vec F S512x128 .i32) (x2 : Vec F S128 .f32) (x3 : Vec F S512x8x128 .f32)
    (x4 : Vec F S512x8x128 .i32) (x5 : Vec F S8x128 .f32) (xo6 xo7 xo8 xo9 xo10 : Vec F S128 .f32) :
    out1_B_8 c i a1 h1 a2 h2 a3 h3 a4 h4 a5 h5 a6 h6 a7 h7 a8 h8 a9 h9 a10 h10 a11 h11 hc x0 x1 x2 x3 x4 x5 xo6 xo7 xo8 xo9 xo10 = k1_pay16 (k1_pay6 x1) (k1_pay10 x0) (k1_pay13 x3) xo8 := by
  unfold out1_B_8
  rw [View.read_writes_eq_canon _ _ _ (cover1_B_8 c i a1 h1 a2 h2 a3 h3 a4 h4 a5 h5 a6 h6 a7 h7 a8 h8 a9 h9 a10 h10 a11 h11 hc x0 x1 x2 x3 x4 x5 xo6 xo7 xo8 xo9 xo10)]
  unfold kernelRun1_B
  dsimp only
  sl_unfold_words
  rw [View.canon_unit_zero (S := S128) hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- A later point adds its block's terms of the narrative focal column sums to the block's contents. -/
theorem out1_B_9_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : ¬cond1_0 i)
    (x0 : Vec F S512x128 .f32) (x1 : Vec F S512x128 .i32) (x2 : Vec F S128 .f32) (x3 : Vec F S512x8x128 .f32)
    (x4 : Vec F S512x8x128 .i32) (x5 : Vec F S8x128 .f32) (xo6 xo7 xo8 xo9 xo10 : Vec F S128 .f32) :
    out1_B_9 c i a1 h1 a2 h2 a3 h3 a4 h4 a5 h5 a6 h6 a7 h7 a8 h8 a9 h9 a10 h10 a11 h11 hc x0 x1 x2 x3 x4 x5 xo6 xo7 xo8 xo9 xo10 = k1_pay11 (k1_pay6 x1) x0 xo9 := by
  unfold out1_B_9
  rw [View.read_writes_eq_canon _ _ _ (cover1_B_9 c i a1 h1 a2 h2 a3 h3 a4 h4 a5 h5 a6 h6 a7 h7 a8 h8 a9 h9 a10 h10 a11 h11 hc x0 x1 x2 x3 x4 x5 xo6 xo7 xo8 xo9 xo10)]
  unfold kernelRun1_B
  dsimp only
  sl_unfold_words
  rw [View.canon_unit_zero (S := S128) hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- A later point adds its block's terms of the subnarrative focal column sums to the block's contents. -/
theorem out1_B_10_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : ¬cond1_0 i)
    (x0 : Vec F S512x128 .f32) (x1 : Vec F S512x128 .i32) (x2 : Vec F S128 .f32) (x3 : Vec F S512x8x128 .f32)
    (x4 : Vec F S512x8x128 .i32) (x5 : Vec F S8x128 .f32) (xo6 xo7 xo8 xo9 xo10 : Vec F S128 .f32) :
    out1_B_10 c i a1 h1 a2 h2 a3 h3 a4 h4 a5 h5 a6 h6 a7 h7 a8 h8 a9 h9 a10 h10 a11 h11 hc x0 x1 x2 x3 x4 x5 xo6 xo7 xo8 xo9 xo10 = k1_pay17 (k1_pay12 x4) (k1_pay13 x3) xo10 := by
  unfold out1_B_10
  rw [View.read_writes_eq_canon _ _ _ (cover1_B_10 c i a1 h1 a2 h2 a3 h3 a4 h4 a5 h5 a6 h6 a7 h7 a8 h8 a9 h9 a10 h10 a11 h11 hc x0 x1 x2 x3 x4 x5 xo6 xo7 xo8 xo9 xo10)]
  unfold kernelRun1_B
  dsimp only
  sl_unfold_words
  rw [View.canon_unit_zero (S := S128) hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- The first point stores the zero vector, reads it back, and adds its block's terms of the narrative weighted-BCE column sums. -/
theorem out1_A_6_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : cond1_0 i)
    (x0 : Vec F S512x128 .f32) (x1 : Vec F S512x128 .i32) (x2 : Vec F S128 .f32) (x3 : Vec F S512x8x128 .f32)
    (x4 : Vec F S512x8x128 .i32) (x5 : Vec F S8x128 .f32) :
    out1_A_6 c i a1 h1 a2 h2 a3 h3 a4 h4 a5 h5 a6 h6 a7 h7 a8 h8 a9 h9 a10 h10 a11 h11 hc x0 x1 x2 x3 x4 x5 = k1_pay9 (k1_pay7 x1 x0 x2) (k1_pay8 x1 x0) k1_pay1 := by
  unfold out1_A_6
  rw [View.read_writes_eq_canon _ _ _ (cover1_A_6 c i a1 h1 a2 h2 a3 h3 a4 h4 a5 h5 a6 h6 a7 h7 a8 h8 a9 h9 a10 h10 a11 h11 hc x0 x1 x2 x3 x4 x5)]
  unfold kernelRun1_A
  dsimp only
  sl_unfold_words
  rw [View.canon_cons_unit_zero (S := S128) hy1, View.readCov_unit_zero (S := S128) _ hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- The first point stores the zero vector, reads it back, and adds its block's terms of the group-loss column sums (subnarrative BCE averaged per narrative, times the narrative label). -/
theorem out1_A_7_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : cond1_0 i)
    (x0 : Vec F S512x128 .f32) (x1 : Vec F S512x128 .i32) (x2 : Vec F S128 .f32) (x3 : Vec F S512x8x128 .f32)
    (x4 : Vec F S512x8x128 .i32) (x5 : Vec F S8x128 .f32) :
    out1_A_7 c i a1 h1 a2 h2 a3 h3 a4 h4 a5 h5 a6 h6 a7 h7 a8 h8 a9 h9 a10 h10 a11 h11 hc x0 x1 x2 x3 x4 x5 = k1_pay14 (k1_pay6 x1) (k1_pay12 x4) (k1_pay13 x3) x5 k1_pay2 := by
  unfold out1_A_7
  rw [View.read_writes_eq_canon _ _ _ (cover1_A_7 c i a1 h1 a2 h2 a3 h3 a4 h4 a5 h5 a6 h6 a7 h7 a8 h8 a9 h9 a10 h10 a11 h11 hc x0 x1 x2 x3 x4 x5)]
  unfold kernelRun1_A
  dsimp only
  sl_unfold_words
  rw [View.canon_cons_unit_zero (S := S128) hy1, View.readCov_unit_zero (S := S128) _ hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- The first point stores the zero vector, reads it back, and adds its block's terms of the hierarchy-penalty column sums. -/
theorem out1_A_8_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : cond1_0 i)
    (x0 : Vec F S512x128 .f32) (x1 : Vec F S512x128 .i32) (x2 : Vec F S128 .f32) (x3 : Vec F S512x8x128 .f32)
    (x4 : Vec F S512x8x128 .i32) (x5 : Vec F S8x128 .f32) :
    out1_A_8 c i a1 h1 a2 h2 a3 h3 a4 h4 a5 h5 a6 h6 a7 h7 a8 h8 a9 h9 a10 h10 a11 h11 hc x0 x1 x2 x3 x4 x5 = k1_pay16 (k1_pay6 x1) (k1_pay10 x0) (k1_pay13 x3) k1_pay3 := by
  unfold out1_A_8
  rw [View.read_writes_eq_canon _ _ _ (cover1_A_8 c i a1 h1 a2 h2 a3 h3 a4 h4 a5 h5 a6 h6 a7 h7 a8 h8 a9 h9 a10 h10 a11 h11 hc x0 x1 x2 x3 x4 x5)]
  unfold kernelRun1_A
  dsimp only
  sl_unfold_words
  rw [View.canon_cons_unit_zero (S := S128) hy1, View.readCov_unit_zero (S := S128) _ hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- The first point stores the zero vector, reads it back, and adds its block's terms of the narrative focal column sums. -/
theorem out1_A_9_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : cond1_0 i)
    (x0 : Vec F S512x128 .f32) (x1 : Vec F S512x128 .i32) (x2 : Vec F S128 .f32) (x3 : Vec F S512x8x128 .f32)
    (x4 : Vec F S512x8x128 .i32) (x5 : Vec F S8x128 .f32) :
    out1_A_9 c i a1 h1 a2 h2 a3 h3 a4 h4 a5 h5 a6 h6 a7 h7 a8 h8 a9 h9 a10 h10 a11 h11 hc x0 x1 x2 x3 x4 x5 = k1_pay11 (k1_pay6 x1) x0 k1_pay4 := by
  unfold out1_A_9
  rw [View.read_writes_eq_canon _ _ _ (cover1_A_9 c i a1 h1 a2 h2 a3 h3 a4 h4 a5 h5 a6 h6 a7 h7 a8 h8 a9 h9 a10 h10 a11 h11 hc x0 x1 x2 x3 x4 x5)]
  unfold kernelRun1_A
  dsimp only
  sl_unfold_words
  rw [View.canon_cons_unit_zero (S := S128) hy1, View.readCov_unit_zero (S := S128) _ hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-- The first point stores the zero vector, reads it back, and adds its block's terms of the subnarrative focal column sums. -/
theorem out1_A_10_eq (c : Dev nD) (i : grid1.Coords) (a1 : Memref sig .tc .vmem S512x128 .f32) (h1 : a1.IsWhole)
    (a2 : Memref sig .tc .vmem S512x128 .i32) (h2 : a2.IsWhole) (a3 : Memref sig .tc .vmem S128 .f32) (h3 : a3.IsWhole)
    (a4 : Memref sig .tc .vmem S512x8x128 .f32) (h4 : a4.IsWhole) (a5 : Memref sig .tc .vmem S512x8x128 .i32) (h5 : a5.IsWhole)
    (a6 : Memref sig .tc .vmem S8x128 .f32) (h6 : a6.IsWhole) (a7 : Memref sig .tc .vmem S128 .f32) (h7 : a7.IsWhole)
    (a8 : Memref sig .tc .vmem S128 .f32) (h8 : a8.IsWhole) (a9 : Memref sig .tc .vmem S128 .f32) (h9 : a9.IsWhole)
    (a10 : Memref sig .tc .vmem S128 .f32) (h10 : a10.IsWhole) (a11 : Memref sig .tc .vmem S128 .f32) (h11 : a11.IsWhole) (hc : cond1_0 i)
    (x0 : Vec F S512x128 .f32) (x1 : Vec F S512x128 .i32) (x2 : Vec F S128 .f32) (x3 : Vec F S512x8x128 .f32)
    (x4 : Vec F S512x8x128 .i32) (x5 : Vec F S8x128 .f32) :
    out1_A_10 c i a1 h1 a2 h2 a3 h3 a4 h4 a5 h5 a6 h6 a7 h7 a8 h8 a9 h9 a10 h10 a11 h11 hc x0 x1 x2 x3 x4 x5 = k1_pay17 (k1_pay12 x4) (k1_pay13 x3) k1_pay5 := by
  unfold out1_A_10
  rw [View.read_writes_eq_canon _ _ _ (cover1_A_10 c i a1 h1 a2 h2 a3 h3 a4 h4 a5 h5 a6 h6 a7 h7 a8 h8 a9 h9 a10 h10 a11 h11 hc x0 x1 x2 x3 x4 x5)]
  unfold kernelRun1_A
  dsimp only
  sl_unfold_words
  rw [View.canon_cons_unit_zero (S := S128) hy1, View.readCov_unit_zero (S := S128) _ hy1]
  simp only [View.readAt_eq_ld, h1.read_unread, h2.read_unread, h3.read_unread, h4.read_unread, h5.read_unread,
    h6.read_unread, h7.read_unread, h8.read_unread, h9.read_unread, h10.read_unread, h11.read_unread,
    View.ld_unit_zero (S := S512x128) hy2, View.ld_unit_zero (S := S128) hy1, View.ld_unit_zero (S := S512x8x128) hy3,
    View.ld_unit_zero (S := S8x128) hy2]

/-! ## The running sums -/

/-- One point's update of the five sums: from the six input blocks and the sums `s6 … s10` before the point. -/
def step1 (x0 : Vec F S512x128 .f32) (x1 : Vec F S512x128 .i32) (x2 : Vec F S128 .f32) (x3 : Vec F S512x8x128 .f32)
    (x4 : Vec F S512x8x128 .i32) (x5 : Vec F S8x128 .f32)
    (s6 s7 s8 s9 s10 : Vec F S128 .f32) :
    Vec F S128 .f32 × Vec F S128 .f32 × Vec F S128 .f32 × Vec F S128 .f32 × Vec F S128 .f32 :=
  (k1_pay9 (k1_pay7 x1 x0 x2) (k1_pay8 x1 x0) s6,
   k1_pay14 (k1_pay6 x1) (k1_pay12 x4) (k1_pay13 x3) x5 s7,
   k1_pay16 (k1_pay6 x1) (k1_pay10 x0) (k1_pay13 x3) s8,
   k1_pay11 (k1_pay6 x1) x0 s9,
   k1_pay17 (k1_pay12 x4) (k1_pay13 x3) s10)

/-- The five running sums after point `n`: the update from zero at the first point, from the sums before at the others. -/
def acc1 (c : Dev nD) : (n : ℕ) → n < cfg1.N →
    Vec F S128 .f32 × Vec F S128 .f32 × Vec F S128 .f32 × Vec F S128 .f32 × Vec F S128 .f32
  | 0, h => step1 (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩)
      k1_pay1 k1_pay2 k1_pay3 k1_pay4 k1_pay5
  | n + 1, h => step1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
      (acc1 c n (Nat.lt_of_succ_lt h)).1 (acc1 c n (Nat.lt_of_succ_lt h)).2.1 (acc1 c n (Nat.lt_of_succ_lt h)).2.2.1
      (acc1 c n (Nat.lt_of_succ_lt h)).2.2.2.1 (acc1 c n (Nat.lt_of_succ_lt h)).2.2.2.2

/-- The sums after the first point. -/
theorem acc1_zero (c : Dev nD) (h : 0 < cfg1.N) : acc1 V c 0 h = step1 (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩)
      k1_pay1 k1_pay2 k1_pay3 k1_pay4 k1_pay5 := rfl

/-- The sums after a later point, from the sums after the point before. -/
theorem acc1_succ (c : Dev nD) (n : ℕ) (h : n + 1 < cfg1.N) : acc1 V c (n + 1) h = step1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
      (acc1 V c n (Nat.lt_of_succ_lt h)).1 (acc1 V c n (Nat.lt_of_succ_lt h)).2.1 (acc1 V c n (Nat.lt_of_succ_lt h)).2.2.1
      (acc1 V c n (Nat.lt_of_succ_lt h)).2.2.2.1 (acc1 V c n (Nat.lt_of_succ_lt h)).2.2.2.2 := rfl

/-- What the five blocks hold after point `n` is the running sums, by induction on the point. -/
theorem outsAt1_eq (c : Dev nD) : ∀ (n : ℕ) (h : n < cfg1.N), outsAt1 V c n h = acc1 V c n h
  | 0, h => by
    rw [outsAt1_A V c ⟨0, h⟩ rfl, out1_A_6_eq, out1_A_7_eq, out1_A_8_eq, out1_A_9_eq, out1_A_10_eq]
    rfl
  | n + 1, h => by
    have hN : cfg1.N = 32 := N_1
    have hB : ¬(⟨n + 1, h⟩ : Fin cfg1.N).val % 32 = 0 := by dsimp only; omega
    rw [outsAt1_B V c ⟨n + 1, h⟩ hB, out1_B_6_eq, out1_B_7_eq, out1_B_8_eq, out1_B_9_eq, out1_B_10_eq]
    show step1 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩)
      (outsAt1 V c n (Nat.lt_of_succ_lt h)).1 (outsAt1 V c n (Nat.lt_of_succ_lt h)).2.1 (outsAt1 V c n (Nat.lt_of_succ_lt h)).2.2.1
      (outsAt1 V c n (Nat.lt_of_succ_lt h)).2.2.2.1 (outsAt1 V c n (Nat.lt_of_succ_lt h)).2.2.2.2 = acc1 V c (n + 1) h
    rw [outsAt1_eq c n (Nat.lt_of_succ_lt h)]
    rfl

/-! ## The arrays after the region -/

/-- The last point is a point of the grid. -/
theorem lt1_31 : 31 < cfg1.N := by rw [show cfg1.N = 32 from N_1]; decide

/-- The last point of the grid. -/
def tL1 : Fin cfg1.N := ⟨31, lt1_31⟩

/-- The one write-back of the narrative weighted-BCE column sums, after the last point, writes the running sum: the block is the array. -/
theorem flushed1_6_eq (c : Dev nD) (t : Fin cfg1.N) (hf : (cfg1.win 6).flush t = true) :
    (dat1 V c).flushed 6 t = ((cfg1.win 6).blk t).view.read (Elt F) (acc1 V c 31 lt1_31).1 := by
  have hN : cfg1.N = 32 := N_1
  have h31 : t.val = 31 := by have := (flush1_6 t).mp hf; have := t.isLt; omega
  obtain rfl : t = tL1 := Fin.ext h31
  show (cfg1.win 6).cut (grid1.coords tL1) ((dat1 V c).after 6 tL1) = _
  rw [after1_6, outsAt1_eq]
  have hz' : (fun a => win1_6.index tL1 a * main_v17_0.ty.shape.size a) = fun _ => 0 := funext fun a => by fin_cases a <;> decide
  exact (Memref.read_access_unit_zero (Elt F) main_v17_0 hz' (fun a => by rw [congrFun hz' a]; simp) (acc1 V c 31 lt1_31).1).symm

/-- The [128] array of the narrative weighted-BCE column sums ends holding the running sum after the last point. -/
theorem final1_6 (c : Dev nD) : (dat1 V c).arrAt 6 cfg1.N = (acc1 V c 31 lt1_31).1 :=
  (dat1 V c).arrAt_eq_of_cover 6 (acc1 V c 31 lt1_31).1 (flushed1_6_eq V c) fun i =>
    ⟨tL1, (flush1_6 tL1).mpr rfl, by
      show i ∈ ((View.whole main_v17_0).slice (win1_6.rect tL1)).set
      rw [View.set_slice_whole, Rect.mem_set_unit]
      intro a
      have h0 : (i 0 : Nat) < 128 := (i 0).isLt
      match a with
      | ⟨0, _⟩ => show win1_6.index tL1 0 * win1_6.size 0 ≤ (i 0 : Nat) ∧ (i 0 : Nat) < win1_6.index tL1 0 * win1_6.size 0 + win1_6.xsize (grid1.coords tL1) 0
                  rw [show win1_6.index tL1 0 * win1_6.size 0 = 0 from by decide +kernel, show win1_6.xsize (grid1.coords tL1) 0 = 128 from by decide +kernel]; omega⟩

/-- The one write-back of the group-loss column sums (subnarrative BCE averaged per narrative, times the narrative label), after the last point, writes the running sum: the block is the array. -/
theorem flushed1_7_eq (c : Dev nD) (t : Fin cfg1.N) (hf : (cfg1.win 7).flush t = true) :
    (dat1 V c).flushed 7 t = ((cfg1.win 7).blk t).view.read (Elt F) (acc1 V c 31 lt1_31).2.1 := by
  have hN : cfg1.N = 32 := N_1
  have h31 : t.val = 31 := by have := (flush1_7 t).mp hf; have := t.isLt; omega
  obtain rfl : t = tL1 := Fin.ext h31
  show (cfg1.win 7).cut (grid1.coords tL1) ((dat1 V c).after 7 tL1) = _
  rw [after1_7, outsAt1_eq]
  have hz' : (fun a => win1_7.index tL1 a * main_v17_1.ty.shape.size a) = fun _ => 0 := funext fun a => by fin_cases a <;> decide
  exact (Memref.read_access_unit_zero (Elt F) main_v17_1 hz' (fun a => by rw [congrFun hz' a]; simp) (acc1 V c 31 lt1_31).2.1).symm

/-- The [128] array of the group-loss column sums (subnarrative BCE averaged per narrative, times the narrative label) ends holding the running sum after the last point. -/
theorem final1_7 (c : Dev nD) : (dat1 V c).arrAt 7 cfg1.N = (acc1 V c 31 lt1_31).2.1 :=
  (dat1 V c).arrAt_eq_of_cover 7 (acc1 V c 31 lt1_31).2.1 (flushed1_7_eq V c) fun i =>
    ⟨tL1, (flush1_7 tL1).mpr rfl, by
      show i ∈ ((View.whole main_v17_1).slice (win1_7.rect tL1)).set
      rw [View.set_slice_whole, Rect.mem_set_unit]
      intro a
      have h0 : (i 0 : Nat) < 128 := (i 0).isLt
      match a with
      | ⟨0, _⟩ => show win1_7.index tL1 0 * win1_7.size 0 ≤ (i 0 : Nat) ∧ (i 0 : Nat) < win1_7.index tL1 0 * win1_7.size 0 + win1_7.xsize (grid1.coords tL1) 0
                  rw [show win1_7.index tL1 0 * win1_7.size 0 = 0 from by decide +kernel, show win1_7.xsize (grid1.coords tL1) 0 = 128 from by decide +kernel]; omega⟩

/-- The one write-back of the hierarchy-penalty column sums, after the last point, writes the running sum: the block is the array. -/
theorem flushed1_8_eq (c : Dev nD) (t : Fin cfg1.N) (hf : (cfg1.win 8).flush t = true) :
    (dat1 V c).flushed 8 t = ((cfg1.win 8).blk t).view.read (Elt F) (acc1 V c 31 lt1_31).2.2.1 := by
  have hN : cfg1.N = 32 := N_1
  have h31 : t.val = 31 := by have := (flush1_8 t).mp hf; have := t.isLt; omega
  obtain rfl : t = tL1 := Fin.ext h31
  show (cfg1.win 8).cut (grid1.coords tL1) ((dat1 V c).after 8 tL1) = _
  rw [after1_8, outsAt1_eq]
  have hz' : (fun a => win1_8.index tL1 a * main_v17_2.ty.shape.size a) = fun _ => 0 := funext fun a => by fin_cases a <;> decide
  exact (Memref.read_access_unit_zero (Elt F) main_v17_2 hz' (fun a => by rw [congrFun hz' a]; simp) (acc1 V c 31 lt1_31).2.2.1).symm

/-- The [128] array of the hierarchy-penalty column sums ends holding the running sum after the last point. -/
theorem final1_8 (c : Dev nD) : (dat1 V c).arrAt 8 cfg1.N = (acc1 V c 31 lt1_31).2.2.1 :=
  (dat1 V c).arrAt_eq_of_cover 8 (acc1 V c 31 lt1_31).2.2.1 (flushed1_8_eq V c) fun i =>
    ⟨tL1, (flush1_8 tL1).mpr rfl, by
      show i ∈ ((View.whole main_v17_2).slice (win1_8.rect tL1)).set
      rw [View.set_slice_whole, Rect.mem_set_unit]
      intro a
      have h0 : (i 0 : Nat) < 128 := (i 0).isLt
      match a with
      | ⟨0, _⟩ => show win1_8.index tL1 0 * win1_8.size 0 ≤ (i 0 : Nat) ∧ (i 0 : Nat) < win1_8.index tL1 0 * win1_8.size 0 + win1_8.xsize (grid1.coords tL1) 0
                  rw [show win1_8.index tL1 0 * win1_8.size 0 = 0 from by decide +kernel, show win1_8.xsize (grid1.coords tL1) 0 = 128 from by decide +kernel]; omega⟩

/-- The one write-back of the narrative focal column sums, after the last point, writes the running sum: the block is the array. -/
theorem flushed1_9_eq (c : Dev nD) (t : Fin cfg1.N) (hf : (cfg1.win 9).flush t = true) :
    (dat1 V c).flushed 9 t = ((cfg1.win 9).blk t).view.read (Elt F) (acc1 V c 31 lt1_31).2.2.2.1 := by
  have hN : cfg1.N = 32 := N_1
  have h31 : t.val = 31 := by have := (flush1_9 t).mp hf; have := t.isLt; omega
  obtain rfl : t = tL1 := Fin.ext h31
  show (cfg1.win 9).cut (grid1.coords tL1) ((dat1 V c).after 9 tL1) = _
  rw [after1_9, outsAt1_eq]
  have hz' : (fun a => win1_9.index tL1 a * main_v17_3.ty.shape.size a) = fun _ => 0 := funext fun a => by fin_cases a <;> decide
  exact (Memref.read_access_unit_zero (Elt F) main_v17_3 hz' (fun a => by rw [congrFun hz' a]; simp) (acc1 V c 31 lt1_31).2.2.2.1).symm

/-- The [128] array of the narrative focal column sums ends holding the running sum after the last point. -/
theorem final1_9 (c : Dev nD) : (dat1 V c).arrAt 9 cfg1.N = (acc1 V c 31 lt1_31).2.2.2.1 :=
  (dat1 V c).arrAt_eq_of_cover 9 (acc1 V c 31 lt1_31).2.2.2.1 (flushed1_9_eq V c) fun i =>
    ⟨tL1, (flush1_9 tL1).mpr rfl, by
      show i ∈ ((View.whole main_v17_3).slice (win1_9.rect tL1)).set
      rw [View.set_slice_whole, Rect.mem_set_unit]
      intro a
      have h0 : (i 0 : Nat) < 128 := (i 0).isLt
      match a with
      | ⟨0, _⟩ => show win1_9.index tL1 0 * win1_9.size 0 ≤ (i 0 : Nat) ∧ (i 0 : Nat) < win1_9.index tL1 0 * win1_9.size 0 + win1_9.xsize (grid1.coords tL1) 0
                  rw [show win1_9.index tL1 0 * win1_9.size 0 = 0 from by decide +kernel, show win1_9.xsize (grid1.coords tL1) 0 = 128 from by decide +kernel]; omega⟩

/-- The one write-back of the subnarrative focal column sums, after the last point, writes the running sum: the block is the array. -/
theorem flushed1_10_eq (c : Dev nD) (t : Fin cfg1.N) (hf : (cfg1.win 10).flush t = true) :
    (dat1 V c).flushed 10 t = ((cfg1.win 10).blk t).view.read (Elt F) (acc1 V c 31 lt1_31).2.2.2.2 := by
  have hN : cfg1.N = 32 := N_1
  have h31 : t.val = 31 := by have := (flush1_10 t).mp hf; have := t.isLt; omega
  obtain rfl : t = tL1 := Fin.ext h31
  show (cfg1.win 10).cut (grid1.coords tL1) ((dat1 V c).after 10 tL1) = _
  rw [after1_10, outsAt1_eq]
  have hz' : (fun a => win1_10.index tL1 a * main_v17_4.ty.shape.size a) = fun _ => 0 := funext fun a => by fin_cases a <;> decide
  exact (Memref.read_access_unit_zero (Elt F) main_v17_4 hz' (fun a => by rw [congrFun hz' a]; simp) (acc1 V c 31 lt1_31).2.2.2.2).symm

/-- The [128] array of the subnarrative focal column sums ends holding the running sum after the last point. -/
theorem final1_10 (c : Dev nD) : (dat1 V c).arrAt 10 cfg1.N = (acc1 V c 31 lt1_31).2.2.2.2 :=
  (dat1 V c).arrAt_eq_of_cover 10 (acc1 V c 31 lt1_31).2.2.2.2 (flushed1_10_eq V c) fun i =>
    ⟨tL1, (flush1_10 tL1).mpr rfl, by
      show i ∈ ((View.whole main_v17_4).slice (win1_10.rect tL1)).set
      rw [View.set_slice_whole, Rect.mem_set_unit]
      intro a
      have h0 : (i 0 : Nat) < 128 := (i 0).isLt
      match a with
      | ⟨0, _⟩ => show win1_10.index tL1 0 * win1_10.size 0 ≤ (i 0 : Nat) ∧ (i 0 : Nat) < win1_10.index tL1 0 * win1_10.size 0 + win1_10.xsize (grid1.coords tL1) 0
                  rw [show win1_10.index tL1 0 * win1_10.size 0 = 0 from by decide +kernel, show win1_10.xsize (grid1.coords tL1) 0 = 128 from by decide +kernel]; omega⟩

end Cert.KernelIdeal.KAcc

end
-- ==== Proof.KBlocks.lean ====
/-
  What each input window of the two pallas_calls holds at a grid point, read off the array the call finds: a block's
  entry sits in the array at (block index) · (block extent) + (coordinate inside the block) on each axis.  The first call
  walks 16 blocks of 1024 rows of the narrative labels and of the re-laid subnarrative labels; the second walks 32 blocks
  of 512 rows of the logits and labels, and sees the two class-weight arrays whole at every point.
-/
import proofs.«117294_j80676665688521_2_alg».proof.Proof.Gen.KernelIdeal.Frame
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.SL.Sem Idealize.ShloMosaic.ValueIdx
open Cert.KernelIdeal Cert.KernelIdeal.Gen

variable {F : FTy → Type} [FloatOps F]
variable (V : (c : Dev nD) → (b : Ref sig .tc) → Buf (Elt F) ((c : Thread nD τ).loc b))

/-! ## The index maps over the grids -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 1) = 0 :=
  (by decide +kernel : ∀ t : Fin grid1.N, _)
theorem idx1_3 : ∀ t : Fin cfg1.N, win1_3.index t (0 : Fin 3) = t.val ∧ win1_3.index t (1 : Fin 3) = 0 ∧ win1_3.index t (2 : Fin 3) = 0 :=
  (by decide +kernel : ∀ t : Fin grid1.N, _)
theorem idx1_4 : ∀ t : Fin cfg1.N, win1_4.index t (0 : Fin 3) = t.val ∧ win1_4.index t (1 : Fin 3) = 0 ∧ win1_4.index t (2 : Fin 3) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)

/-- Row `1024·t + r` of the 16384: row `r` of the first call's block `t`. -/
def row0 (t : Fin cfg0.N) (r : Fin 1024) : Fin 16384 := ⟨1024 * t.val + r.val, by
  have h : cfg0.N = 16 := N_0
  have := t.isLt; have := r.isLt; omega⟩

/-- Row `512·t + r` of the 16384: row `r` of the second call's block `t`. -/
def row1 (t : Fin cfg1.N) (r : Fin 512) : Fin 16384 := ⟨512 * t.val + r.val, by
  have h : cfg1.N = 32 := N_1
  have := t.isLt; have := r.isLt; omega⟩

/-! ## The first call's blocks -/

theorem iblk0_0_apply (c : Dev nD) (t : Fin cfg0.N) (r : Fin 1024) (n : Fin 128) :
    (iblk0 V c 0 t : Vec F S1024x128 .i32) (ix2 r n) = (V c main_arg2 : Vec F S16384x128 .i32) (ix2 (row0 t r) n) := by
  unfold iblk0
  rw [View.read_apply]
  show V c main_arg2 _ = V c main_arg2 _
  refine congrArg (V c main_arg2) ?_
  funext a
  apply Fin.ext
  match a with
  | ⟨0, _⟩ => show win0_0.index t 0 * 1024 + 1 * r.val = 1024 * t.val + r.val; rw [(idx0_0 t).1]; omega
  | ⟨1, _⟩ => show win0_0.index t 1 * 128 + 1 * n.val = n.val; rw [(idx0_0 t).2]; omega

theorem iblk0_1_apply (c : Dev nD) (t : Fin cfg0.N) (r : Fin 1024) (k : Fin 8) (n : Fin 128) :
    (iblk0 V c 1 t : Vec F S1024x8x128 .i32) (ix3 r k n) = (V c main_v3 : Vec F S16384x8x128 .i32) (ix3 (row0 t r) k n) := by
  unfold iblk0
  rw [View.read_apply]
  show V c main_v3 _ = V c main_v3 _
  refine congrArg (V c main_v3) ?_
  funext a
  apply Fin.ext
  match a with
  | ⟨0, _⟩ => show win0_1.index t 0 * 1024 + 1 * r.val = 1024 * t.val + r.val; rw [(idx0_1 t).1]; omega
  | ⟨1, _⟩ => show win0_1.index t 1 * 8 + 1 * k.val = k.val; rw [(idx0_1 t).2.1]; omega
  | ⟨2, _⟩ => show win0_1.index t 2 * 128 + 1 * n.val = n.val; rw [(idx0_1 t).2.2]; omega

/-! ## The second call's blocks -/

theorem iblk1_0_apply (c : Dev nD) (t : Fin cfg1.N) (r : Fin 512) (n : Fin 128) :
    (iblk1 V c 0 t : Vec F S512x128 .f32) (ix2 r n) = (V c main_arg0 : Vec F S16384x128 .f32) (ix2 (row1 t r) n) := by
  unfold iblk1
  rw [View.read_apply]
  show V c main_arg0 _ = V c main_arg0 _
  refine congrArg (V c main_arg0) ?_
  funext a
  apply Fin.ext
  match a with
  | ⟨0, _⟩ => show win1_0.index t 0 * 512 + 1 * r.val = 512 * t.val + r.val; rw [(idx1_0 t).1]; omega
  | ⟨1, _⟩ => show win1_0.index t 1 * 128 + 1 * n.val = n.val; rw [(idx1_0 t).2]; omega

theorem iblk1_1_apply (c : Dev nD) (t : Fin cfg1.N) (r : Fin 512) (n : Fin 128) :
    (iblk1 V c 1 t : Vec F S512x128 .i32) (ix2 r n) = (V c main_arg2 : Vec F S16384x128 .i32) (ix2 (row1 t r) n) := by
  unfold iblk1
  rw [View.read_apply]
  show V c main_arg2 _ = V c main_arg2 _
  refine congrArg (V c main_arg2) ?_
  funext a
  apply Fin.ext
  match a with
  | ⟨0, _⟩ => show win1_1.index t 0 * 512 + 1 * r.val = 512 * t.val + r.val; rw [(idx1_1 t).1]; omega
  | ⟨1, _⟩ => show win1_1.index t 1 * 128 + 1 * n.val = n.val; rw [(idx1_1 t).2]; omega

theorem iblk1_2_apply (c : Dev nD) (t : Fin cfg1.N) (n : Fin 128) :
    (iblk1 V c 2 t : Vec F S128 .f32) (ix1 n) = (V c main_v10 : Vec F S128 .f32) (ix1 n) := by
  unfold iblk1
  rw [View.read_apply]
  show V c main_v10 _ = V c main_v10 _
  refine congrArg (V c main_v10) ?_
  funext a
  apply Fin.ext
  match a with
  | ⟨0, _⟩ => show win1_2.index t 0 * 128 + 1 * n.val = n.val; rw [idx1_2 t]; omega

theorem iblk1_3_apply (c : Dev nD) (t : Fin cfg1.N) (r : Fin 512) (k : Fin 8) (n : Fin 128) :
    (iblk1 V c 3 t : Vec F S512x8x128 .f32) (ix3 r k n) = (V c main_v1 : Vec F S16384x8x128 .f32) (ix3 (row1 t r) k n) := by
  unfold iblk1
  rw [View.read_apply]
  show V c main_v1 _ = V c main_v1 _
  refine congrArg (V c main_v1) ?_
  funext a
  apply Fin.ext
  match a with
  | ⟨0, _⟩ => show win1_3.index t 0 * 512 + 1 * r.val = 512 * t.val + r.val; rw [(idx1_3 t).1]; omega
  | ⟨1, _⟩ => show win1_3.index t 1 * 8 + 1 * k.val = k.val; rw [(idx1_3 t).2.1]; omega
  | ⟨2, _⟩ => show win1_3.index t 2 * 128 + 1 * n.val = n.val; rw [(idx1_3 t).2.2]; omega

theorem iblk1_4_apply (c : Dev nD) (t : Fin cfg1.N) (r : Fin 512) (k : Fin 8) (n : Fin 128) :
    (iblk1 V c 4 t : Vec F S512x8x128 .i32) (ix3 r k n) = (V c main_v3 : Vec F S16384x8x128 .i32) (ix3 (row1 t r) k n) := by
  unfold iblk1
  rw [View.read_apply]
  show V c main_v3 _ = V c main_v3 _
  refine congrArg (V c main_v3) ?_
  funext a
  apply Fin.ext
  match a with
  | ⟨0, _⟩ => show win1_4.index t 0 * 512 + 1 * r.val = 512 * t.val + r.val; rw [(idx1_4 t).1]; omega
  | ⟨1, _⟩ => show win1_4.index t 1 * 8 + 1 * k.val = k.val; rw [(idx1_4 t).2.1]; omega
  | ⟨2, _⟩ => show win1_4.index t 2 * 128 + 1 * n.val = n.val; rw [(idx1_4 t).2.2]; omega

theorem iblk1_5_apply (c : Dev nD) (t : Fin cfg1.N) (k : Fin 8) (n : Fin 128) :
    (iblk1 V c 5 t : Vec F S8x128 .f32) (ix2 k n) = (V c main_v16 : Vec F S8x128 .f32) (ix2 k n) := by
  unfold iblk1
  rw [View.read_apply]
  show V c main_v16 _ = V c main_v16 _
  refine congrArg (V c main_v16) ?_
  funext a
  apply Fin.ext
  match a with
  | ⟨0, _⟩ => show win1_5.index t 0 * 8 + 1 * k.val = k.val; rw [(idx1_5 t).1]; omega
  | ⟨1, _⟩ => show win1_5.index t 1 * 128 + 1 * n.val = n.val; rw [(idx1_5 t).2]; omega

end Cert.KernelIdeal.KBlocks

end
-- ==== Proof.KPayLib.lean ====
/-
  Reading a lane reduction and a row broadcast at an index, over the extended reals.

  A sum over one axis of a block, read at an index of the result, is the finite sum of the block's entries
  over that axis's coordinate with the other coordinates held; a maximum over an axis is the fold of max
  from the starting word's value.  A vector [128] viewed as one row [1,128] and repeated over 512 rows reads,
  at (r, n), its entry n; a table [8,128] viewed [1,8,128] and repeated over 512 rows reads, at (r, k, n), its
  entry (k, n).  Then the element identities of the softplus chain: subtracting zero, negation as zero minus,
  a value is never different from itself, and the chain max x 0 + log(1 + exp(-|x|)) itself.
-/
import proofs.«117294_j80676665688521_2_alg».proof.Proof.Gen.KernelIdeal.Skeleton
import proofs.«117294_j80676665688521_2_alg».proof.Proof.Spec
import Idealize.ShloMosaic.Lib.ValueLayout
import Idealize.ShloMosaic.PureOps.Ideal.Laws

set_option pp.maxSteps 5000
set_option pp.deepTerms false

noncomputable section

namespace Cert.KernelIdeal.KPay

open Cert.KernelIdeal Cert.KernelIdeal.Gen Cert.Spec Idealize.ShloMosaic Idealize.ShloMosaic.ValueIdx

/-! ## Sums and a maximum over one axis, read at an index -/

/-- The sum over the 1024 rows of a [1024,128] block, at column n. -/
theorem sum_rows1024 (v : FVec Ideal S1024x128 .f32) (h : S1024x128.Reduces [0] S128)
    (hφ : FKind.Formats .f32) (hacc : (0x00000000#32 : BitVec 32) = 0x00000000#32) (n : Fin 128) :
    multiReduction .add [0] S128 v 0x00000000#32 h hφ hacc (ix1 n)
      = ∑ r : Fin 1024, v (ix2 r n) := by
  refine (Ideal.multiReduction_add_single v 0x00000000#32 h hφ hacc (ix1 n)).trans ?_
  exact Finset.sum_congr rfl fun r _ => congrArg v (funext fun a => Fin.ext (by
    match a with
    | ⟨0, _⟩ => rfl
    | ⟨1, _⟩ => rfl))

/-- The sum over the 1024 rows of a [1024,8,128] block, at (k, n). -/
theorem sum_rows1024x8 (v : FVec Ideal S1024x8x128 .f32) (h : S1024x8x128.Reduces [0] S8x128)
    (hφ : FKind.Formats .f32) (hacc : (0x00000000#32 : BitVec 32) = 0x00000000#32) (k : Fin 8) (n : Fin 128) :
    multiReduction .add [0] S8x128 v 0x00000000#32 h hφ hacc (ix2 k n)
      = ∑ r : Fin 1024, v (ix3 r k n) := by
  refine (Ideal.multiReduction_add_single v 0x00000000#32 h hφ hacc (ix2 k n)).trans ?_
  exact Finset.sum_congr rfl fun r _ => congrArg v (funext fun a => Fin.ext (by
    match a with
    | ⟨0, _⟩ => rfl
    | ⟨1, _⟩ => rfl
    | ⟨2, _⟩ => rfl))

/-- The sum over the 512 rows of a [512,128] block, at column n. -/
theorem sum_rows512 (v : FVec Ideal S512x128 .f32) (h : S512x128.Reduces [0] S128)
    (hφ : FKind.Formats .f32) (hacc : (0x00000000#32 : BitVec 32) = 0x00000000#32) (n : Fin 128) :
    multiReduction .add [0] S128 v 0x00000000#32 h hφ hacc (ix1 n)
      = ∑ r : Fin 512, v (ix2 r n) := by
  refine (Ideal.multiReduction_add_single v 0x00000000#32 h hφ hacc (ix1 n)).trans ?_
  exact Finset.sum_congr rfl fun r _ => congrArg v (funext fun a => Fin.ext (by
    match a with
    | ⟨0, _⟩ => rfl
    | ⟨1, _⟩ => rfl))

/-- The sum over the middle axis (the 8 members of a group) of a [512,8,128] block, at (r, n). -/
theorem sum_group (v : FVec Ideal S512x8x128 .f32) (h : S512x8x128.Reduces [1] S512x128)
    (hφ : FKind.Formats .f32) (hacc : (0x00000000#32 : BitVec 32) = 0x00000000#32) (r : Fin 512) (n : Fin 128) :
    multiReduction .add [1] S512x128 v 0x00000000#32 h hφ hacc (ix2 r n)
      = ∑ k : Fin 8, v (ix3 r k n) := by
  refine (Ideal.multiReduction_add_single v 0x00000000#32 h hφ hacc (ix2 r n)).trans ?_
  exact Finset.sum_congr rfl fun k _ => congrArg v (funext fun a => Fin.ext (by
    match a with
    | ⟨0, _⟩ => rfl
    | ⟨1, _⟩ => rfl
    | ⟨2, _⟩ => rfl))

/-- The maximum over the middle axis of a [512,8,128] block, at (r, n): the fold of max from the starting word. -/
theorem max_group (v : FVec Ideal S512x8x128 .f32) (h : S512x8x128.Reduces [1] S512x128)
    (hφ : FKind.Formats .f32) (hacc : (0xFF800000#32 : BitVec 32) = 0xFF800000#32) (r : Fin 512) (n : Fin 128) :
    multiReduction .maximumf [1] S512x128 v 0xFF800000#32 h hφ hacc (ix2 r n)
      = (Finset.univ : Finset (Fin 8)).fold max (Ideal.ofBits .f32 0xFF800000#32) (fun k => v (ix3 r k n)) := by
  refine (Ideal.multiReduction_maximumf_single v 0xFF800000#32 h hφ hacc (ix2 r n)).trans ?_
  refine congrArg (fun f => (Finset.univ : Finset (Fin 8)).fold max (Ideal.ofBits .f32 0xFF800000#32) f) (funext fun k => ?_)
  exact congrArg v (funext fun a => Fin.ext (by
    match a with
    | ⟨0, _⟩ => rfl
    | ⟨1, _⟩ => rfl
    | ⟨2, _⟩ => rfl))

/-- The sum over the 512 rows of a [512,8,128] block, at (k, n). -/
theorem sum_rows512x8 (v : FVec Ideal S512x8x128 .f32) (h : S512x8x128.Reduces [0] S8x128)
    (hφ : FKind.Formats .f32) (hacc : (0x00000000#32 : BitVec 32) = 0x00000000#32) (k : Fin 8) (n : Fin 128) :
    multiReduction .add [0] S8x128 v 0x00000000#32 h hφ hacc (ix2 k n)
      = ∑ r : Fin 512, v (ix3 r k n) := by
  refine (Ideal.multiReduction_add_single v 0x00000000#32 h hφ hacc (ix2 k n)).trans ?_
  exact Finset.sum_congr rfl fun r _ => congrArg v (funext fun a => Fin.ext (by
    match a with
    | ⟨0, _⟩ => rfl
    | ⟨1, _⟩ => rfl
    | ⟨2, _⟩ => rfl))

/-- The sum over the 8 rows of an [8,128] table, at column n. -/
theorem sum_eight (v : FVec Ideal S8x128 .f32) (h : S8x128.Reduces [0] S128)
    (hφ : FKind.Formats .f32) (hacc : (0x00000000#32 : BitVec 32) = 0x00000000#32) (n : Fin 128) :
    multiReduction .add [0] S128 v 0x00000000#32 h hφ hacc (ix1 n)
      = ∑ k : Fin 8, v (ix2 k n) := by
  refine (Ideal.multiReduction_add_single v 0x00000000#32 h hφ hacc (ix1 n)).trans ?_
  exact Finset.sum_congr rfl fun k _ => congrArg v (funext fun a => Fin.ext (by
    match a with
    | ⟨0, _⟩ => rfl
    | ⟨1, _⟩ => rfl))

/-! ## A vector repeated over the rows -/

/-- A [128] vector viewed as one row and repeated over 512 rows reads, at (r, n), its entry n. -/
theorem row_repeat {α : Type} (v : S128.Idx → α) (r : Fin 512) (n : Fin 128) :
    broadcastTo S512x128 (shapeCast S1x128 v shapeCasts_S128_S1x128) broadcasts_S1x128_S512x128 (ix2 r n) = v (ix1 n) :=
  (broadcastTo_1b_ab_apply _ broadcasts_S1x128_S512x128 r n).trans (shapeCast_a_1a_apply v shapeCasts_S128_S1x128 0 n)

/-- An [8,128] table viewed [1,8,128] and repeated over 512 rows reads, at (r, k, n), its entry (k, n). -/
theorem table_repeat {α : Type} (v : S8x128.Idx → α) (r : Fin 512) (k : Fin 8) (n : Fin 128) :
    broadcastTo S512x8x128 (shapeCast S1x8x128 v shapeCasts_S8x128_S1x8x128) broadcasts_S1x8x128_S512x8x128 (ix3 r k n)
      = v (ix2 k n) := by
  refine (broadcastTo_apply _ broadcasts_S1x8x128_S512x8x128 (ix3 r k n) (ix3 (0 : Fin 1) k n) fun ax => ?_).trans
    (shapeCast_ab_1ab_apply v shapeCasts_S8x128_S1x8x128 0 k n)
  match ax with
  | ⟨0, _⟩ => rfl
  | ⟨1, _⟩ => rfl
  | ⟨2, _⟩ => rfl

/-! ## The pointwise operations the library leaves to their definitions -/

section Pointwise
variable {s : Shape} {φ : FTy}

/-- An absolute value at an index is the larger of the element and its negation. -/
theorem absf_apply (a : FVec Ideal s φ) (i : s.Idx) : absf a i = max (a i) (-(a i)) := rfl
/-- An exponential at an index is the element's. -/
theorem exp_apply (a : FVec Ideal s φ) (i : s.Idx) : exp a i = Ideal.exp (a i) := rfl
/-- A log(1 + x) at an index is the element's. -/
theorem log1p_apply (a : FVec Ideal s φ) (i : s.Idx) : log1p a i = Ideal.log1p (a i) := rfl
/-- A logistic at an index is the sigmoid of the element. -/
theorem logistic_apply (a : FVec Ideal s φ) (i : s.Idx) : logistic a i = Spec.sig (a i) := rfl
/-- A label word converted to a float is the signed integer it spells. -/
theorem sitofp_lab (x : IVec s 32) (i : s.Idx) : (sitofp .f32 x : FVec Ideal s .f32) i = lab (x i) := rfl

end Pointwise

/-! ## The small payloads of the main kernel, read at an index -/

/-- A comparison of two ideal values is the linear order's. -/
theorem cmpf_ideal {φ : FTy} (p : CmpFPredicate) (x y : Ideal φ) : FloatOps.cmpf p x y = Ideal.cmp p x y := rfl

/-- The narrative labels of the block, converted to floats, are the signed integers the words spell. -/
theorem pay6_apply (v3 : Vec Ideal S512x128 .i32) (i : S512x128.Idx) : k1_pay6 (F := Ideal) v3 i = lab (v3 i) := rfl

/-- The logistic of the narrative logits is their sigmoid. -/
theorem pay10_apply (v5 : Vec Ideal S512x128 .f32) (i : S512x128.Idx) : k1_pay10 (F := Ideal) v5 i = Spec.sig (v5 i) := rfl

/-- The subnarrative labels of the block, converted to floats, are the signed integers the words spell. -/
theorem pay12_apply (v80 : Vec Ideal S512x8x128 .i32) (i : S512x8x128.Idx) :
    k1_pay12 (F := Ideal) v80 i = lab (v80 i) := by
  unfold k1_pay12
  simp only [shapeCast_self]
  rfl

/-- The subnarrative logits of the block are read as they are. -/
theorem pay13_eq (v83 : Vec Ideal S512x8x128 .f32) : k1_pay13 (F := Ideal) v83 = v83 := by
  unfold k1_pay13
  exact shapeCast_self _ _

/-- The logistic of the subnarrative logits is their sigmoid. -/
theorem pay15_apply (v84 : FVec Ideal S512x8x128 .f32) (i : S512x8x128.Idx) :
    k1_pay15 (F := Ideal) v84 i = Spec.sig (v84 i) := rfl

/-! ## Element identities on the extended reals -/

/-- Zero minus x is the negation of x. -/
theorem zero_sub_eq (x : EReal) : 0 - x = -x := by rw [sub_eq_add_neg, zero_add]
/-- x minus zero is x. -/
theorem sub_zero_eq (x : EReal) : x - 0 = x := by rw [sub_eq_add_neg, neg_zero, add_zero]
/-- No extended real differs from itself, so the comparison's bit is 0. -/
theorem cmp_one_self (x : EReal) : Ideal.cmp .one x x = 0#1 := by simp [Ideal.cmp]

/-- The softplus chain at an element: max x 0 + log(1 + exp(0 - |x - 0|)), guarded by a select on "x - 0 differs
    from itself" that never fires, is the softplus of x. -/
theorem sp_chain (x : EReal) :
    Scalar.select (Ideal.cmp .one (x - 0) (x - 0)) (x + 0)
      (max x 0 + Ideal.log1p (Ideal.exp (0 - max (x - 0) (-(x - 0))))) = sp x := by
  rw [cmp_one_self, select_zero, sub_zero_eq, zero_sub_eq]
  rfl

end Cert.KernelIdeal.KPay

end
-- ==== Proof.KPay0.lean ====
/-
  The column-sum kernel's stored values, read at an index over the extended reals.

  The two initial stores write zero everywhere.  The two accumulating stores write, at column n (and group
  member k), the accumulator's entry plus the sum over the block's 1024 rows of the integer labels read as
  signed integers.
-/
import proofs.«117294_j80676665688521_2_alg».proof.Proof.KPayLib

noncomputable section

namespace Cert.KernelIdeal.KPay

open Cert.KernelIdeal Cert.KernelIdeal.Gen Cert.Spec Idealize.ShloMosaic Idealize.ShloMosaic.ValueIdx

/-- The initial value of the narrative column sums is zero at every column. -/
theorem pay1_apply (n : Fin 128) : k0_pay1 (F := Ideal) (ix1 n) = 0 := by
  unfold k0_pay1
  exact Ideal.ofBits_zero_f32

/-- The initial value of the subnarrative column sums is zero at every (k, n). -/
theorem pay2_apply (k : Fin 8) (n : Fin 128) : k0_pay2 (F := Ideal) (ix2 k n) = 0 := by
  unfold k0_pay2
  exact Ideal.ofBits_zero_f32

/-- The narrative column sums after a block: the accumulator plus the block's labels summed over its rows. -/
theorem pay3_apply (v3 : Vec Ideal S1024x128 .i32) (acc : Vec Ideal S128 .f32) (n : Fin 128) :
    k0_pay3 (F := Ideal) v3 acc (ix1 n) = acc (ix1 n) + ∑ r : Fin 1024, lab (v3 (ix2 r n)) := by
  unfold k0_pay3
  simp only [addf_apply, shapeCast_self]
  rw [sum_rows1024]
  rfl

/-- The subnarrative column sums after a block: the accumulator plus the block's labels summed over its rows. -/
theorem pay4_apply (v5 : Vec Ideal S1024x8x128 .i32) (acc : Vec Ideal S8x128 .f32) (k : Fin 8) (n : Fin 128) :
    k0_pay4 (F := Ideal) v5 acc (ix2 k n) = acc (ix2 k n) + ∑ r : Fin 1024, lab (v5 (ix3 r k n)) := by
  unfold k0_pay4
  simp only [addf_apply, shapeCast_self]
  rw [sum_rows1024x8]
  rfl

end Cert.KernelIdeal.KPay

end
-- ==== Proof.KMath.lean ====
/-
  The laws that join the two arrangements of the loss, over the extended reals.

  * A finite sum of reals, seen in the extended reals, is the sum of the extended reals; hence for integer labels
    `Σ_b (1 - y_b) = N - Σ_b y_b` with `N` the number of rows (here 16384, an f32 word): the class-balance numerator
    computed from the column sums is the one computed by summing `1 - y`.
  * Dividing by the f32 word 8.0 is multiplying by the f32 word 0.125, on every extended real.
  * For a real logit the sigmoid is a real number, so `(1 - sig x)` raised to the f32 exponent 2.0 is its square.
  * A sum over `T·R` consecutive indices is the sum over `T` blocks of the sums over each block's `R` indices,
    in any additive commutative monoid (no finiteness asked): the grid's accumulation against one whole sum.
-/
import proofs.«117294_j80676665688521_2_alg».proof.Proof.Spec
import Mathlib.Analysis.SpecialFunctions.Pow.Real

noncomputable section

namespace Cert.KMath

open Idealize.ShloMosaic Idealize.ShloMosaic.ValueIdx Cert.Spec

/-- A finite sum of reals seen in the extended reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 word of 16384.0 is the number 16384. -/
theorem cB_eq : cB = ((16384 : ℝ) : EReal) := by
  unfold cB; simp [Ideal.ofBits, Ideal.ieee, -EReal.coe_mul]; norm_num

/-- The f32 word of 2.0 is the number 2. -/
theorem two_eq : Ideal.ofBits .f32 0x40000000#32 = ((2 : ℝ) : EReal) := by
  simp [Ideal.ofBits, Ideal.ieee, -EReal.coe_mul]; norm_num

/-- The f32 word of 8.0 is the number 8. -/
theorem eight_eq : Ideal.ofBits .f32 0x41000000#32 = ((8 : ℝ) : EReal) := by
  simp [Ideal.ofBits, Ideal.ieee, -EReal.coe_mul]; norm_num

/-- The f32 word of 0.125 is the number 1/8. -/
theorem eighth_eq : eighth = ((1 / 8 : ℝ) : EReal) := by
  unfold eighth; simp [Ideal.ofBits, Ideal.ieee, -EReal.coe_mul]; norm_num

/-- Dividing by 8.0 is multiplying by 0.125, on every extended real. -/
theorem div_eight (x : EReal) : Ideal.div x (Ideal.ofBits .f32 0x41000000#32) = x * eighth := by
  rw [eight_eq, eighth_eq, Ideal.div_coe (by norm_num : (8 : ℝ) ≠ 0)]

/-- Summing `1 - y` over the rows of integer labels is the number of rows minus the labels' sum. -/
theorem sum_one_sub_gen {N : ℕ} (w : Fin N → BitVec 32) :
    ∑ b : Fin N, (1 - lab (w b)) = ((N : ℝ) : EReal) - ∑ b : Fin N, lab (w b) := by
  have h1 : ∀ b : Fin N, (1 : EReal) - lab (w b) = ((1 - ((w b).toInt : ℝ) : ℝ) : EReal) := fun b => by
    unfold lab; rw [EReal.coe_sub]; rfl
  simp only [h1]
  unfold lab
  rw [← coe_sum, ← coe_sum, ← EReal.coe_sub]
  refine congrArg (fun x : ℝ => (x : EReal)) ?_
  rw [Finset.sum_sub_distrib, Finset.sum_const, Finset.card_univ, Fintype.card_fin, nsmul_eq_mul, mul_one]

/-- The same at the 16384 rows of this problem, the count as the f32 word of 16384.0. -/
theorem sum_one_sub (w : Fin 16384 → BitVec 32) :
    ∑ b : Fin 16384, (1 - lab (w b)) = cB - ∑ b : Fin 16384, lab (w b) := by
  rw [sum_one_sub_gen, cB_eq]
  norm_num

/-- So the class weight computed from the column sum is the one computed by summing `1 - y`. -/
theorem posw_colsum (w : Fin 16384 → BitVec 32) :
    posw (cB - ∑ b : Fin 16384, lab (w b)) (∑ b : Fin 16384, lab (w b))
      = posw (∑ b : Fin 16384, (1 - lab (w b))) (∑ b : Fin 16384, lab (w b)) := by
  rw [sum_one_sub]

/-- The sigmoid of a real logit is a real number. -/
theorem sig_coe (r : ℝ) : sig (r : EReal) = ((1 / (1 + Real.exp (-r)) : ℝ) : EReal) := by
  unfold sig
  have h : (1 : EReal) + Ideal.exp (-(r : EReal)) = ((1 + Real.exp (-r) : ℝ) : EReal) := by
    rw [← EReal.coe_neg]; show (1 : EReal) + ((Real.exp (-r) : ℝ) : EReal) = _; rw [EReal.coe_add]; rfl
  rw [h, Ideal.div_coe (by positivity : (1 + Real.exp (-r) : ℝ) ≠ 0), one_mul]

/-- For a real logit the focal factor's power with the f32 exponent 2.0 is the square. -/
theorem focal_eq (y : EReal) (r : ℝ) : focal y (r : EReal) = focalSq y (r : EReal) := by
  unfold focal focalSq
  rw [sig_coe, two_eq]
  have h : (1 : EReal) - ((1 / (1 + Real.exp (-r)) : ℝ) : EReal) = ((1 - 1 / (1 + Real.exp (-r)) : ℝ) : EReal) := by
    rw [EReal.coe_sub]; rfl
  rw [h]
  show ((Real.rpow _ 2 : ℝ) : EReal) * y * _ = _
  rw [show Real.rpow (1 - 1 / (1 + Real.exp (-r))) 2 = (1 - 1 / (1 + Real.exp (-r))) * (1 - 1 / (1 + Real.exp (-r))) from by
    show (1 - 1 / (1 + Real.exp (-r))) ^ (2 : ℝ) = _
    rw [Real.rpow_two, sq]]
  rw [EReal.coe_mul]

/-- Index `R·t + r` of block `t`, position `r`, among `N = T·R` consecutive indices. -/
def blk {T R N : ℕ} (h : T * R = N) (t : Fin T) (r : Fin R) : Fin N :=
  ⟨R * t.val + r.val, by
    have ht := t.isLt; have hr := r.isLt
    calc R * t.val + r.val < R * t.val + R := by omega
      _ = R * (t.val + 1) := by ring
      _ ≤ R * T := Nat.mul_le_mul_left R ht
      _ = N := by rw [Nat.mul_comm]; exact h⟩

/-- A sum over `T·R` consecutive indices is the sum over the `T` blocks of the sums over each block. -/
theorem sum_blocks {M : Type*} [AddCommMonoid M] {T R N : ℕ} (h : T * R = N) (g : Fin N → M) :
    ∑ b : Fin N, g b = ∑ t : Fin T, ∑ r : Fin R, g (blk h t r) := by
  subst h
  rw [← (finProdFinEquiv (m := T) (n := R)).sum_comp, Fintype.sum_prod_type]
  refine Finset.sum_congr rfl fun t _ => Finset.sum_congr rfl fun r _ => congrArg g (Fin.ext ?_)
  simp [finProdFinEquiv, blk]
  ring

end Cert.KMath

end
-- ==== Proof.KSumAcc.lean ====
/-
  A running sum over the points of a grid, read as one sum.

  Let g be a function on N·R consecutive indices with values in an additive commutative monoid, and let block t's
  sum be the sum of g over the R indices R·t + r.  If a quantity equals block 0's sum after the first point and
  grows by block n+1's sum at point n+1, then after point n it is the sum of the sums of blocks 0 … n, and after the
  last point it is the sum of g over all N·R indices.  Only commutativity and associativity of addition are used,
  so the statement holds over the extended reals with no finiteness assumed.
-/
import proofs.«117294_j80676665688521_2_alg».proof.Proof.KMath

noncomputable section

namespace Cert.KernelIdeal.KSum

open Cert.KMath

/-- A quantity that starts at `B 0` and grows by `B (n+1)` at point `n+1` is, after point `n`, the sum of `B`
    over the points up to `n`. -/
theorem acc_upto {M : Type*} [AddCommMonoid M] {N : ℕ} (a : (n : ℕ) → n < N → M) (B : Fin N → M)
    (h0 : ∀ h : 0 < N, a 0 h = B ⟨0, h⟩)
    (hs : ∀ (n : ℕ) (h : n + 1 < N), a (n + 1) h = a n (Nat.lt_of_succ_lt h) + B ⟨n + 1, h⟩) :
    ∀ (n : ℕ) (h : n < N), a n h = ∑ s : Fin (n + 1), B ⟨s.val, lt_of_le_of_lt (Nat.le_of_lt_succ s.isLt) h⟩
  | 0, h => by
    rw [h0 h, Fin.sum_univ_succ, Fin.sum_univ_zero, add_zero]
    rfl
  | n + 1, h => by
    rw [hs n h, acc_upto a B h0 hs n (Nat.lt_of_succ_lt h)]
    exact (Fin.sum_univ_castSucc
      (fun s : Fin (n + 1 + 1) => B ⟨s.val, lt_of_le_of_lt (Nat.le_of_lt_succ s.isLt) h⟩)).symm

/-- With `B t` the sum of `g` over block `t`'s `R` indices, the quantity after the last point is the sum of `g`
    over all `N·R` indices. -/
theorem acc_total {M : Type*} [AddCommMonoid M] {N R K : ℕ} (hNR : N * R = K) (g : Fin K → M)
    (a : (n : ℕ) → n < N → M)
    (h0 : ∀ h : 0 < N, a 0 h = ∑ r : Fin R, g (blk hNR ⟨0, h⟩ r))
    (hs : ∀ (n : ℕ) (h : n + 1 < N),
      a (n + 1) h = a n (Nat.lt_of_succ_lt h) + ∑ r : Fin R, g (blk hNR ⟨n + 1, h⟩ r))
    (n : ℕ) (hn : n < N) (hlast : n + 1 = N) : a n hn = ∑ b : Fin K, g b := by
  subst hlast
  rw [acc_upto a (fun t => ∑ r : Fin R, g (blk hNR t r)) h0 hs n hn, sum_blocks hNR g]

end Cert.KernelIdeal.KSum

end
-- ==== Proof.KSum0.lean ====
/-
  The column sums of the labels, as sums over all 16384 rows.

  After the 16 points of the first kernel's grid the [128] block holds, at class n, the sum over all rows b of the
  narrative label (b, n) read as a signed integer, and the [8,128] block holds, at (k, n), the sum over all rows of
  the re-laid subnarrative label (b, k, n).  At each point the block's stored value is the value before plus the sum
  over the point's 1024 rows; row r of block t is row 1024·t + r of the array; the first point starts from zero;
  so the running value is a sum of block sums, and the blocks tile the 16384 rows.
-/
import proofs.«117294_j80676665688521_2_alg».proof.Proof.KAcc0
import proofs.«117294_j80676665688521_2_alg».proof.Proof.KBlocks
import proofs.«117294_j80676665688521_2_alg».proof.Proof.KPay0
import proofs.«117294_j80676665688521_2_alg».proof.Proof.KSumAcc

noncomputable section

namespace Cert.KernelIdeal.KSum

open Idealize.ShloMosaic Idealize.ShloMosaic.TcCoe Idealize.SL.Sem Idealize.ShloMosaic.ValueIdx
open Cert.KernelIdeal Cert.KernelIdeal.Gen Cert.Spec Cert.KMath
open Cert.KernelIdeal.KAcc Cert.KernelIdeal.KBlocks Cert.KernelIdeal.KPay

variable (V : (c : Dev nD) → (b : Ref sig .tc) → Buf (Elt Ideal) ((c : Thread nD τ).loc b))

/-- Sixteen blocks of 1024 rows are the 16384 rows. -/
theorem rows0 : cfg0.N * 1024 = 16384 := by rw [show cfg0.N = 16 from N_0]

/-- The narrative column sums after the last point: at class `n`, the sum of the labels over all rows. -/
theorem nsum_apply (c : Dev nD) (n : Fin 128) :
    (acc0 V c 15 lt0_15).1 (ix1 n)
      = ∑ b : Fin 16384, lab ((V c main_arg2 : Vec Ideal S16384x128 .i32) (ix2 b n)) :=
  acc_total rows0 (fun b => lab ((V c main_arg2 : Vec Ideal S16384x128 .i32) (ix2 b n)))
    (fun m h => (acc0 V c m h).1 (ix1 n))
    (fun h => by
      show k0_pay3 (iblk0 V c 0 ⟨0, h⟩) (k0_pay1 (F := Ideal)) (ix1 n) = _
      refine (pay3_apply (iblk0 V c 0 ⟨0, h⟩) (k0_pay1 (F := Ideal)) n).trans ?_
      rw [pay1_apply, zero_add]
      exact Finset.sum_congr rfl fun r _ => congrArg lab (iblk0_0_apply V c ⟨0, h⟩ r n))
    (fun m h => by
      show k0_pay3 (iblk0 V c 0 ⟨m + 1, h⟩) (acc0 V c m (Nat.lt_of_succ_lt h)).1 (ix1 n) = _
      refine (pay3_apply (iblk0 V c 0 ⟨m + 1, h⟩) (acc0 V c m (Nat.lt_of_succ_lt h)).1 n).trans ?_
      exact congrArg ((acc0 V c m (Nat.lt_of_succ_lt h)).1 (ix1 n) + ·)
        (Finset.sum_congr rfl fun r _ => congrArg lab (iblk0_0_apply V c ⟨m + 1, h⟩ r n)))
    15 lt0_15 (by rw [show cfg0.N = 16 from N_0])

/-- The subnarrative column sums after the last point: at `(k, n)`, the sum of the labels over all rows. -/
theorem ssum_apply (c : Dev nD) (k : Fin 8) (n : Fin 128) :
    (acc0 V c 15 lt0_15).2 (ix2 k n)
      = ∑ b : Fin 16384, lab ((V c main_v3 : Vec Ideal S16384x8x128 .i32) (ix3 b k n)) :=
  acc_total rows0 (fun b => lab ((V c main_v3 : Vec Ideal S16384x8x128 .i32) (ix3 b k n)))
    (fun m h => (acc0 V c m h).2 (ix2 k n))
    (fun h => by
      show k0_pay4 (iblk0 V c 1 ⟨0, h⟩) (k0_pay2 (F := Ideal)) (ix2 k n) = _
      refine (pay4_apply (iblk0 V c 1 ⟨0, h⟩) (k0_pay2 (F := Ideal)) k n).trans ?_
      rw [pay2_apply, zero_add]
      exact Finset.sum_congr rfl fun r _ => congrArg lab (iblk0_1_apply V c ⟨0, h⟩ r k n))
    (fun m h => by
      show k0_pay4 (iblk0 V c 1 ⟨m + 1, h⟩) (acc0 V c m (Nat.lt_of_succ_lt h)).2 (ix2 k n) = _
      refine (pay4_apply (iblk0 V c 1 ⟨m + 1, h⟩) (acc0 V c m (Nat.lt_of_succ_lt h)).2 k n).trans ?_
      exact congrArg ((acc0 V c m (Nat.lt_of_succ_lt h)).2 (ix2 k n) + ·)
        (Finset.sum_congr rfl fun r _ => congrArg lab (iblk0_1_apply V c ⟨m + 1, h⟩ r k n)))
    15 lt0_15 (by rw [show cfg0.N = 16 from N_0])

end Cert.KernelIdeal.KSum

end
-- ==== Proof.KPay1a.lean ====
/-
  The main kernel's first stores, read at an index over the extended reals.

  The five accumulators start at zero.  The narrative weighted cross-entropy of one block: at row r and class n
  the two products are w_n · y · softplus(-x) and (1 - y) · softplus(x), with y the label and x the logit; the
  stored value at class n is the accumulator plus the sum over the block's 512 rows of their sum, which is the
  weighted cross-entropy bce w_n y x.
-/
import proofs.«117294_j80676665688521_2_alg».proof.Proof.KPayLib

set_option pp.maxSteps 5000
set_option pp.deepTerms false

noncomputable section

namespace Cert.KernelIdeal.KPay

open Cert.KernelIdeal Cert.KernelIdeal.Gen Cert.Spec Idealize.ShloMosaic Idealize.ShloMosaic.ValueIdx

/-- The narrative cross-entropy accumulator starts at zero. -/
theorem zero1_apply (n : Fin 128) : k1_pay1 (F := Ideal) (ix1 n) = 0 := by
  unfold k1_pay1
  exact Ideal.ofBits_zero_f32
/-- The second accumulator starts at zero. -/
theorem zero2_apply (n : Fin 128) : k1_pay2 (F := Ideal) (ix1 n) = 0 := by
  unfold k1_pay2
  exact Ideal.ofBits_zero_f32
/-- The third accumulator starts at zero. -/
theorem zero3_apply (n : Fin 128) : k1_pay3 (F := Ideal) (ix1 n) = 0 := by
  unfold k1_pay3
  exact Ideal.ofBits_zero_f32
/-- The fourth accumulator starts at zero. -/
theorem zero4_apply (n : Fin 128) : k1_pay4 (F := Ideal) (ix1 n) = 0 := by
  unfold k1_pay4
  exact Ideal.ofBits_zero_f32
/-- The fifth accumulator starts at zero. -/
theorem zero5_apply (n : Fin 128) : k1_pay5 (F := Ideal) (ix1 n) = 0 := by
  unfold k1_pay5
  exact Ideal.ofBits_zero_f32

/-- The positive part of the narrative cross-entropy at (r, n): w_n · y · softplus(-x). -/
theorem pay7_apply (v3 : Vec Ideal S512x128 .i32) (v5 : Vec Ideal S512x128 .f32) (v6 : Vec Ideal S128 .f32)
    (r : Fin 512) (n : Fin 128) :
    k1_pay7 (F := Ideal) v3 v5 v6 (ix2 r n) = v6 (ix1 n) * lab (v3 (ix2 r n)) * sp (-(v5 (ix2 r n))) := by
  unfold k1_pay7
  simp only [mulf_apply, select_apply, cmpf_apply, cmpf_ideal, addf_apply, subf_apply, maximumf_apply, absf_apply,
    exp_apply, log1p_apply, broadcast_apply, Ideal.ofBits_def, Ideal.ofBits_zero_f32, shapeCast_self, row_repeat,
    pay6_apply]
  rw [sp_chain, zero_sub_eq]

/-- The negative part of the narrative cross-entropy at (r, n): (1 - y) · softplus(x). -/
theorem pay8_apply (v3 : Vec Ideal S512x128 .i32) (v5 : Vec Ideal S512x128 .f32) (r : Fin 512) (n : Fin 128) :
    k1_pay8 (F := Ideal) v3 v5 (ix2 r n) = (1 - lab (v3 (ix2 r n))) * sp (v5 (ix2 r n)) := by
  unfold k1_pay8
  simp only [mulf_apply, select_apply, cmpf_apply, cmpf_ideal, addf_apply, subf_apply, maximumf_apply, absf_apply,
    exp_apply, log1p_apply, broadcast_apply, Ideal.ofBits_def, Ideal.ofBits_zero_f32, ofBits_one_f32, pay6_apply]
  rw [sp_chain]

/-- The narrative cross-entropy accumulator after a block: at class n, the accumulator plus the sum over the
    block's rows of the weighted cross-entropy of label and logit. -/
theorem narr_apply (v3 : Vec Ideal S512x128 .i32) (v5 : Vec Ideal S512x128 .f32) (v6 : Vec Ideal S128 .f32)
    (acc : Vec Ideal S128 .f32) (n : Fin 128) :
    k1_pay9 (F := Ideal) (k1_pay7 v3 v5 v6) (k1_pay8 v3 v5) acc (ix1 n)
      = acc (ix1 n) + ∑ r : Fin 512, bce (v6 (ix1 n)) (lab (v3 (ix2 r n))) (v5 (ix2 r n)) := by
  unfold k1_pay9
  simp only [addf_apply, shapeCast_self]
  rw [sum_rows512]
  simp only [addf_apply, pay7_apply, pay8_apply]
  rfl

end Cert.KernelIdeal.KPay

end
-- ==== Proof.KPay1b.lean ====
/-
  The narrative focal term of one block, read at an index over the extended reals.

  At row r and class n the product is (1 - σ(x))·(1 - σ(x))·y·(0 - softplus(0 - x)), with y the label, x the logit
  and σ the sigmoid; 0 - softplus(0 - x) is the log-sigmoid of x, so the product is the focal term with the square
  spelt as a product.  The stored value at class n is the accumulator plus its sum over the block's 512 rows.
-/
import proofs.«117294_j80676665688521_2_alg».proof.Proof.KPayLib

set_option pp.maxSteps 5000
set_option pp.deepTerms false

noncomputable section

namespace Cert.KernelIdeal.KPay

open Cert.KernelIdeal Cert.KernelIdeal.Gen Cert.Spec Idealize.ShloMosaic Idealize.ShloMosaic.ValueIdx

/-- The narrative focal accumulator after a block: at class n, the accumulator plus the sum over the block's rows
    of the focal term of label and logit. -/
theorem nf_apply (v3 : Vec Ideal S512x128 .i32) (v5 : Vec Ideal S512x128 .f32) (acc : Vec Ideal S128 .f32)
    (n : Fin 128) :
    k1_pay11 (F := Ideal) (k1_pay6 v3) v5 acc (ix1 n)
      = acc (ix1 n) + ∑ r : Fin 512, focalSq (lab (v3 (ix2 r n))) (v5 (ix2 r n)) := by
  unfold k1_pay11
  simp only [addf_apply, shapeCast_self]
  rw [sum_rows512]
  refine congrArg (acc (ix1 n) + ·) (Finset.sum_congr rfl fun r _ => ?_)
  simp only [mulf_apply, select_apply, cmpf_apply, cmpf_ideal, addf_apply, subf_apply, maximumf_apply, absf_apply,
    exp_apply, log1p_apply, broadcast_apply, Ideal.ofBits_def, Ideal.ofBits_zero_f32, ofBits_one_f32, shapeCast_self, pay6_apply, pay10_apply]
  rw [sp_chain, zero_sub_eq, zero_sub_eq]
  rfl

end Cert.KernelIdeal.KPay

end
-- ==== Proof.KPay1c.lean ====
/-
  The group term of one block, read at an index over the extended reals.

  At row r, member k and class n the weighted cross-entropy of the subnarrative label and logit is
  w_{k,n}·y·softplus(0 - x) + (1 - y)·softplus(x); its sum over the 8 members of class n's group, times one
  eighth, times the narrative label of (r, n), is summed over the block's 512 rows and added to the accumulator.
-/
import proofs.«117294_j80676665688521_2_alg».proof.Proof.KPayLib

set_option pp.maxSteps 5000
set_option pp.deepTerms false

noncomputable section

namespace Cert.KernelIdeal.KPay

open Cert.KernelIdeal Cert.KernelIdeal.Gen Cert.Spec Idealize.ShloMosaic Idealize.ShloMosaic.ValueIdx

/-- The group accumulator after a block: at class n, the accumulator plus the sum over the block's rows of the
    mean over the group's 8 members of their weighted cross-entropy, times the narrative label. -/
theorem group_apply (v3 : Vec Ideal S512x128 .i32) (v80 : Vec Ideal S512x8x128 .i32)
    (v83 : Vec Ideal S512x8x128 .f32) (v85 : Vec Ideal S8x128 .f32) (acc : Vec Ideal S128 .f32) (n : Fin 128) :
    k1_pay14 (F := Ideal) (k1_pay6 v3) (k1_pay12 v80) (k1_pay13 v83) v85 acc (ix1 n)
      = acc (ix1 n) + ∑ r : Fin 512,
          ((∑ k : Fin 8, bce (v85 (ix2 k n)) (lab (v80 (ix3 r k n))) (v83 (ix3 r k n))) * eighth)
            * lab (v3 (ix2 r n)) := by
  rw [pay13_eq]
  unfold k1_pay14
  simp only [addf_apply, shapeCast_self]
  rw [sum_rows512]
  refine congrArg (acc (ix1 n) + ·) (Finset.sum_congr rfl fun r _ => ?_)
  simp only [mulf_apply, broadcast_apply, Ideal.ofBits_def, pay6_apply]
  rw [sum_group]
  refine congrArg (· * lab (v3 (ix2 r n))) (congrArg (· * eighth) (Finset.sum_congr rfl fun k _ => ?_))
  simp only [mulf_apply, select_apply, cmpf_apply, cmpf_ideal, addf_apply, subf_apply, maximumf_apply, absf_apply,
    exp_apply, log1p_apply, broadcast_apply, Ideal.ofBits_def, Ideal.ofBits_zero_f32, ofBits_one_f32, shapeCast_self, pay12_apply, table_repeat]
  rw [sp_chain, sp_chain, zero_sub_eq]
  rfl

end Cert.KernelIdeal.KPay

end
-- ==== Proof.KPay1d.lean ====
/-
  The hierarchy term and the subnarrative focal term of one block, read at an index over the extended reals.

  Hierarchy: at row r and class n, the largest sigmoid among the 8 members of class n's group (the fold of max
  from the word of minus infinity) minus the sigmoid of the narrative logit, cut below at zero, times the
  narrative label; summed over the block's 512 rows and added to the accumulator.
  Subnarrative focal term: (1 - σ(x))·(1 - σ(x))·y·(0 - softplus(0 - x)) at (r, k, n), summed over the rows and then
  over the 8 members, added to the accumulator.
-/
import proofs.«117294_j80676665688521_2_alg».proof.Proof.KPayLib

set_option pp.maxSteps 5000
set_option pp.deepTerms false

noncomputable section

namespace Cert.KernelIdeal.KPay

open Cert.KernelIdeal Cert.KernelIdeal.Gen Cert.Spec Idealize.ShloMosaic Idealize.ShloMosaic.ValueIdx

/-- The hierarchy summand at an element: the positive part of a difference, times a third value. -/
theorem hier_elem (M P L : FVec Ideal S512x128 .f32) (i : S512x128.Idx) :
    mulf (maximumf (subf M P) (broadcast S512x128 (Scalar.ofBits .f32 0x00000000#32))) L i
      = max (M i - P i) 0 * L i := by
  simp only [mulf_apply, maximumf_apply, subf_apply, broadcast_apply, Ideal.ofBits_def, Ideal.ofBits_zero_f32]

/-- The hierarchy accumulator after a block: at class n, the accumulator plus the sum over the block's rows of
    the positive part of (largest member sigmoid minus narrative sigmoid), times the narrative label. -/
theorem hier_apply (v3 : Vec Ideal S512x128 .i32) (v5 : Vec Ideal S512x128 .f32) (v83 : Vec Ideal S512x8x128 .f32)
    (acc : Vec Ideal S128 .f32) (n : Fin 128) :
    k1_pay16 (F := Ideal) (k1_pay6 v3) (k1_pay10 v5) (k1_pay13 v83) acc (ix1 n)
      = acc (ix1 n) + ∑ r : Fin 512,
          max ((Finset.univ : Finset (Fin 8)).fold max (Ideal.ofBits .f32 0xFF800000#32)
                (fun k => Spec.sig (v83 (ix3 r k n))) - Spec.sig (v5 (ix2 r n))) 0 * lab (v3 (ix2 r n)) := by
  rw [pay13_eq]
  unfold k1_pay16
  simp only [addf_apply, shapeCast_self]
  rw [sum_rows512]
  refine congrArg (acc (ix1 n) + ·) (Finset.sum_congr rfl fun r _ => ?_)
  rw [hier_elem, max_group]
  rfl

/-- The subnarrative focal accumulator after a block: at class n, the accumulator plus the sum over the group's 8
    members and the block's rows of the focal term of label and logit. -/
theorem sf_apply (v80 : Vec Ideal S512x8x128 .i32) (v83 : Vec Ideal S512x8x128 .f32) (acc : Vec Ideal S128 .f32)
    (n : Fin 128) :
    k1_pay17 (F := Ideal) (k1_pay12 v80) (k1_pay13 v83) acc (ix1 n)
      = acc (ix1 n) + ∑ k : Fin 8, ∑ r : Fin 512, focalSq (lab (v80 (ix3 r k n))) (v83 (ix3 r k n)) := by
  rw [pay13_eq]
  unfold k1_pay17
  simp only [addf_apply, shapeCast_self]
  rw [sum_eight]
  refine congrArg (acc (ix1 n) + ·) (Finset.sum_congr rfl fun k _ => ?_)
  rw [sum_rows512x8]
  refine Finset.sum_congr rfl fun r _ => ?_
  simp only [mulf_apply, select_apply, cmpf_apply, cmpf_ideal, addf_apply, subf_apply, maximumf_apply, absf_apply,
    exp_apply, log1p_apply, broadcast_apply, Ideal.ofBits_def, Ideal.ofBits_zero_f32, ofBits_one_f32, shapeCast_self, pay12_apply, pay15_apply]
  rw [sp_chain, zero_sub_eq, zero_sub_eq]
  rfl

end Cert.KernelIdeal.KPay

end
-- ==== Proof.KSum1.lean ====
/-
  The five accumulated losses, as sums over all 16384 rows.

  After the 32 points of the main kernel's grid each of the five [128] blocks holds, at class n, the sum over all
  rows b of its term: the weighted cross-entropy of the narrative label and logit; the mean over the narrative's 8
  subnarratives of their weighted cross-entropy, times the narrative label; the positive part of (largest
  subnarrative sigmoid minus narrative sigmoid), times the narrative label; the narrative focal term; and, summed
  also over the 8 subnarratives, the subnarrative focal term.  At each point the stored value is the value before
  plus the sum of the term over the point's 512 rows; row r of block t is row 512·t + r of the arrays, and the two
  class-weight arrays are seen whole at every point; the first point starts from zero; so each running value is a
  sum of block sums, and the blocks tile the 16384 rows.  Only commutativity and associativity of addition are used.
-/
import proofs.«117294_j80676665688521_2_alg».proof.Proof.KAcc1
import proofs.«117294_j80676665688521_2_alg».proof.Proof.KBlocks
import proofs.«117294_j80676665688521_2_alg».proof.Proof.KPay1a
import proofs.«117294_j80676665688521_2_alg».proof.Proof.KPay1b
import proofs.«117294_j80676665688521_2_alg».proof.Proof.KPay1c
import proofs.«117294_j80676665688521_2_alg».proof.Proof.KPay1d
import proofs.«117294_j80676665688521_2_alg».proof.Proof.KSumAcc

noncomputable section

namespace Cert.KernelIdeal.KSum

open Idealize.ShloMosaic Idealize.ShloMosaic.TcCoe Idealize.SL.Sem Idealize.ShloMosaic.ValueIdx
open Cert.KernelIdeal Cert.KernelIdeal.Gen Cert.Spec Cert.KMath
open Cert.KernelIdeal.KAcc Cert.KernelIdeal.KBlocks Cert.KernelIdeal.KPay

variable (V : (c : Dev nD) → (b : Ref sig .tc) → Buf (Elt Ideal) ((c : Thread nD τ).loc b))

/-- Thirty-two blocks of 512 rows are the 16384 rows. -/
theorem rows1 : cfg1.N * 512 = 16384 := by rw [show cfg1.N = 32 from N_1]

/-- One point's update of the narrative weighted cross-entropy, at class `n`: the value before plus the term summed over the rows
    `512·t + r` of the whole arrays. -/
theorem narr_step (c : Dev nD) (t : Fin cfg1.N) (s : Vec Ideal S128 .f32) (n : Fin 128) :
    k1_pay9 (k1_pay7 (iblk1 V c 1 t) (iblk1 V c 0 t) (iblk1 V c 2 t)) (k1_pay8 (iblk1 V c 1 t) (iblk1 V c 0 t)) s (ix1 n)
      = s (ix1 n) + ∑ r : Fin 512, (fun b : Fin 16384 => bce ((V c main_v10 : Vec Ideal S128 .f32) (ix1 n)) (lab ((V c main_arg2 : Vec Ideal S16384x128 .i32) (ix2 b n))) ((V c main_arg0 : Vec Ideal S16384x128 .f32) (ix2 b n))) (blk rows1 t r) := by
  refine (narr_apply (iblk1 V c 1 t) (iblk1 V c 0 t) (iblk1 V c 2 t) s n).trans ?_
  refine congrArg (s (ix1 n) + ·) ?_
  exact Finset.sum_congr rfl fun r _ => by
      rw [iblk1_2_apply V c t n, iblk1_1_apply V c t r n, iblk1_0_apply V c t r n]; rfl

/-- After the last point: at class `n`, the narrative weighted cross-entropy summed over all rows. -/
theorem narr_sum (c : Dev nD) (n : Fin 128) :
    (acc1 V c 31 lt1_31).1 (ix1 n)
      = ∑ b : Fin 16384, bce ((V c main_v10 : Vec Ideal S128 .f32) (ix1 n)) (lab ((V c main_arg2 : Vec Ideal S16384x128 .i32) (ix2 b n))) ((V c main_arg0 : Vec Ideal S16384x128 .f32) (ix2 b n)) :=
  acc_total rows1 (fun b : Fin 16384 => bce ((V c main_v10 : Vec Ideal S128 .f32) (ix1 n)) (lab ((V c main_arg2 : Vec Ideal S16384x128 .i32) (ix2 b n))) ((V c main_arg0 : Vec Ideal S16384x128 .f32) (ix2 b n)))
    (fun m h => (acc1 V c m h).1 (ix1 n))
    (fun h => by
      show k1_pay9 (k1_pay7 (iblk1 V c 1 ⟨0, h⟩) (iblk1 V c 0 ⟨0, h⟩) (iblk1 V c 2 ⟨0, h⟩)) (k1_pay8 (iblk1 V c 1 ⟨0, h⟩) (iblk1 V c 0 ⟨0, h⟩)) (k1_pay1 (F := Ideal)) (ix1 n) = _
      refine (narr_step V c ⟨0, h⟩ (k1_pay1 (F := Ideal)) n).trans ?_
      rw [zero1_apply, zero_add])
    (fun m h => by
      show k1_pay9 (k1_pay7 (iblk1 V c 1 ⟨m + 1, h⟩) (iblk1 V c 0 ⟨m + 1, h⟩) (iblk1 V c 2 ⟨m + 1, h⟩)) (k1_pay8 (iblk1 V c 1 ⟨m + 1, h⟩) (iblk1 V c 0 ⟨m + 1, h⟩)) (acc1 V c m (Nat.lt_of_succ_lt h)).1 (ix1 n) = _
      exact narr_step V c ⟨m + 1, h⟩ (acc1 V c m (Nat.lt_of_succ_lt h)).1 n)
    31 lt1_31 (by rw [show cfg1.N = 32 from N_1])

/-- One point's update of the group loss (the mean over a narrative's 8 subnarratives of their weighted cross-entropy, times the narrative label), at class `n`: the value before plus the term summed over the rows
    `512·t + r` of the whole arrays. -/
theorem group_step (c : Dev nD) (t : Fin cfg1.N) (s : Vec Ideal S128 .f32) (n : Fin 128) :
    k1_pay14 (k1_pay6 (iblk1 V c 1 t)) (k1_pay12 (iblk1 V c 4 t)) (k1_pay13 (iblk1 V c 3 t)) (iblk1 V c 5 t) s (ix1 n)
      = s (ix1 n) + ∑ r : Fin 512, (fun b : Fin 16384 => ((∑ k : Fin 8, bce ((V c main_v16 : Vec Ideal S8x128 .f32) (ix2 k n)) (lab ((V c main_v3 : Vec Ideal S16384x8x128 .i32) (ix3 b k n))) ((V c main_v1 : Vec Ideal S16384x8x128 .f32) (ix3 b k n))) * eighth) * lab ((V c main_arg2 : Vec Ideal S16384x128 .i32) (ix2 b n))) (blk rows1 t r) := by
  refine (group_apply (iblk1 V c 1 t) (iblk1 V c 4 t) (iblk1 V c 3 t) (iblk1 V c 5 t) s n).trans ?_
  refine congrArg (s (ix1 n) + ·) ?_
  exact Finset.sum_congr rfl fun r _ => by
      rw [iblk1_1_apply V c t r n]
      refine congrArg (· * lab ((V c main_arg2 : Vec Ideal S16384x128 .i32) (ix2 (row1 t r) n))) (congrArg (· * eighth) (Finset.sum_congr rfl fun k _ => ?_))
      rw [iblk1_5_apply V c t k n, iblk1_4_apply V c t r k n, iblk1_3_apply V c t r k n]; rfl

/-- After the last point: at class `n`, the group loss (the mean over a narrative's 8 subnarratives of their weighted cross-entropy, times the narrative label) summed over all rows. -/
theorem group_sum (c : Dev nD) (n : Fin 128) :
    (acc1 V c 31 lt1_31).2.1 (ix1 n)
      = ∑ b : Fin 16384, ((∑ k : Fin 8, bce ((V c main_v16 : Vec Ideal S8x128 .f32) (ix2 k n)) (lab ((V c main_v3 : Vec Ideal S16384x8x128 .i32) (ix3 b k n))) ((V c main_v1 : Vec Ideal S16384x8x128 .f32) (ix3 b k n))) * eighth) * lab ((V c main_arg2 : Vec Ideal S16384x128 .i32) (ix2 b n)) :=
  acc_total rows1 (fun b : Fin 16384 => ((∑ k : Fin 8, bce ((V c main_v16 : Vec Ideal S8x128 .f32) (ix2 k n)) (lab ((V c main_v3 : Vec Ideal S16384x8x128 .i32) (ix3 b k n))) ((V c main_v1 : Vec Ideal S16384x8x128 .f32) (ix3 b k n))) * eighth) * lab ((V c main_arg2 : Vec Ideal S16384x128 .i32) (ix2 b n)))
    (fun m h => (acc1 V c m h).2.1 (ix1 n))
    (fun h => by
      show k1_pay14 (k1_pay6 (iblk1 V c 1 ⟨0, h⟩)) (k1_pay12 (iblk1 V c 4 ⟨0, h⟩)) (k1_pay13 (iblk1 V c 3 ⟨0, h⟩)) (iblk1 V c 5 ⟨0, h⟩) (k1_pay2 (F := Ideal)) (ix1 n) = _
      refine (group_step V c ⟨0, h⟩ (k1_pay2 (F := Ideal)) n).trans ?_
      rw [zero2_apply, zero_add])
    (fun m h => by
      show k1_pay14 (k1_pay6 (iblk1 V c 1 ⟨m + 1, h⟩)) (k1_pay12 (iblk1 V c 4 ⟨m + 1, h⟩)) (k1_pay13 (iblk1 V c 3 ⟨m + 1, h⟩)) (iblk1 V c 5 ⟨m + 1, h⟩) (acc1 V c m (Nat.lt_of_succ_lt h)).2.1 (ix1 n) = _
      exact group_step V c ⟨m + 1, h⟩ (acc1 V c m (Nat.lt_of_succ_lt h)).2.1 n)
    31 lt1_31 (by rw [show cfg1.N = 32 from N_1])

/-- One point's update of the hierarchy penalty, at class `n`: the value before plus the term summed over the rows
    `512·t + r` of the whole arrays. -/
theorem hier_step (c : Dev nD) (t : Fin cfg1.N) (s : Vec Ideal S128 .f32) (n : Fin 128) :
    k1_pay16 (k1_pay6 (iblk1 V c 1 t)) (k1_pay10 (iblk1 V c 0 t)) (k1_pay13 (iblk1 V c 3 t)) s (ix1 n)
      = s (ix1 n) + ∑ r : Fin 512, (fun b : Fin 16384 => max ((Finset.univ : Finset (Fin 8)).fold max (Ideal.ofBits .f32 0xFF800000#32) (fun k => Cert.Spec.sig ((V c main_v1 : Vec Ideal S16384x8x128 .f32) (ix3 b k n))) - Cert.Spec.sig ((V c main_arg0 : Vec Ideal S16384x128 .f32) (ix2 b n))) 0 * lab ((V c main_arg2 : Vec Ideal S16384x128 .i32) (ix2 b n))) (blk rows1 t r) := by
  refine (hier_apply (iblk1 V c 1 t) (iblk1 V c 0 t) (iblk1 V c 3 t) s n).trans ?_
  refine congrArg (s (ix1 n) + ·) ?_
  exact Finset.sum_congr rfl fun r _ => by
      rw [iblk1_1_apply V c t r n, iblk1_0_apply V c t r n]
      have e : (fun k : Fin 8 => Cert.Spec.sig ((iblk1 V c 3 t) (ix3 r k n))) = fun k : Fin 8 => Cert.Spec.sig ((V c main_v1 : Vec Ideal S16384x8x128 .f32) (ix3 (row1 t r) k n)) :=
        funext fun k => congrArg Cert.Spec.sig (iblk1_3_apply V c t r k n)
      rw [e]; rfl

/-- After the last point: at class `n`, the hierarchy penalty summed over all rows. -/
theorem hier_sum (c : Dev nD) (n : Fin 128) :
    (acc1 V c 31 lt1_31).2.2.1 (ix1 n)
      = ∑ b : Fin 16384, max ((Finset.univ : Finset (Fin 8)).fold max (Ideal.ofBits .f32 0xFF800000#32) (fun k => Cert.Spec.sig ((V c main_v1 : Vec Ideal S16384x8x128 .f32) (ix3 b k n))) - Cert.Spec.sig ((V c main_arg0 : Vec Ideal S16384x128 .f32) (ix2 b n))) 0 * lab ((V c main_arg2 : Vec Ideal S16384x128 .i32) (ix2 b n)) :=
  acc_total rows1 (fun b : Fin 16384 => max ((Finset.univ : Finset (Fin 8)).fold max (Ideal.ofBits .f32 0xFF800000#32) (fun k => Cert.Spec.sig ((V c main_v1 : Vec Ideal S16384x8x128 .f32) (ix3 b k n))) - Cert.Spec.sig ((V c main_arg0 : Vec Ideal S16384x128 .f32) (ix2 b n))) 0 * lab ((V c main_arg2 : Vec Ideal S16384x128 .i32) (ix2 b n)))
    (fun m h => (acc1 V c m h).2.2.1 (ix1 n))
    (fun h => by
      show k1_pay16 (k1_pay6 (iblk1 V c 1 ⟨0, h⟩)) (k1_pay10 (iblk1 V c 0 ⟨0, h⟩)) (k1_pay13 (iblk1 V c 3 ⟨0, h⟩)) (k1_pay3 (F := Ideal)) (ix1 n) = _
      refine (hier_step V c ⟨0, h⟩ (k1_pay3 (F := Ideal)) n).trans ?_
      rw [zero3_apply, zero_add])
    (fun m h => by
      show k1_pay16 (k1_pay6 (iblk1 V c 1 ⟨m + 1, h⟩)) (k1_pay10 (iblk1 V c 0 ⟨m + 1, h⟩)) (k1_pay13 (iblk1 V c 3 ⟨m + 1, h⟩)) (acc1 V c m (Nat.lt_of_succ_lt h)).2.2.1 (ix1 n) = _
      exact hier_step V c ⟨m + 1, h⟩ (acc1 V c m (Nat.lt_of_succ_lt h)).2.2.1 n)
    31 lt1_31 (by rw [show cfg1.N = 32 from N_1])

/-- One point's update of the narrative focal term, at class `n`: the value before plus the term summed over the rows
    `512·t + r` of the whole arrays. -/
theorem nf_step (c : Dev nD) (t : Fin cfg1.N) (s : Vec Ideal S128 .f32) (n : Fin 128) :
    k1_pay11 (k1_pay6 (iblk1 V c 1 t)) (iblk1 V c 0 t) s (ix1 n)
      = s (ix1 n) + ∑ r : Fin 512, (fun b : Fin 16384 => focalSq (lab ((V c main_arg2 : Vec Ideal S16384x128 .i32) (ix2 b n))) ((V c main_arg0 : Vec Ideal S16384x128 .f32) (ix2 b n))) (blk rows1 t r) := by
  refine (nf_apply (iblk1 V c 1 t) (iblk1 V c 0 t) s n).trans ?_
  refine congrArg (s (ix1 n) + ·) ?_
  exact Finset.sum_congr rfl fun r _ => by
      rw [iblk1_1_apply V c t r n, iblk1_0_apply V c t r n]; rfl

/-- After the last point: at class `n`, the narrative focal term summed over all rows. -/
theorem nf_sum (c : Dev nD) (n : Fin 128) :
    (acc1 V c 31 lt1_31).2.2.2.1 (ix1 n)
      = ∑ b : Fin 16384, focalSq (lab ((V c main_arg2 : Vec Ideal S16384x128 .i32) (ix2 b n))) ((V c main_arg0 : Vec Ideal S16384x128 .f32) (ix2 b n)) :=
  acc_total rows1 (fun b : Fin 16384 => focalSq (lab ((V c main_arg2 : Vec Ideal S16384x128 .i32) (ix2 b n))) ((V c main_arg0 : Vec Ideal S16384x128 .f32) (ix2 b n)))
    (fun m h => (acc1 V c m h).2.2.2.1 (ix1 n))
    (fun h => by
      show k1_pay11 (k1_pay6 (iblk1 V c 1 ⟨0, h⟩)) (iblk1 V c 0 ⟨0, h⟩) (k1_pay4 (F := Ideal)) (ix1 n) = _
      refine (nf_step V c ⟨0, h⟩ (k1_pay4 (F := Ideal)) n).trans ?_
      rw [zero4_apply, zero_add])
    (fun m h => by
      show k1_pay11 (k1_pay6 (iblk1 V c 1 ⟨m + 1, h⟩)) (iblk1 V c 0 ⟨m + 1, h⟩) (acc1 V c m (Nat.lt_of_succ_lt h)).2.2.2.1 (ix1 n) = _
      exact nf_step V c ⟨m + 1, h⟩ (acc1 V c m (Nat.lt_of_succ_lt h)).2.2.2.1 n)
    31 lt1_31 (by rw [show cfg1.N = 32 from N_1])

/-- One point's update of the subnarrative focal term, at class `n`: the value before plus the term summed over
    the 8 subnarratives at the rows `512·t + r` of the whole arrays. -/
theorem sf_step (c : Dev nD) (t : Fin cfg1.N) (s : Vec Ideal S128 .f32) (n : Fin 128) :
    k1_pay17 (k1_pay12 (iblk1 V c 4 t)) (k1_pay13 (iblk1 V c 3 t)) s (ix1 n)
      = s (ix1 n) + ∑ r : Fin 512, (fun b : Fin 16384 => ∑ k : Fin 8, focalSq (lab ((V c main_v3 : Vec Ideal S16384x8x128 .i32) (ix3 b k n))) ((V c main_v1 : Vec Ideal S16384x8x128 .f32) (ix3 b k n))) (blk rows1 t r) := by
  refine (sf_apply (iblk1 V c 4 t) (iblk1 V c 3 t) s n).trans ?_
  refine congrArg (s (ix1 n) + ·) ?_
  rw [Finset.sum_comm]
  exact Finset.sum_congr rfl fun r _ => Finset.sum_congr rfl fun k _ => by
    rw [iblk1_4_apply V c t r k n, iblk1_3_apply V c t r k n]; rfl

/-- After the last point: at class `n`, the subnarrative focal term summed over the 8 subnarratives and all rows. -/
theorem sf_sum (c : Dev nD) (n : Fin 128) :
    (acc1 V c 31 lt1_31).2.2.2.2 (ix1 n)
      = ∑ k : Fin 8, ∑ b : Fin 16384, focalSq (lab ((V c main_v3 : Vec Ideal S16384x8x128 .i32) (ix3 b k n))) ((V c main_v1 : Vec Ideal S16384x8x128 .f32) (ix3 b k n)) :=
  (acc_total rows1 (fun b : Fin 16384 => ∑ k : Fin 8, focalSq (lab ((V c main_v3 : Vec Ideal S16384x8x128 .i32) (ix3 b k n))) ((V c main_v1 : Vec Ideal S16384x8x128 .f32) (ix3 b k n)))
    (fun m h => (acc1 V c m h).2.2.2.2 (ix1 n))
    (fun h => by
      show k1_pay17 (k1_pay12 (iblk1 V c 4 ⟨0, h⟩)) (k1_pay13 (iblk1 V c 3 ⟨0, h⟩)) (k1_pay5 (F := Ideal)) (ix1 n) = _
      refine (sf_step V c ⟨0, h⟩ (k1_pay5 (F := Ideal)) n).trans ?_
      rw [zero5_apply, zero_add])
    (fun m h => by
      show k1_pay17 (k1_pay12 (iblk1 V c 4 ⟨m + 1, h⟩)) (k1_pay13 (iblk1 V c 3 ⟨m + 1, h⟩)) (acc1 V c m (Nat.lt_of_succ_lt h)).2.2.2.2 (ix1 n) = _
      exact sf_step V c ⟨m + 1, h⟩ (acc1 V c m (Nat.lt_of_succ_lt h)).2.2.2.2 n)
    31 lt1_31 (by rw [show cfg1.N = 32 from N_1])).trans Finset.sum_comm

end Cert.KernelIdeal.KSum

end
-- ==== Proof.KGlue.lean ====
/-
  The kernel program's result as a function of the four argument arrays, over the extended reals.

  Walking the ten segments backwards from the result buffer: the last host stretches give `outK` of the second call's five
  accumulators and the first call's narrative column sums; each accumulator's entry n is one sum over the 16384 rows of
  the per-row term at the second call's entry contents; those contents are the logits and labels as launched (the
  subnarrative arrays re-laid), and the class weights `posw (16384 - s) s` of the first call's column sums s — which are
  the sums of the labels read as integers, so that `16384 - s = Σ_b (1 - y_b)`.  Re-indexing the double sums
  (over the 128 narratives and the 16384 rows; over the 8 subnarratives of a narrative) as sums over the arrays'
  indices, and squaring against the power with exponent 2.0 (the logits are real under the precondition), the result
  is `Spec.total`.
-/
import proofs.«117294_j80676665688521_2_alg».proof.Proof.KRun
import proofs.«117294_j80676665688521_2_alg».proof.Proof.KLayout
import proofs.«117294_j80676665688521_2_alg».proof.Proof.KWeights
import proofs.«117294_j80676665688521_2_alg».proof.Proof.KAcc0
import proofs.«117294_j80676665688521_2_alg».proof.Proof.KAcc1
import proofs.«117294_j80676665688521_2_alg».proof.Proof.KSum0
import proofs.«117294_j80676665688521_2_alg».proof.Proof.KSum1
import proofs.«117294_j80676665688521_2_alg».proof.Proof.KMath
import proofs.«117294_j80676665688521_2_alg».proof.Proof.Spec

set_option maxRecDepth 16384

noncomputable section

namespace Cert.KernelIdeal.KGlue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KHost Cert.KernelIdeal.KLayout Cert.KernelIdeal.KWeights
open Cert.KernelIdeal.KAcc Cert.KernelIdeal.KSum

variable (m : (ℓ : Loc nD τ sig) → Buf (Elt Ideal) ℓ) (ρ : Dev nD → PrngReg) (c : Dev nD)

/-- The four argument arrays as launched. -/
abbrev x0 : Vec Ideal S16384x128 .f32 := m ((c : Thread nD τ).loc main_arg0)
abbrev x1 : Vec Ideal S16384x1024 .f32 := m ((c : Thread nD τ).loc main_arg1)
abbrev l2 : Vec Ideal S16384x128 .i32 := m ((c : Thread nD τ).loc main_arg2)
abbrev l3 : Vec Ideal S16384x1024 .i32 := m ((c : Thread nD τ).loc main_arg3)

/-- The first call's two output arrays after it, and the second call's five. -/
abbrev nsum : Vec Ideal S128 .f32 := (dat0 (V1 m ρ) c).arrAt 2 cfg0.N
abbrev ssum : Vec Ideal S8x128 .f32 := (dat0 (V1 m ρ) c).arrAt 3 cfg0.N
abbrev a6 : Vec Ideal S128 .f32 := (dat1 (V6 m ρ) c).arrAt 6 cfg1.N
abbrev a7 : Vec Ideal S128 .f32 := (dat1 (V6 m ρ) c).arrAt 7 cfg1.N
abbrev a8 : Vec Ideal S128 .f32 := (dat1 (V6 m ρ) c).arrAt 8 cfg1.N
abbrev a9 : Vec Ideal S128 .f32 := (dat1 (V6 m ρ) c).arrAt 9 cfg1.N
abbrev a10 : Vec Ideal S128 .f32 := (dat1 (V6 m ρ) c).arrAt 10 cfg1.N

/-! ## The first call's entry contents and its column sums -/

theorem V1_arg2 : V1 m ρ c main_arg2 = l2 m c := hostOps0_arg2 (W0 m ρ c)
theorem V1_v3 : V1 m ρ c main_v3 = relay (l3 m c) := relay_labels (W0 m ρ c)

theorem nsum_eq (n : Fin 128) : nsum m ρ c (ix1 n) = ∑ b : Fin 16384, Spec.lab (l2 m c (ix2 b n)) := by
  show ((dat0 (V1 m ρ) c).arrAt 2 cfg0.N : Vec Ideal S128 .f32) (ix1 n) = _
  rw [final0_2, nsum_apply, V1_arg2]

theorem ssum_eq (k : Fin 8) (n : Fin 128) :
    ssum m ρ c (ix2 k n) = ∑ b : Fin 16384, Spec.lab (l3 m c (ix2 b (Spec.sub n k))) := by
  show ((dat0 (V1 m ρ) c).arrAt 3 cfg0.N : Vec Ideal S8x128 .f32) (ix2 k n) = _
  rw [final0_3, ssum_apply, V1_v3]
  show (∑ b : Fin 16384, Spec.lab (relay (l3 m c) (ix3 b k n)) : EReal) = _
  exact Finset.sum_congr rfl fun b _ => congrArg Spec.lab (relay_apply (l3 m c) b k n)

/-! ## The second call's entry contents -/

theorem W2_arg0 : W2 m ρ c (Proc.devRef .tc main_arg0) = x0 m c :=
  (W2_of_ne m ρ c main_arg0 (by decide)).trans (hostOps0_arg0 (W0 m ρ c))
theorem W2_v1 : W2 m ρ c (Proc.devRef .tc main_v1) = relay (x1 m c) :=
  (W2_of_ne m ρ c main_v1 (by decide)).trans (relay_logits (W0 m ρ c))
theorem W2_arg2 : W2 m ρ c (Proc.devRef .tc main_arg2) = l2 m c :=
  (W2_arr m ρ c 0).trans (((dat0 (V1 m ρ) c).arrAt_in 0 rfl _).trans ((A_eq0 (V1 m ρ) c 0).trans (V1_arg2 m ρ c)))
theorem W2_v3 : W2 m ρ c (Proc.devRef .tc main_v3) = relay (l3 m c) :=
  (W2_arr m ρ c 1).trans (((dat0 (V1 m ρ) c).arrAt_in 1 rfl _).trans ((A_eq0 (V1 m ρ) c 1).trans (V1_v3 m ρ c)))
theorem W2_v4_0 : W2 m ρ c (Proc.devRef .tc main_v4_0) = nsum m ρ c := W2_arr m ρ c 2
theorem W2_v4_1 : W2 m ρ c (Proc.devRef .tc main_v4_1) = ssum m ρ c := W2_arr m ρ c 3

theorem V6_arg0 : V6 m ρ c main_arg0 = x0 m c := (mid_arg0 (W2 m ρ c)).trans (W2_arg0 m ρ c)
theorem V6_arg2 : V6 m ρ c main_arg2 = l2 m c := (mid_arg2 (W2 m ρ c)).trans (W2_arg2 m ρ c)
theorem V6_v1 : (V6 m ρ c main_v1 : Vec Ideal S16384x8x128 .f32) = relay (x1 m c) := (mid_v1 (W2 m ρ c)).trans (W2_v1 m ρ c)
theorem V6_v3 : (V6 m ρ c main_v3 : Vec Ideal S16384x8x128 .i32) = relay (l3 m c) := (mid_v3 (W2 m ρ c)).trans (W2_v3 m ρ c)
theorem V6_v10 : (V6 m ρ c main_v10 : Vec Ideal S128 .f32) = pwN (F := Ideal) (nsum m ρ c) := (mid_v10 (W2 m ρ c)).trans (congrArg (pwN (F := Ideal)) (W2_v4_0 m ρ c))
theorem V6_v16 : (V6 m ρ c main_v16 : Vec Ideal S8x128 .f32) = pwS (F := Ideal) (ssum m ρ c) := (mid_v16 (W2 m ρ c)).trans (congrArg (pwS (F := Ideal)) (W2_v4_1 m ρ c))

/-- The narrative class weight the second call sees is the specification's. -/
theorem w10_eq (n : Fin 128) : (V6 m ρ c main_v10 : Vec Ideal S128 .f32) (ix1 n) = Spec.npw (l2 m c) n := by
  rw [V6_v10, pwN_apply, nsum_eq]
  unfold Spec.npw
  rw [KMath.sum_one_sub]

/-- The subnarrative class weight the second call sees at (k, n) is the specification's at subnarrative 8n+k. -/
theorem w16_eq (k : Fin 8) (n : Fin 128) :
    (V6 m ρ c main_v16 : Vec Ideal S8x128 .f32) (ix2 k n) = Spec.spw (l3 m c) (Spec.sub n k) := by
  rw [V6_v16, pwS_apply, ssum_eq]
  unfold Spec.spw
  rw [KMath.sum_one_sub]

end Cert.KernelIdeal.KGlue

end
-- ==== Proof.KHostFin.lean ====
/-
  The host operations after the second pallas_call, read stretch by stretch for ANY contents of the buffers they do
  not write: fourteen operations form the narrative loss and the two operands of the subnarrative loss, two choose
  between the quotient and zero, and twenty-six combine everything into the scalar result `outK`.
-/
import proofs.«117294_j80676665688521_2_alg».proof.Proof.KHost

set_option maxRecDepth 16384

noncomputable section

namespace Cert.KernelIdeal.KHost

open Idealize.ShloMosaic Idealize.ShloMosaic.TcCoe Idealize.SL.Sem
open Cert.KernelIdeal Cert.KernelIdeal.Gen

variable {F : FTy → Type} [FloatOps F]
variable (Wx : Valuation τ sig (Elt F))

set_option maxHeartbeats 2000000 in
theorem s2_v19 : StableHlo.after hostOps2 Wx (Proc.devRef .tc main_v19)
    = Host.divf (tot (Wx (Proc.devRef .tc main_v17_0))) (constant (F := F) S_ .f32 0x4A000000#32) := by
  after_results; rfl
set_option maxHeartbeats 2000000 in
theorem s2_v22 : StableHlo.after hostOps2 Wx (Proc.devRef .tc main_v22)
    = cmpf .ogt (tot (Wx (Proc.devRef .tc main_v4_0))) (constant (F := F) S_ .f32 0x00000000#32) := by
  after_results; rfl
set_option maxHeartbeats 2000000 in
theorem s2_v24 : StableHlo.after hostOps2 Wx (Proc.devRef .tc main_v24)
    = Host.divf (tot (Wx (Proc.devRef .tc main_v17_1))) (maximumf (tot (Wx (Proc.devRef .tc main_v4_0))) (constant (F := F) S_ .f32 0x3F800000#32)) := by
  after_results; rfl
set_option maxHeartbeats 2000000 in
theorem s2_cst13 : StableHlo.after hostOps2 Wx (Proc.devRef .tc main_cst_13) = constant (F := F) S_ .f32 0x00000000#32 := by
  after_results
set_option maxHeartbeats 2000000 in
theorem s2_v17_2 : StableHlo.after hostOps2 Wx (Proc.devRef .tc main_v17_2) = Wx (Proc.devRef .tc main_v17_2) := by after_results
set_option maxHeartbeats 2000000 in
theorem s2_v17_3 : StableHlo.after hostOps2 Wx (Proc.devRef .tc main_v17_3) = Wx (Proc.devRef .tc main_v17_3) := by after_results
set_option maxHeartbeats 2000000 in
theorem s2_v17_4 : StableHlo.after hostOps2 Wx (Proc.devRef .tc main_v17_4) = Wx (Proc.devRef .tc main_v17_4) := by after_results

theorem s21_v25 : StableHlo.after hostOps2_1 Wx (Proc.devRef .tc main_v25)
    = select (Wx (Proc.devRef .tc main_v22)) (Wx (Proc.devRef .tc main_v24)) (Wx (Proc.devRef .tc main_cst_13)) := by
  after_results; rfl
theorem s21_v19 : StableHlo.after hostOps2_1 Wx (Proc.devRef .tc main_v19) = Wx (Proc.devRef .tc main_v19) := by after_results
theorem s21_v17_2 : StableHlo.after hostOps2_1 Wx (Proc.devRef .tc main_v17_2) = Wx (Proc.devRef .tc main_v17_2) := by after_results
theorem s21_v17_3 : StableHlo.after hostOps2_1 Wx (Proc.devRef .tc main_v17_3) = Wx (Proc.devRef .tc main_v17_3) := by after_results
theorem s21_v17_4 : StableHlo.after hostOps2_1 Wx (Proc.devRef .tc main_v17_4) = Wx (Proc.devRef .tc main_v17_4) := by after_results

set_option maxHeartbeats 4000000 in
theorem s22_v40 : StableHlo.after hostOps2_2 Wx (Proc.devRef .tc main_v40)
    = addf
      (addf
        (mulf (constant (F := F) S_ .f32 0x3F800000#32)
          (subf (Wx (Proc.devRef .tc main_v19))
            (mulf (constant (F := F) S_ .f32 0x3DCCCCCD#32) (Host.divf (tot (Wx (Proc.devRef .tc main_v17_3))) (constant (F := F) S_ .f32 0x4A000000#32)))))
        (mulf (constant (F := F) S_ .f32 0x3F800000#32)
          (subf (Wx (Proc.devRef .tc main_v25))
            (mulf (constant (F := F) S_ .f32 0x3DCCCCCD#32) (Host.divf (tot (Wx (Proc.devRef .tc main_v17_4))) (constant (F := F) S_ .f32 0x4B800000#32))))))
      (mulf (constant (F := F) S_ .f32 0x3F000000#32) (Host.divf (tot (Wx (Proc.devRef .tc main_v17_2))) (constant (F := F) S_ .f32 0x46800000#32))) := by
  after_results; rfl

/-- The stretches after the second call, as one valuation transformer. -/
abbrev fin (Wx : Valuation τ sig (Elt F)) : Valuation τ sig (Elt F) :=
  StableHlo.after hostOps2_2 (StableHlo.after hostOps2_1 (StableHlo.after hostOps2 Wx))

/-- After the second call the result is formed from its five accumulators and the narrative column sums. -/
theorem fin_v40 : fin Wx (Proc.devRef .tc main_v40)
    = outK (Wx (Proc.devRef .tc main_v17_0)) (Wx (Proc.devRef .tc main_v17_1)) (Wx (Proc.devRef .tc main_v17_2))
        (Wx (Proc.devRef .tc main_v17_3)) (Wx (Proc.devRef .tc main_v17_4)) (Wx (Proc.devRef .tc main_v4_0)) := by
  show StableHlo.after hostOps2_2 (StableHlo.after hostOps2_1 (StableHlo.after hostOps2 Wx)) (Proc.devRef .tc main_v40) = _
  rw [s22_v40, s21_v19, s21_v25, s21_v17_2, s21_v17_3, s21_v17_4, s2_v19, s2_v22, s2_v24, s2_cst13, s2_v17_2, s2_v17_3, s2_v17_4]
  rfl

end Cert.KernelIdeal.KHost

end
-- ==== Proof.KValue.lean ====
/-
  The kernel program's result is the specification's total.

  Each of the second call's accumulators, at entry n, is a sum over the 16384 rows of the specification's per-row
  term (the class weights are the specification's; the re-laid subnarrative arrays read back at subnarrative 8n+k;
  dividing by 8.0 against multiplying by 0.125; the square against the power, for real logits).  The six totals are
  then sums over the arrays' indices — a double sum over narratives and rows is the sum over the [16384,128] index
  set, and a triple sum over narratives, their 8 subnarratives and rows is the sum over the [16384,1024] index set —
  and the last host stretch is the common tail.
-/
import proofs.«117294_j80676665688521_2_alg».proof.Proof.KGlue
import proofs.«117294_j80676665688521_2_alg».proof.Proof.KHostFin

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KHost Cert.KernelIdeal.KLayout Cert.KernelIdeal.KWeights
open Cert.KernelIdeal.KAcc Cert.KernelIdeal.KSum Cert.KernelIdeal.KGlue

variable (m : (ℓ : Loc nD τ sig) → Buf (Elt Ideal) ℓ) (ρ : Dev nD → PrngReg) (c : Dev nD)

/-! ## The second call's accumulators at an entry -/

theorem a6_eq (n : Fin 128) : a6 m ρ c (ix1 n) = ∑ b : Fin 16384, Spec.bceN (x0 m c) (l2 m c) b n := by
  show ((dat1 (V6 m ρ) c).arrAt 6 cfg1.N : Vec Ideal S128 .f32) (ix1 n) = _
  rw [final1_6, narr_sum, w10_eq, V6_arg2, V6_arg0]
  show (_ : EReal) = _
  exact Finset.sum_congr rfl fun b _ => rfl

theorem a7_eq (n : Fin 128) :
    a7 m ρ c (ix1 n) = ∑ b : Fin 16384, Spec.grp (x1 m c) (l3 m c) b n * Spec.lab (l2 m c (ix2 b n)) := by
  show ((dat1 (V6 m ρ) c).arrAt 7 cfg1.N : Vec Ideal S128 .f32) (ix1 n) = _
  rw [final1_7, group_sum, V6_arg2, V6_v3, V6_v1]
  show (_ : EReal) = _
  refine Finset.sum_congr rfl fun b _ => ?_
  unfold Spec.grp Spec.bceS
  rw [KMath.div_eight]
  refine congrArg (fun z => z * Spec.eighth * Spec.lab (l2 m c (ix2 b n))) ?_
  refine Finset.sum_congr rfl fun k _ => ?_
  rw [w16_eq, relay_apply, relay_apply]

theorem a8_eq (n : Fin 128) :
    a8 m ρ c (ix1 n)
      = ∑ b : Fin 16384, max (Spec.gmax (x1 m c) b n - Spec.sig (x0 m c (ix2 b n))) 0 * Spec.lab (l2 m c (ix2 b n)) := by
  show ((dat1 (V6 m ρ) c).arrAt 8 cfg1.N : Vec Ideal S128 .f32) (ix1 n) = _
  rw [final1_8, hier_sum, V6_arg2, V6_arg0, V6_v1]
  show (_ : EReal) = _
  refine Finset.sum_congr rfl fun b _ => ?_
  unfold Spec.gmax
  simp only [relay_apply]

theorem a9_eq (hx0 : ∀ i, ∃ r : ℝ, x0 m c i = (r : EReal)) (n : Fin 128) :
    a9 m ρ c (ix1 n) = ∑ b : Fin 16384, Spec.focal (Spec.lab (l2 m c (ix2 b n))) (x0 m c (ix2 b n)) := by
  show ((dat1 (V6 m ρ) c).arrAt 9 cfg1.N : Vec Ideal S128 .f32) (ix1 n) = _
  rw [final1_9, nf_sum, V6_arg2, V6_arg0]
  show (_ : EReal) = _
  refine Finset.sum_congr rfl fun b _ => ?_
  obtain ⟨r, hr⟩ := hx0 (ix2 b n)
  rw [hr, KMath.focal_eq]

theorem a10_eq (hx1 : ∀ j, ∃ r : ℝ, x1 m c j = (r : EReal)) (n : Fin 128) :
    a10 m ρ c (ix1 n) = ∑ k : Fin 8, ∑ b : Fin 16384,
      Spec.focal (Spec.lab (l3 m c (ix2 b (Spec.sub n k)))) (x1 m c (ix2 b (Spec.sub n k))) := by
  show ((dat1 (V6 m ρ) c).arrAt 10 cfg1.N : Vec Ideal S128 .f32) (ix1 n) = _
  rw [final1_10, sf_sum, V6_v3, V6_v1]
  show (_ : EReal) = _
  refine Finset.sum_congr rfl fun k _ => Finset.sum_congr rfl fun b _ => ?_
  rw [relay_apply, relay_apply]
  obtain ⟨r, hr⟩ := hx1 (ix2 b (Spec.sub n k))
  rw [hr, KMath.focal_eq]

/-! ## The result buffer -/

theorem W7_v4_0 : W7 m ρ c (Proc.devRef .tc main_v4_0) = nsum m ρ c :=
  (W7_of_ne m ρ c main_v4_0 (by decide)).trans ((mid_v4_0 (W2 m ρ c)).trans (W2_v4_0 m ρ c))

/-- The result buffer ends at `outK` of the five accumulators and the narrative column sums. -/
theorem result_eq : (W10 m ρ c (Proc.devRef .tc main_v40) : Vec Ideal S_ .f32)
    = outK (F := Ideal) (a6 m ρ c) (a7 m ρ c) (a8 m ρ c) (a9 m ρ c) (a10 m ρ c) (nsum m ρ c) := by
  show fin (W7 m ρ c) (Proc.devRef .tc main_v40) = _
  rw [fin_v40, W7_v4_0,
    show W7 m ρ c (Proc.devRef .tc main_v17_0) = a6 m ρ c from W7_arr m ρ c 6,
    show W7 m ρ c (Proc.devRef .tc main_v17_1) = a7 m ρ c from W7_arr m ρ c 7,
    show W7 m ρ c (Proc.devRef .tc main_v17_2) = a8 m ρ c from W7_arr m ρ c 8,
    show W7 m ρ c (Proc.devRef .tc main_v17_3) = a9 m ρ c from W7_arr m ρ c 9,
    show W7 m ρ c (Proc.devRef .tc main_v17_4) = a10 m ρ c from W7_arr m ρ c 10]

/-! ## Double and triple sums as sums over an array's indices -/

/-- A sum over narratives of sums over rows is the sum over the [16384,128] index set. -/
theorem sum_nb (f : Spec.SN.Idx → Fin 16384 → Fin 128 → EReal) :
    ∑ n : Fin 128, ∑ b : Fin 16384, f (ix2 b n) b n = ∑ i : Spec.SN.Idx, f i (i 0) (i 1) := by
  rw [sum_idx2 (fun i : Spec.SN.Idx => f i (i 0) (i 1)), Finset.sum_comm]

/-- A sum over narratives, their 8 subnarratives and rows is the sum over the [16384,1024] index set. -/
theorem sum_nkb (g : Spec.SS.Idx → EReal) :
    ∑ n : Fin 128, ∑ k : Fin 8, ∑ b : Fin 16384, g (ix2 b (Spec.sub n k)) = ∑ j : Spec.SS.Idx, g j := by
  rw [sum_idx2 g]
  have h : ∀ b : Fin 16384, ∑ j : Fin 1024, g (ix2 b j) = ∑ n : Fin 128, ∑ k : Fin 8, g (ix2 b (Spec.sub n k)) := fun b =>
    (KMath.sum_blocks (T := 128) (R := 8) (N := 1024) (Nat.mul_comm 8 128 ▸ rfl) (fun j => g (ix2 b j))).trans
      (Finset.sum_congr rfl fun n _ => Finset.sum_congr rfl fun k _ => congrArg (fun j => g (ix2 b j)) (Fin.ext rfl))
  calc ∑ n : Fin 128, ∑ k : Fin 8, ∑ b : Fin 16384, g (ix2 b (Spec.sub n k))
      = ∑ n : Fin 128, ∑ b : Fin 16384, ∑ k : Fin 8, g (ix2 b (Spec.sub n k)) :=
        Finset.sum_congr rfl fun n _ => Finset.sum_comm
    _ = ∑ b : Fin 16384, ∑ n : Fin 128, ∑ k : Fin 8, g (ix2 b (Spec.sub n k)) := Finset.sum_comm
    _ = ∑ b : Fin 16384, ∑ j : Fin 1024, g (ix2 b j) := Finset.sum_congr rfl fun b _ => (h b).symm

/-! ## The value -/

/-- For real logits the kernel program's result is the specification's total. -/
theorem value (hx0 : ∀ i, ∃ r : ℝ, x0 m c i = (r : EReal)) (hx1 : ∀ j, ∃ r : ℝ, x1 m c j = (r : EReal)) :
    (W10 m ρ c (Proc.devRef .tc main_v40) : Vec Ideal S_ .f32)
      = fun _ => Spec.total (x0 m c) (x1 m c) (l2 m c) (l3 m c) := by
  funext j
  obtain rfl := eq_ix0 j
  rw [result_eq, outK_apply]
  unfold Spec.total
  have hA : ∑ n : Fin 128, a6 m ρ c (ix1 n) = Spec.A (x0 m c) (l2 m c) := by
    simp only [a6_eq]
    exact sum_nb (fun _ b n => Spec.bceN (x0 m c) (l2 m c) b n)
  have hG : ∑ n : Fin 128, a7 m ρ c (ix1 n) = Spec.G (x1 m c) (l2 m c) (l3 m c) := by
    simp only [a7_eq]
    exact sum_nb (fun i b n => Spec.grp (x1 m c) (l3 m c) b n * Spec.lab (l2 m c i))
  have hV : ∑ n : Fin 128, nsum m ρ c (ix1 n) = Spec.Vc (l2 m c) := by
    simp only [nsum_eq]
    exact sum_nb (fun i _ _ => Spec.lab (l2 m c i))
  have hH : ∑ n : Fin 128, a8 m ρ c (ix1 n) = Spec.H (x0 m c) (x1 m c) (l2 m c) := by
    simp only [a8_eq]
    exact sum_nb (fun i b n => max (Spec.gmax (x1 m c) b n - Spec.sig (x0 m c i)) 0 * Spec.lab (l2 m c i))
  have hNF : ∑ n : Fin 128, a9 m ρ c (ix1 n) = Spec.NF (x0 m c) (l2 m c) := by
    simp only [a9_eq m ρ c hx0]
    exact sum_nb (fun i _ _ => Spec.focal (Spec.lab (l2 m c i)) (x0 m c i))
  have hSF : ∑ n : Fin 128, a10 m ρ c (ix1 n) = Spec.SF (x1 m c) (l3 m c) := by
    simp only [a10_eq m ρ c hx1]
    exact sum_nkb (fun j => Spec.focal (Spec.lab (l3 m c j)) (x1 m c j))
  rw [hA, hG, hV, hH, hNF, hSF]

end Cert.KernelIdeal.KValue

end
-- ==== Proof.KFinite.lean ====
/-
  Under the precondition every logit is a real number.  The precondition says that `|x| < +∞` holds at every entry of
  both float arguments (two `all` reductions joined by `and`); on the extended reals `|x| = max x (-x) < ⊤` excludes
  both infinities, and what is left of an extended real is a real.
-/
import proofs.«117294_j80676665688521_2_alg».proof.Pre_finite_inputs
import proofs.«117294_j80676665688521_2_alg».proof.Proof.Gen.Pre_finite_inputs
import Idealize.ShloMosaic.PureOps.Ideal
import Idealize.ShloMosaic.Lib.ReduceAll
import Idealize.ShloMosaic.Lib.ValueIdx

noncomputable section

namespace Cert.KFinite

open Idealize.ShloMosaic Idealize.ShloMosaic.ValueIdx Cert.Pre_finite_inputs

instance : Subsingleton S_.Idx := ⟨fun a b => funext fun d => d.elim0⟩

/-- An extended real whose absolute value is below the f32 pattern of +∞ is a real number. -/
theorem real_of_abs_lt (x : EReal)
    (h : Ideal.cmp .olt (max x (-x)) (Ideal.ofBits .f32 0x7F800000#32) = 1#1) :
    ∃ r : ℝ, x = (r : EReal) := by
  induction x using EReal.rec with
  | bot => exfalso; revert h; simp [Ideal.cmp, Ideal.ofBits, Ideal.ieee]
  | top => exfalso; revert h; simp [Ideal.cmp, Ideal.ofBits, Ideal.ieee]
  | coe r => exact ⟨r, rfl⟩

/-- The precondition gives: every entry of both float arguments is a real number. -/
theorem finite_of_pre [hP : Cert.Pre_finite_inputs.Facts]
    (x0 : FVec Ideal S16384x128 .f32) (x1 : FVec Ideal S16384x1024 .f32) (l2 : IVec S16384x128 32) (l3 : IVec S16384x1024 32)
    (h : Cert.Pre_finite_inputs.fn (F := Ideal) x0 x1 l2 l3 = fun _ => 1#1) :
    (∀ i, ∃ r : ℝ, x0 i = (r : EReal)) ∧ (∀ j, ∃ r : ℝ, x1 j = (r : EReal)) := by
  have e := congrFun h ix0
  dsimp only [fn] at e
  obtain ⟨e0, e1⟩ := IntOp.andi_eq_one.mp e
  exact ⟨fun i => real_of_abs_lt (x0 i) (Host.reduce_andi_all _ _ _ _ _ e0 i),
         fun j => real_of_abs_lt (x1 j) (Host.reduce_andi_all _ _ _ _ _ e1 j)⟩

end Cert.KFinite

end
-- ==== Proof.RefOps.lean ====
/- The reference program's operations as lists: @main's 142 operation and call statements (all but the return) in their order, each call of a
   module-local function replaced by the callee's operations over that call's buffer record (a nested call
   likewise), 237 operations in 7 consecutive windows; and, per window, that every operation touches only
   the TensorCore's references, and the list of the buffers the window writes.  A table: nothing is argued here. -/
import proofs.«117294_j80676665688521_2_alg».proof.Proof.Gen.ReferenceIdeal
import Idealize.ShloMosaic.Lib.StableHlo.Run

noncomputable section

namespace Cert.ReferenceIdeal.RefOps

open Cert.ReferenceIdeal Cert.ReferenceIdeal.Facts₀ Idealize.ShloMosaic Idealize.ShloMosaic.TcCoe Idealize.SL.Sem Idealize.ShloMosaic.StableHlo

variable {F : FTy → Type} [FloatOps F]

/-- Window 0 (40 operations of main_part0), writing main_v0 … main_v17. -/
abbrev ops_w0 : List (HloOp τ sig (Elt F)) :=
  [ unary main_arg2 main_v0 (sitofp .f32 : (⟨S16384x128, .i32⟩ : BufTy).Contents (Elt F) → (⟨S16384x128, .f32⟩ : BufTy).Contents (Elt F)),
    unary main_arg3 main_v1 (sitofp .f32 : (⟨S16384x1024, .i32⟩ : BufTy).Contents (Elt F) → (⟨S16384x1024, .f32⟩ : BufTy).Contents (Elt F)),
    nullary main_cst (constant S_ .f32 0x3F800000#32),
    unary main_cst main_v2 (broadcastInDim S16384x128 ![] bcast_S_S16384x128 : (⟨S_, .f32⟩ : BufTy).Contents (Elt F) → (⟨S16384x128, .f32⟩ : BufTy).Contents (Elt F)),
    binary main_v2 main_v0 main_v3 (subf : (⟨S16384x128, .f32⟩ : BufTy).Contents (Elt F) → (⟨S16384x128, .f32⟩ : BufTy).Contents (Elt F) → (⟨S16384x128, .f32⟩ : BufTy).Contents (Elt F)),
    nullary main_cst_0 (constant S_ .f32 0x00000000#32),
    binary main_v3 main_cst_0 main_v4 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    nullary main_cst_1 (constant S_ .f32 0x00000000#32),
    binary main_v0 main_cst_1 main_v5 ((fun x v => Host.reduceAdd x v reducesTo_S16384x128_S128_d0 h_S_) : (⟨S16384x128, .f32⟩ : BufTy).Contents (Elt F) → (⟨S_, .f32⟩ : BufTy).Contents (Elt F) → (⟨S128, .f32⟩ : BufTy).Contents (Elt F)),
    nullary main_cst_2 (constant S_ .f32 0x358637BD#32),
    unary main_cst_2 main_v6 (broadcastInDim S128 ![] bcast_S_S128 : (⟨S_, .f32⟩ : BufTy).Contents (Elt F) → (⟨S128, .f32⟩ : BufTy).Contents (Elt F)),
    binary main_v5 main_v6 main_v7 (addf : (⟨S128, .f32⟩ : BufTy).Contents (Elt F) → (⟨S128, .f32⟩ : BufTy).Contents (Elt F) → (⟨S128, .f32⟩ : BufTy).Contents (Elt F)),
    binary main_v4 main_v7 main_v8 (Host.divf : (⟨S128, .f32⟩ : BufTy).Contents (Elt F) → (⟨S128, .f32⟩ : BufTy).Contents (Elt F) → (⟨S128, .f32⟩ : BufTy).Contents (Elt F)),
    nullary main_cst_3 (constant S_ .f32 0x3F800000#32),
    nullary main_cst_4 (constant S_ .f32 0x42480000#32),
    unary main_cst_3 main_call0_v0 (id : (⟨S_, .f32⟩ : BufTy).Contents (Elt F) → (⟨S_, .f32⟩ : BufTy).Contents (Elt F)),
    unary main_call0_v0 main_call0_v1 (broadcastInDim S128 ![] bcast_S_S128 : (⟨S_, .f32⟩ : BufTy).Contents (Elt F) → (⟨S128, .f32⟩ : BufTy).Contents (Elt F)),
    binary main_call0_v1 main_v8 main_call0_v2 (maximumf : (⟨S128, .f32⟩ : BufTy).Contents (Elt F) → (⟨S128, .f32⟩ : BufTy).Contents (Elt F) → (⟨S128, .f32⟩ : BufTy).Contents (Elt F)),
    unary main_cst_4 main_call0_v3 (id : (⟨S_, .f32⟩ : BufTy).Contents (Elt F) → (⟨S_, .f32⟩ : BufTy).Contents (Elt F)),
    unary main_call0_v3 main_call0_v4 (broadcastInDim S128 ![] bcast_S_S128 : (⟨S_, .f32⟩ : BufTy).Contents (Elt F) → (⟨S128, .f32⟩ : BufTy).Contents (Elt F)),
    binary main_call0_v4 main_call0_v2 main_v9 (minimumf : (⟨S128, .f32⟩ : BufTy).Contents (Elt F) → (⟨S128, .f32⟩ : BufTy).Contents (Elt F) → (⟨S128, .f32⟩ : BufTy).Contents (Elt F)),
    nullary main_cst_5 (constant S_ .f32 0x3F800000#32),
    unary main_cst_5 main_v10 (broadcastInDim S16384x1024 ![] bcast_S_S16384x1024 : (⟨S_, .f32⟩ : BufTy).Contents (Elt F) → (⟨S16384x1024, .f32⟩ : BufTy).Contents (Elt F)),
    binary main_v10 main_v1 main_v11 (subf : (⟨S16384x1024, .f32⟩ : BufTy).Contents (Elt F) → (⟨S16384x1024, .f32⟩ : BufTy).Contents (Elt F) → (⟨S16384x1024, .f32⟩ : BufTy).Contents (Elt F)),
    nullary main_cst_6 (constant S_ .f32 0x00000000#32),
    binary main_v11 main_cst_6 main_v12 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_7 (constant S_ .f32 0x00000000#32),
    binary main_v1 main_cst_7 main_v13 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_8 (constant S_ .f32 0x358637BD#32),
    unary main_cst_8 main_v14 (broadcastInDim S1024 ![] bcast_S_S1024 : (⟨S_, .f32⟩ : BufTy).Contents (Elt F) → (⟨S1024, .f32⟩ : BufTy).Contents (Elt F)),
    binary main_v13 main_v14 main_v15 (addf : (⟨S1024, .f32⟩ : BufTy).Contents (Elt F) → (⟨S1024, .f32⟩ : BufTy).Contents (Elt F) → (⟨S1024, .f32⟩ : BufTy).Contents (Elt F)),
    binary main_v12 main_v15 main_v16 (Host.divf : (⟨S1024, .f32⟩ : BufTy).Contents (Elt F) → (⟨S1024, .f32⟩ : BufTy).Contents (Elt F) → (⟨S1024, .f32⟩ : BufTy).Contents (Elt F)),
    nullary main_cst_9 (constant S_ .f32 0x3F800000#32),
    nullary main_cst_10 (constant S_ .f32 0x42480000#32),
    unary main_cst_9 main_call1_v0 (id : (⟨S_, .f32⟩ : BufTy).Contents (Elt F) → (⟨S_, .f32⟩ : BufTy).Contents (Elt F)),
    unary main_call1_v0 main_call1_v1 (broadcastInDim S1024 ![] bcast_S_S1024 : (⟨S_, .f32⟩ : BufTy).Contents (Elt F) → (⟨S1024, .f32⟩ : BufTy).Contents (Elt F)),
    binary main_call1_v1 main_v16 main_call1_v2 (maximumf : (⟨S1024, .f32⟩ : BufTy).Contents (Elt F) → (⟨S1024, .f32⟩ : BufTy).Contents (Elt F) → (⟨S1024, .f32⟩ : BufTy).Contents (Elt F)),
    unary main_cst_10 main_call1_v3 (id : (⟨S_, .f32⟩ : BufTy).Contents (Elt F) → (⟨S_, .f32⟩ : BufTy).Contents (Elt F)),
    unary main_call1_v3 main_call1_v4 (broadcastInDim S1024 ![] bcast_S_S1024 : (⟨S_, .f32⟩ : BufTy).Contents (Elt F) → (⟨S1024, .f32⟩ : BufTy).Contents (Elt F)),
    binary main_call1_v4 main_call1_v2 main_v17 (minimumf : (⟨S1024, .f32⟩ : BufTy).Contents (Elt F) → (⟨S1024, .f32⟩ : BufTy).Contents (Elt F) → (⟨S1024, .f32⟩ : BufTy).Contents (Elt F)) ]

set_option maxRecDepth 8192 in
theorem ops_w0_sub : (ops_w0 : List (HloOp τ sig (Elt F))).Forall fun op => op.bufs ⊆ tcRefs τ sig :=
  ⟨unary_bufs_sub .., unary_bufs_sub .., nullary_bufs_sub .., unary_bufs_sub .., binary_bufs_sub .., nullary_bufs_sub .., binary_bufs_sub .., nullary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub ..⟩

/-- The buffers that window 0's operations write. -/
abbrev ops_w0_W : List (Ref sig .tc) := [main_v0, main_v1, main_cst, main_v2, main_v3, main_cst_0, main_v4, main_cst_1, main_v5, main_cst_2, main_v6, main_v7, main_v8, main_cst_3, main_cst_4, main_call0_v0, main_call0_v1, main_call0_v2, main_call0_v3, main_call0_v4, main_v9, main_cst_5, main_v10, main_v11, main_cst_6, main_v12, main_cst_7, main_v13, main_cst_8, main_v14, main_v15, main_v16, main_cst_9, main_cst_10, main_call1_v0, main_call1_v1, main_call1_v2, main_call1_v3, main_call1_v4, main_v17]
set_option maxRecDepth 8192 in
theorem ops_w0_writes : (ops_w0 : List (HloOp τ sig (Elt F))).Forall fun op => op.writes ⊆ (ops_w0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Window 1 (42 operations of main_part0), writing main_v18 … main_v30. -/
abbrev ops_w1 : List (HloOp τ sig (Elt F)) :=
  [ unary main_v9 main_v18 (broadcastInDim S1x128 ![1] bcast_S128_S1x128_1 : (⟨S128, .f32⟩ : BufTy).Contents (Elt F) → (⟨S1x128, .f32⟩ : BufTy).Contents (Elt F)),
    unary main_v18 main_v19 (broadcastInDim S16384x128 ![0, 1] bcast_S1x128_S16384x128_0_1 : (⟨S1x128, .f32⟩ : BufTy).Contents (Elt F) → (⟨S16384x128, .f32⟩ : BufTy).Contents (Elt F)),
    binary main_v19 main_v0 main_v20 (mulf : (⟨S16384x128, .f32⟩ : BufTy).Contents (Elt F) → (⟨S16384x128, .f32⟩ : BufTy).Contents (Elt F) → (⟨S16384x128, .f32⟩ : BufTy).Contents (Elt F)),
    unary main_arg0 main_v21 (Host.negf : (⟨S16384x128, .f32⟩ : BufTy).Contents (Elt F) → (⟨S16384x128, .f32⟩ : BufTy).Contents (Elt F)),
    nullary main_call2_cst (constant S_ .f32 0x00000000#32),
    unary main_call2_cst main_call2_v0 (broadcastInDim S16384x128 ![] bcast_S_S16384x128 : (⟨S_, .f32⟩ : BufTy).Contents (Elt F) → (⟨S16384x128, .f32⟩ : BufTy).Contents (Elt F)),
    binary main_v21 main_call2_v0 main_call2_v1 (maximumf : (⟨S16384x128, .f32⟩ : BufTy).Contents (Elt F) → (⟨S16384x128, .f32⟩ : BufTy).Contents (Elt F) → (⟨S16384x128, .f32⟩ : BufTy).Contents (Elt F)),
    unary main_call2_cst main_call2_v2 (broadcastInDim S16384x128 ![] bcast_S_S16384x128 : (⟨S_, .f32⟩ : BufTy).Contents (Elt F) → (⟨S16384x128, .f32⟩ : BufTy).Contents (Elt F)),
    binary main_v21 main_call2_v2 main_call2_v3 (subf : (⟨S16384x128, .f32⟩ : BufTy).Contents (Elt F) → (⟨S16384x128, .f32⟩ : BufTy).Contents (Elt F) → (⟨S16384x128, .f32⟩ : BufTy).Contents (Elt F)),
    binary main_call2_v3 main_call2_v3 main_call2_v4 (cmpf .une : (⟨S16384x128, .f32⟩ : BufTy).Contents (Elt F) → (⟨S16384x128, .f32⟩ : BufTy).Contents (Elt F) → (⟨S16384x128, .i1⟩ : BufTy).Contents (Elt F)),
    unary main_call2_cst main_call2_v5 (broadcastInDim S16384x128 ![] bcast_S_S16384x128 : (⟨S_, .f32⟩ : BufTy).Contents (Elt F) → (⟨S16384x128, .f32⟩ : BufTy).Contents (Elt F)),
    binary main_v21 main_call2_v5 main_call2_v6 (addf : (⟨S16384x128, .f32⟩ : BufTy).Contents (Elt F) → (⟨S16384x128, .f32⟩ : BufTy).Contents (Elt F) → (⟨S16384x128, .f32⟩ : BufTy).Contents (Elt F)),
    unary main_call2_v3 main_call2_v7 (Host.absf : (⟨S16384x128, .f32⟩ : BufTy).Contents (Elt F) → (⟨S16384x128, .f32⟩ : BufTy).Contents (Elt F)),
    unary main_call2_v7 main_call2_v8 (Host.negf : (⟨S16384x128, .f32⟩ : BufTy).Contents (Elt F) → (⟨S16384x128, .f32⟩ : BufTy).Contents (Elt F)),
    unary main_call2_v8 main_call2_v9 (Host.exp : (⟨S16384x128, .f32⟩ : BufTy).Contents (Elt F) → (⟨S16384x128, .f32⟩ : BufTy).Contents (Elt F)),
    unary main_call2_v9 main_call2_v10 (Host.log1p : (⟨S16384x128, .f32⟩ : BufTy).Contents (Elt F) → (⟨S16384x128, .f32⟩ : BufTy).Contents (Elt F)),
    binary main_call2_v1 main_call2_v10 main_call2_v11 (addf : (⟨S16384x128, .f32⟩ : BufTy).Contents (Elt F) → (⟨S16384x128, .f32⟩ : BufTy).Contents (Elt F) → (⟨S16384x128, .f32⟩ : BufTy).Contents (Elt F)),
    ternary main_call2_v4 main_call2_v6 main_call2_v11 main_v22 (select : (⟨S16384x128, .i1⟩ : BufTy).Contents (Elt F) → (⟨S16384x128, .f32⟩ : BufTy).Contents (Elt F) → (⟨S16384x128, .f32⟩ : BufTy).Contents (Elt F) → (⟨S16384x128, .f32⟩ : BufTy).Contents (Elt F)),
    binary main_v20 main_v22 main_v23 (mulf : (⟨S16384x128, .f32⟩ : BufTy).Contents (Elt F) → (⟨S16384x128, .f32⟩ : BufTy).Contents (Elt F) → (⟨S16384x128, .f32⟩ : BufTy).Contents (Elt F)),
    nullary main_cst_11 (constant S_ .f32 0x3F800000#32),
    unary main_cst_11 main_v24 (broadcastInDim S16384x128 ![] bcast_S_S16384x128 : (⟨S_, .f32⟩ : BufTy).Contents (Elt F) → (⟨S16384x128, .f32⟩ : BufTy).Contents (Elt F)),
    binary main_v24 main_v0 main_v25 (subf : (⟨S16384x128, .f32⟩ : BufTy).Contents (Elt F) → (⟨S16384x128, .f32⟩ : BufTy).Contents (Elt F) → (⟨S16384x128, .f32⟩ : BufTy).Contents (Elt F)),
    nullary main_call3_cst (constant S_ .f32 0x00000000#32),
    unary main_call3_cst main_call3_v0 (broadcastInDim S16384x128 ![] bcast_S_S16384x128 : (⟨S_, .f32⟩ : BufTy).Contents (Elt F) → (⟨S16384x128, .f32⟩ : BufTy).Contents (Elt F)),
    binary main_arg0 main_call3_v0 main_call3_v1 (maximumf : (⟨S16384x128, .f32⟩ : BufTy).Contents (Elt F) → (⟨S16384x128, .f32⟩ : BufTy).Contents (Elt F) → (⟨S16384x128, .f32⟩ : BufTy).Contents (Elt F)),
    unary main_call3_cst main_call3_v2 (broadcastInDim S16384x128 ![] bcast_S_S16384x128 : (⟨S_, .f32⟩ : BufTy).Contents (Elt F) → (⟨S16384x128, .f32⟩ : BufTy).Contents (Elt F)),
    binary main_arg0 main_call3_v2 main_call3_v3 (subf : (⟨S16384x128, .f32⟩ : BufTy).Contents (Elt F) → (⟨S16384x128, .f32⟩ : BufTy).Contents (Elt F) → (⟨S16384x128, .f32⟩ : BufTy).Contents (Elt F)),
    binary main_call3_v3 main_call3_v3 main_call3_v4 (cmpf .une : (⟨S16384x128, .f32⟩ : BufTy).Contents (Elt F) → (⟨S16384x128, .f32⟩ : BufTy).Contents (Elt F) → (⟨S16384x128, .i1⟩ : BufTy).Contents (Elt F)),
    unary main_call3_cst main_call3_v5 (broadcastInDim S16384x128 ![] bcast_S_S16384x128 : (⟨S_, .f32⟩ : BufTy).Contents (Elt F) → (⟨S16384x128, .f32⟩ : BufTy).Contents (Elt F)),
    binary main_arg0 main_call3_v5 main_call3_v6 (addf : (⟨S16384x128, .f32⟩ : BufTy).Contents (Elt F) → (⟨S16384x128, .f32⟩ : BufTy).Contents (Elt F) → (⟨S16384x128, .f32⟩ : BufTy).Contents (Elt F)),
    unary main_call3_v3 main_call3_v7 (Host.absf : (⟨S16384x128, .f32⟩ : BufTy).Contents (Elt F) → (⟨S16384x128, .f32⟩ : BufTy).Contents (Elt F)),
    unary main_call3_v7 main_call3_v8 (Host.negf : (⟨S16384x128, .f32⟩ : BufTy).Contents (Elt F) → (⟨S16384x128, .f32⟩ : BufTy).Contents (Elt F)),
    unary main_call3_v8 main_call3_v9 (Host.exp : (⟨S16384x128, .f32⟩ : BufTy).Contents (Elt F) → (⟨S16384x128, .f32⟩ : BufTy).Contents (Elt F)),
    unary main_call3_v9 main_call3_v10 (Host.log1p : (⟨S16384x128, .f32⟩ : BufTy).Contents (Elt F) → (⟨S16384x128, .f32⟩ : BufTy).Contents (Elt F)),
    binary main_call3_v1 main_call3_v10 main_call3_v11 (addf : (⟨S16384x128, .f32⟩ : BufTy).Contents (Elt F) → (⟨S16384x128, .f32⟩ : BufTy).Contents (Elt F) → (⟨S16384x128, .f32⟩ : BufTy).Contents (Elt F)),
    ternary main_call3_v4 main_call3_v6 main_call3_v11 main_v26 (select : (⟨S16384x128, .i1⟩ : BufTy).Contents (Elt F) → (⟨S16384x128, .f32⟩ : BufTy).Contents (Elt F) → (⟨S16384x128, .f32⟩ : BufTy).Contents (Elt F) → (⟨S16384x128, .f32⟩ : BufTy).Contents (Elt F)),
    binary main_v25 main_v26 main_v27 (mulf : (⟨S16384x128, .f32⟩ : BufTy).Contents (Elt F) → (⟨S16384x128, .f32⟩ : BufTy).Contents (Elt F) → (⟨S16384x128, .f32⟩ : BufTy).Contents (Elt F)),
    binary main_v23 main_v27 main_v28 (addf : (⟨S16384x128, .f32⟩ : BufTy).Contents (Elt F) → (⟨S16384x128, .f32⟩ : BufTy).Contents (Elt F) → (⟨S16384x128, .f32⟩ : BufTy).Contents (Elt F)),
    nullary main_cst_12 (constant S_ .f32 0x00000000#32),
    binary main_v28 main_cst_12 main_v29 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_13 (constant S_ .f32 0x4A000000#32),
    binary main_v29 main_cst_13 main_v30 (Host.divf : (⟨S_, .f32⟩ : BufTy).Contents (Elt F) → (⟨S_, .f32⟩ : BufTy).Contents (Elt F) → (⟨S_, .f32⟩ : BufTy).Contents (Elt F)) ]

set_option maxRecDepth 8192 in
theorem ops_w1_sub : (ops_w1 : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., nullary_bufs_sub .., binary_bufs_sub .., nullary_bufs_sub .., binary_bufs_sub ..⟩

/-- The buffers that window 1's operations write. -/
abbrev ops_w1_W : List (Ref sig .tc) := [main_v18, main_v19, main_v20, main_v21, main_call2_cst, main_call2_v0, main_call2_v1, main_call2_v2, main_call2_v3, main_call2_v4, main_call2_v5, main_call2_v6, main_call2_v7, main_call2_v8, main_call2_v9, main_call2_v10, main_call2_v11, main_v22, main_v23, main_cst_11, main_v24, main_v25, main_call3_cst, main_call3_v0, main_call3_v1, main_call3_v2, main_call3_v3, main_call3_v4, main_call3_v5, main_call3_v6, main_call3_v7, main_call3_v8, main_call3_v9, main_call3_v10, main_call3_v11, main_v26, main_v27, main_v28, main_cst_12, main_v29, main_cst_13, main_v30]
set_option maxRecDepth 8192 in
theorem ops_w1_writes : (ops_w1 : List (HloOp τ sig (Elt F))).Forall fun op => op.writes ⊆ (ops_w1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Window 2 (40 operations of main_part0), writing main_v31 … main_cst_15. -/
abbrev ops_w2 : List (HloOp τ sig (Elt F)) :=
  [ unary main_v17 main_v31 (broadcastInDim S1x1024 ![1] bcast_S1024_S1x1024_1 : (⟨S1024, .f32⟩ : BufTy).Contents (Elt F) → (⟨S1x1024, .f32⟩ : BufTy).Contents (Elt F)),
    unary main_v31 main_v32 (broadcastInDim S16384x1024 ![0, 1] bcast_S1x1024_S16384x1024_0_1 : (⟨S1x1024, .f32⟩ : BufTy).Contents (Elt F) → (⟨S16384x1024, .f32⟩ : BufTy).Contents (Elt F)),
    binary main_v32 main_v1 main_v33 (mulf : (⟨S16384x1024, .f32⟩ : BufTy).Contents (Elt F) → (⟨S16384x1024, .f32⟩ : BufTy).Contents (Elt F) → (⟨S16384x1024, .f32⟩ : BufTy).Contents (Elt F)),
    unary main_arg1 main_v34 (Host.negf : (⟨S16384x1024, .f32⟩ : BufTy).Contents (Elt F) → (⟨S16384x1024, .f32⟩ : BufTy).Contents (Elt F)),
    nullary main_call4_cst (constant S_ .f32 0x00000000#32),
    unary main_call4_cst main_call4_v0 (broadcastInDim S16384x1024 ![] bcast_S_S16384x1024 : (⟨S_, .f32⟩ : BufTy).Contents (Elt F) → (⟨S16384x1024, .f32⟩ : BufTy).Contents (Elt F)),
    binary main_v34 main_call4_v0 main_call4_v1 (maximumf : (⟨S16384x1024, .f32⟩ : BufTy).Contents (Elt F) → (⟨S16384x1024, .f32⟩ : BufTy).Contents (Elt F) → (⟨S16384x1024, .f32⟩ : BufTy).Contents (Elt F)),
    unary main_call4_cst main_call4_v2 (broadcastInDim S16384x1024 ![] bcast_S_S16384x1024 : (⟨S_, .f32⟩ : BufTy).Contents (Elt F) → (⟨S16384x1024, .f32⟩ : BufTy).Contents (Elt F)),
    binary main_v34 main_call4_v2 main_call4_v3 (subf : (⟨S16384x1024, .f32⟩ : BufTy).Contents (Elt F) → (⟨S16384x1024, .f32⟩ : BufTy).Contents (Elt F) → (⟨S16384x1024, .f32⟩ : BufTy).Contents (Elt F)),
    binary main_call4_v3 main_call4_v3 main_call4_v4 (cmpf .une : (⟨S16384x1024, .f32⟩ : BufTy).Contents (Elt F) → (⟨S16384x1024, .f32⟩ : BufTy).Contents (Elt F) → (⟨S16384x1024, .i1⟩ : BufTy).Contents (Elt F)),
    unary main_call4_cst main_call4_v5 (broadcastInDim S16384x1024 ![] bcast_S_S16384x1024 : (⟨S_, .f32⟩ : BufTy).Contents (Elt F) → (⟨S16384x1024, .f32⟩ : BufTy).Contents (Elt F)),
    binary main_v34 main_call4_v5 main_call4_v6 (addf : (⟨S16384x1024, .f32⟩ : BufTy).Contents (Elt F) → (⟨S16384x1024, .f32⟩ : BufTy).Contents (Elt F) → (⟨S16384x1024, .f32⟩ : BufTy).Contents (Elt F)),
    unary main_call4_v3 main_call4_v7 (Host.absf : (⟨S16384x1024, .f32⟩ : BufTy).Contents (Elt F) → (⟨S16384x1024, .f32⟩ : BufTy).Contents (Elt F)),
    unary main_call4_v7 main_call4_v8 (Host.negf : (⟨S16384x1024, .f32⟩ : BufTy).Contents (Elt F) → (⟨S16384x1024, .f32⟩ : BufTy).Contents (Elt F)),
    unary main_call4_v8 main_call4_v9 (Host.exp : (⟨S16384x1024, .f32⟩ : BufTy).Contents (Elt F) → (⟨S16384x1024, .f32⟩ : BufTy).Contents (Elt F)),
    unary main_call4_v9 main_call4_v10 (Host.log1p : (⟨S16384x1024, .f32⟩ : BufTy).Contents (Elt F) → (⟨S16384x1024, .f32⟩ : BufTy).Contents (Elt F)),
    binary main_call4_v1 main_call4_v10 main_call4_v11 (addf : (⟨S16384x1024, .f32⟩ : BufTy).Contents (Elt F) → (⟨S16384x1024, .f32⟩ : BufTy).Contents (Elt F) → (⟨S16384x1024, .f32⟩ : BufTy).Contents (Elt F)),
    ternary main_call4_v4 main_call4_v6 main_call4_v11 main_v35 (select : (⟨S16384x1024, .i1⟩ : BufTy).Contents (Elt F) → (⟨S16384x1024, .f32⟩ : BufTy).Contents (Elt F) → (⟨S16384x1024, .f32⟩ : BufTy).Contents (Elt F) → (⟨S16384x1024, .f32⟩ : BufTy).Contents (Elt F)),
    binary main_v33 main_v35 main_v36 (mulf : (⟨S16384x1024, .f32⟩ : BufTy).Contents (Elt F) → (⟨S16384x1024, .f32⟩ : BufTy).Contents (Elt F) → (⟨S16384x1024, .f32⟩ : BufTy).Contents (Elt F)),
    nullary main_cst_14 (constant S_ .f32 0x3F800000#32),
    unary main_cst_14 main_v37 (broadcastInDim S16384x1024 ![] bcast_S_S16384x1024 : (⟨S_, .f32⟩ : BufTy).Contents (Elt F) → (⟨S16384x1024, .f32⟩ : BufTy).Contents (Elt F)),
    binary main_v37 main_v1 main_v38 (subf : (⟨S16384x1024, .f32⟩ : BufTy).Contents (Elt F) → (⟨S16384x1024, .f32⟩ : BufTy).Contents (Elt F) → (⟨S16384x1024, .f32⟩ : BufTy).Contents (Elt F)),
    nullary main_call5_cst (constant S_ .f32 0x00000000#32),
    unary main_call5_cst main_call5_v0 (broadcastInDim S16384x1024 ![] bcast_S_S16384x1024 : (⟨S_, .f32⟩ : BufTy).Contents (Elt F) → (⟨S16384x1024, .f32⟩ : BufTy).Contents (Elt F)),
    binary main_arg1 main_call5_v0 main_call5_v1 (maximumf : (⟨S16384x1024, .f32⟩ : BufTy).Contents (Elt F) → (⟨S16384x1024, .f32⟩ : BufTy).Contents (Elt F) → (⟨S16384x1024, .f32⟩ : BufTy).Contents (Elt F)),
    unary main_call5_cst main_call5_v2 (broadcastInDim S16384x1024 ![] bcast_S_S16384x1024 : (⟨S_, .f32⟩ : BufTy).Contents (Elt F) → (⟨S16384x1024, .f32⟩ : BufTy).Contents (Elt F)),
    binary main_arg1 main_call5_v2 main_call5_v3 (subf : (⟨S16384x1024, .f32⟩ : BufTy).Contents (Elt F) → (⟨S16384x1024, .f32⟩ : BufTy).Contents (Elt F) → (⟨S16384x1024, .f32⟩ : BufTy).Contents (Elt F)),
    binary main_call5_v3 main_call5_v3 main_call5_v4 (cmpf .une : (⟨S16384x1024, .f32⟩ : BufTy).Contents (Elt F) → (⟨S16384x1024, .f32⟩ : BufTy).Contents (Elt F) → (⟨S16384x1024, .i1⟩ : BufTy).Contents (Elt F)),
    unary main_call5_cst main_call5_v5 (broadcastInDim S16384x1024 ![] bcast_S_S16384x1024 : (⟨S_, .f32⟩ : BufTy).Contents (Elt F) → (⟨S16384x1024, .f32⟩ : BufTy).Contents (Elt F)),
    binary main_arg1 main_call5_v5 main_call5_v6 (addf : (⟨S16384x1024, .f32⟩ : BufTy).Contents (Elt F) → (⟨S16384x1024, .f32⟩ : BufTy).Contents (Elt F) → (⟨S16384x1024, .f32⟩ : BufTy).Contents (Elt F)),
    unary main_call5_v3 main_call5_v7 (Host.absf : (⟨S16384x1024, .f32⟩ : BufTy).Contents (Elt F) → (⟨S16384x1024, .f32⟩ : BufTy).Contents (Elt F)),
    unary main_call5_v7 main_call5_v8 (Host.negf : (⟨S16384x1024, .f32⟩ : BufTy).Contents (Elt F) → (⟨S16384x1024, .f32⟩ : BufTy).Contents (Elt F)),
    unary main_call5_v8 main_call5_v9 (Host.exp : (⟨S16384x1024, .f32⟩ : BufTy).Contents (Elt F) → (⟨S16384x1024, .f32⟩ : BufTy).Contents (Elt F)),
    unary main_call5_v9 main_call5_v10 (Host.log1p : (⟨S16384x1024, .f32⟩ : BufTy).Contents (Elt F) → (⟨S16384x1024, .f32⟩ : BufTy).Contents (Elt F)),
    binary main_call5_v1 main_call5_v10 main_call5_v11 (addf : (⟨S16384x1024, .f32⟩ : BufTy).Contents (Elt F) → (⟨S16384x1024, .f32⟩ : BufTy).Contents (Elt F) → (⟨S16384x1024, .f32⟩ : BufTy).Contents (Elt F)),
    ternary main_call5_v4 main_call5_v6 main_call5_v11 main_v39 (select : (⟨S16384x1024, .i1⟩ : BufTy).Contents (Elt F) → (⟨S16384x1024, .f32⟩ : BufTy).Contents (Elt F) → (⟨S16384x1024, .f32⟩ : BufTy).Contents (Elt F) → (⟨S16384x1024, .f32⟩ : BufTy).Contents (Elt F)),
    binary main_v38 main_v39 main_v40 (mulf : (⟨S16384x1024, .f32⟩ : BufTy).Contents (Elt F) → (⟨S16384x1024, .f32⟩ : BufTy).Contents (Elt F) → (⟨S16384x1024, .f32⟩ : BufTy).Contents (Elt F)),
    binary main_v36 main_v40 main_v41 (addf : (⟨S16384x1024, .f32⟩ : BufTy).Contents (Elt F) → (⟨S16384x1024, .f32⟩ : BufTy).Contents (Elt F) → (⟨S16384x1024, .f32⟩ : BufTy).Contents (Elt F)),
    reshape main_v41 main_v42 rfl shapeCasts_S16384x1024_S16384x128x8,
    nullary main_cst_15 (constant S_ .f32 0x00000000#32) ]

set_option maxRecDepth 8192 in
theorem ops_w2_sub : (ops_w2 : List (HloOp τ sig (Elt F))).Forall fun op => op.bufs ⊆ tcRefs τ sig :=
  ⟨unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., reshape_bufs_sub .., nullary_bufs_sub ..⟩

/-- The buffers that window 2's operations write. -/
abbrev ops_w2_W : List (Ref sig .tc) := [main_v31, main_v32, main_v33, main_v34, main_call4_cst, main_call4_v0, main_call4_v1, main_call4_v2, main_call4_v3, main_call4_v4, main_call4_v5, main_call4_v6, main_call4_v7, main_call4_v8, main_call4_v9, main_call4_v10, main_call4_v11, main_v35, main_v36, main_cst_14, main_v37, main_v38, main_call5_cst, main_call5_v0, main_call5_v1, main_call5_v2, main_call5_v3, main_call5_v4, main_call5_v5, main_call5_v6, main_call5_v7, main_call5_v8, main_call5_v9, main_call5_v10, main_call5_v11, main_v39, main_v40, main_v41, main_v42, main_cst_15]
set_option maxRecDepth 8192 in
theorem ops_w2_writes : (ops_w2 : List (HloOp τ sig (Elt F))).Forall fun op => op.writes ⊆ (ops_w2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Window 3 (17 operations of main_part1), writing main_v43 … main_v52. -/
abbrev ops_w3 : List (HloOp τ sig (Elt F)) :=
  [ binary main_v42 main_cst_15 main_v43 ((fun x v => Host.reduceAdd x v reducesTo_S16384x128x8_S16384x128_d2 h_S_) : (⟨S16384x128x8, .f32⟩ : BufTy).Contents (Elt F) → (⟨S_, .f32⟩ : BufTy).Contents (Elt F) → (⟨S16384x128, .f32⟩ : BufTy).Contents (Elt F)),
    nullary main_cst_16 (constant S_ .f32 0x41000000#32),
    unary main_cst_16 main_v44 (broadcastInDim S16384x128 ![] bcast_S_S16384x128 : (⟨S_, .f32⟩ : BufTy).Contents (Elt F) → (⟨S16384x128, .f32⟩ : BufTy).Contents (Elt F)),
    binary main_v43 main_v44 main_v45 (Host.divf : (⟨S16384x128, .f32⟩ : BufTy).Contents (Elt F) → (⟨S16384x128, .f32⟩ : BufTy).Contents (Elt F) → (⟨S16384x128, .f32⟩ : BufTy).Contents (Elt F)),
    nullary main_cst_17 (constant S_ .f32 0x00000000#32),
    binary main_v0 main_cst_17 main_v46 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_18 (constant S_ .f32 0x00000000#32),
    binary main_v46 main_cst_18 main_v47 (cmpf .ogt : (⟨S_, .f32⟩ : BufTy).Contents (Elt F) → (⟨S_, .f32⟩ : BufTy).Contents (Elt F) → (⟨S_, .i1⟩ : BufTy).Contents (Elt F)),
    binary main_v45 main_v0 main_v48 (mulf : (⟨S16384x128, .f32⟩ : BufTy).Contents (Elt F) → (⟨S16384x128, .f32⟩ : BufTy).Contents (Elt F) → (⟨S16384x128, .f32⟩ : BufTy).Contents (Elt F)),
    nullary main_cst_19 (constant S_ .f32 0x00000000#32),
    binary main_v48 main_cst_19 main_v49 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_20 (constant S_ .f32 0x3F800000#32),
    binary main_v46 main_cst_20 main_v50 (maximumf : (⟨S_, .f32⟩ : BufTy).Contents (Elt F) → (⟨S_, .f32⟩ : BufTy).Contents (Elt F) → (⟨S_, .f32⟩ : BufTy).Contents (Elt F)),
    binary main_v49 main_v50 main_v51 (Host.divf : (⟨S_, .f32⟩ : BufTy).Contents (Elt F) → (⟨S_, .f32⟩ : BufTy).Contents (Elt F) → (⟨S_, .f32⟩ : BufTy).Contents (Elt F)),
    nullary main_cst_21 (constant S_ .f32 0x00000000#32),
    unary main_cst_21 main_call6_v0 (id : (⟨S_, .f32⟩ : BufTy).Contents (Elt F) → (⟨S_, .f32⟩ : BufTy).Contents (Elt F)),
    ternary main_v47 main_v51 main_call6_v0 main_v52 (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]

set_option maxRecDepth 8192 in
theorem ops_w3_sub : (ops_w3 : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., nullary_bufs_sub .., unary_bufs_sub .., ternary_bufs_sub ..⟩

/-- The buffers that window 3's operations write. -/
abbrev ops_w3_W : List (Ref sig .tc) := [main_v43, main_cst_16, main_v44, main_v45, main_cst_17, main_v46, main_cst_18, main_v47, main_v48, main_cst_19, main_v49, main_cst_20, main_v50, main_v51, main_cst_21, main_call6_v0, main_v52]
set_option maxRecDepth 8192 in
theorem ops_w3_writes : (ops_w3 : List (HloOp τ sig (Elt F))).Forall fun op => op.writes ⊆ (ops_w3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Window 4 (28 operations of main_part1), writing main_v53 … main_v71. -/
abbrev ops_w4 : List (HloOp τ sig (Elt F)) :=
  [ unary main_arg0 main_v53 (Host.negf : (⟨S16384x128, .f32⟩ : BufTy).Contents (Elt F) → (⟨S16384x128, .f32⟩ : BufTy).Contents (Elt F)),
    unary main_v53 main_v54 (Host.exp : (⟨S16384x128, .f32⟩ : BufTy).Contents (Elt F) → (⟨S16384x128, .f32⟩ : BufTy).Contents (Elt F)),
    nullary main_cst_22 (constant S_ .f32 0x3F800000#32),
    unary main_cst_22 main_v55 (broadcastInDim S16384x128 ![] bcast_S_S16384x128 : (⟨S_, .f32⟩ : BufTy).Contents (Elt F) → (⟨S16384x128, .f32⟩ : BufTy).Contents (Elt F)),
    binary main_v55 main_v54 main_v56 (addf : (⟨S16384x128, .f32⟩ : BufTy).Contents (Elt F) → (⟨S16384x128, .f32⟩ : BufTy).Contents (Elt F) → (⟨S16384x128, .f32⟩ : BufTy).Contents (Elt F)),
    nullary main_cst_23 (constant S_ .f32 0x3F800000#32),
    unary main_cst_23 main_v57 (broadcastInDim S16384x128 ![] bcast_S_S16384x128 : (⟨S_, .f32⟩ : BufTy).Contents (Elt F) → (⟨S16384x128, .f32⟩ : BufTy).Contents (Elt F)),
    binary main_v57 main_v56 main_v58 (Host.divf : (⟨S16384x128, .f32⟩ : BufTy).Contents (Elt F) → (⟨S16384x128, .f32⟩ : BufTy).Contents (Elt F) → (⟨S16384x128, .f32⟩ : BufTy).Contents (Elt F)),
    unary main_arg1 main_v59 (Host.negf : (⟨S16384x1024, .f32⟩ : BufTy).Contents (Elt F) → (⟨S16384x1024, .f32⟩ : BufTy).Contents (Elt F)),
    unary main_v59 main_v60 (Host.exp : (⟨S16384x1024, .f32⟩ : BufTy).Contents (Elt F) → (⟨S16384x1024, .f32⟩ : BufTy).Contents (Elt F)),
    nullary main_cst_24 (constant S_ .f32 0x3F800000#32),
    unary main_cst_24 main_v61 (broadcastInDim S16384x1024 ![] bcast_S_S16384x1024 : (⟨S_, .f32⟩ : BufTy).Contents (Elt F) → (⟨S16384x1024, .f32⟩ : BufTy).Contents (Elt F)),
    binary main_v61 main_v60 main_v62 (addf : (⟨S16384x1024, .f32⟩ : BufTy).Contents (Elt F) → (⟨S16384x1024, .f32⟩ : BufTy).Contents (Elt F) → (⟨S16384x1024, .f32⟩ : BufTy).Contents (Elt F)),
    nullary main_cst_25 (constant S_ .f32 0x3F800000#32),
    unary main_cst_25 main_v63 (broadcastInDim S16384x1024 ![] bcast_S_S16384x1024 : (⟨S_, .f32⟩ : BufTy).Contents (Elt F) → (⟨S16384x1024, .f32⟩ : BufTy).Contents (Elt F)),
    binary main_v63 main_v62 main_v64 (Host.divf : (⟨S16384x1024, .f32⟩ : BufTy).Contents (Elt F) → (⟨S16384x1024, .f32⟩ : BufTy).Contents (Elt F) → (⟨S16384x1024, .f32⟩ : BufTy).Contents (Elt F)),
    reshape main_v64 main_v65 rfl shapeCasts_S16384x1024_S16384x128x8,
    nullary main_cst_26 (constant S_ .f32 0xFF800000#32),
    binary main_v65 main_cst_26 main_v66 ((fun x v => Host.reduce FloatOps.maximumf x v reducesTo_S16384x128x8_S16384x128_d2 h_S_) : (⟨S16384x128x8, .f32⟩ : BufTy).Contents (Elt F) → (⟨S_, .f32⟩ : BufTy).Contents (Elt F) → (⟨S16384x128, .f32⟩ : BufTy).Contents (Elt F)),
    binary main_v66 main_v58 main_v67 (subf : (⟨S16384x128, .f32⟩ : BufTy).Contents (Elt F) → (⟨S16384x128, .f32⟩ : BufTy).Contents (Elt F) → (⟨S16384x128, .f32⟩ : BufTy).Contents (Elt F)),
    nullary main_call7_cst (constant S_ .f32 0x00000000#32),
    unary main_call7_cst main_call7_v0 (broadcastInDim S16384x128 ![] bcast_S_S16384x128 : (⟨S_, .f32⟩ : BufTy).Contents (Elt F) → (⟨S16384x128, .f32⟩ : BufTy).Contents (Elt F)),
    binary main_v67 main_call7_v0 main_v68 (maximumf : (⟨S16384x128, .f32⟩ : BufTy).Contents (Elt F) → (⟨S16384x128, .f32⟩ : BufTy).Contents (Elt F) → (⟨S16384x128, .f32⟩ : BufTy).Contents (Elt F)),
    binary main_v68 main_v0 main_v69 (mulf : (⟨S16384x128, .f32⟩ : BufTy).Contents (Elt F) → (⟨S16384x128, .f32⟩ : BufTy).Contents (Elt F) → (⟨S16384x128, .f32⟩ : BufTy).Contents (Elt F)),
    nullary main_cst_27 (constant S_ .f32 0x00000000#32),
    binary main_v69 main_cst_27 main_v70 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_28 (constant S_ .f32 0x46800000#32),
    binary main_v70 main_cst_28 main_v71 (Host.divf : (⟨S_, .f32⟩ : BufTy).Contents (Elt F) → (⟨S_, .f32⟩ : BufTy).Contents (Elt F) → (⟨S_, .f32⟩ : BufTy).Contents (Elt F)) ]

set_option maxRecDepth 8192 in
theorem ops_w4_sub : (ops_w4 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., binary_bufs_sub .., binary_bufs_sub .., nullary_bufs_sub .., unary_bufs_sub .., binary_bufs_sub .., binary_bufs_sub .., nullary_bufs_sub .., binary_bufs_sub .., nullary_bufs_sub .., binary_bufs_sub ..⟩

/-- The buffers that window 4's operations write. -/
abbrev ops_w4_W : List (Ref sig .tc) := [main_v53, main_v54, main_cst_22, main_v55, main_v56, main_cst_23, main_v57, main_v58, main_v59, main_v60, main_cst_24, main_v61, main_v62, main_cst_25, main_v63, main_v64, main_v65, main_cst_26, main_v66, main_v67, main_call7_cst, main_call7_v0, main_v68, main_v69, main_cst_27, main_v70, main_cst_28, main_v71]
set_option maxRecDepth 8192 in
theorem ops_w4_writes : (ops_w4 : List (HloOp τ sig (Elt F))).Forall fun op => op.writes ⊆ (ops_w4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Window 5 (33 operations of main_part1), writing main_cst_29 … main_v83. -/
abbrev ops_w5 : List (HloOp τ sig (Elt F)) :=
  [ nullary main_cst_29 (constant S_ .f32 0x3F800000#32),
    unary main_cst_29 main_v72 (broadcastInDim S16384x128 ![] bcast_S_S16384x128 : (⟨S_, .f32⟩ : BufTy).Contents (Elt F) → (⟨S16384x128, .f32⟩ : BufTy).Contents (Elt F)),
    binary main_v72 main_v58 main_v73 (subf : (⟨S16384x128, .f32⟩ : BufTy).Contents (Elt F) → (⟨S16384x128, .f32⟩ : BufTy).Contents (Elt F) → (⟨S16384x128, .f32⟩ : BufTy).Contents (Elt F)),
    nullary main_cst_30 (constant S_ .f32 0x40000000#32),
    unary main_cst_30 main_v74 (broadcastInDim S16384x128 ![] bcast_S_S16384x128 : (⟨S_, .f32⟩ : BufTy).Contents (Elt F) → (⟨S16384x128, .f32⟩ : BufTy).Contents (Elt F)),
    binary main_v73 main_v74 main_v75 (Host.powf : (⟨S16384x128, .f32⟩ : BufTy).Contents (Elt F) → (⟨S16384x128, .f32⟩ : BufTy).Contents (Elt F) → (⟨S16384x128, .f32⟩ : BufTy).Contents (Elt F)),
    binary main_v75 main_v0 main_v76 (mulf : (⟨S16384x128, .f32⟩ : BufTy).Contents (Elt F) → (⟨S16384x128, .f32⟩ : BufTy).Contents (Elt F) → (⟨S16384x128, .f32⟩ : BufTy).Contents (Elt F)),
    unary main_arg0 main_call8_v0 (Host.negf : (⟨S16384x128, .f32⟩ : BufTy).Contents (Elt F) → (⟨S16384x128, .f32⟩ : BufTy).Contents (Elt F)),
    nullary main_call8_call0_cst (constant S_ .f32 0x00000000#32),
    unary main_call8_call0_cst main_call8_call0_v0 (broadcastInDim S16384x128 ![] bcast_S_S16384x128 : (⟨S_, .f32⟩ : BufTy).Contents (Elt F) → (⟨S16384x128, .f32⟩ : BufTy).Contents (Elt F)),
    binary main_call8_v0 main_call8_call0_v0 main_call8_call0_v1 (maximumf : (⟨S16384x128, .f32⟩ : BufTy).Contents (Elt F) → (⟨S16384x128, .f32⟩ : BufTy).Contents (Elt F) → (⟨S16384x128, .f32⟩ : BufTy).Contents (Elt F)),
    unary main_call8_call0_cst main_call8_call0_v2 (broadcastInDim S16384x128 ![] bcast_S_S16384x128 : (⟨S_, .f32⟩ : BufTy).Contents (Elt F) → (⟨S16384x128, .f32⟩ : BufTy).Contents (Elt F)),
    binary main_call8_v0 main_call8_call0_v2 main_call8_call0_v3 (subf : (⟨S16384x128, .f32⟩ : BufTy).Contents (Elt F) → (⟨S16384x128, .f32⟩ : BufTy).Contents (Elt F) → (⟨S16384x128, .f32⟩ : BufTy).Contents (Elt F)),
    binary main_call8_call0_v3 main_call8_call0_v3 main_call8_call0_v4 (cmpf .une : (⟨S16384x128, .f32⟩ : BufTy).Contents (Elt F) → (⟨S16384x128, .f32⟩ : BufTy).Contents (Elt F) → (⟨S16384x128, .i1⟩ : BufTy).Contents (Elt F)),
    unary main_call8_call0_cst main_call8_call0_v5 (broadcastInDim S16384x128 ![] bcast_S_S16384x128 : (⟨S_, .f32⟩ : BufTy).Contents (Elt F) → (⟨S16384x128, .f32⟩ : BufTy).Contents (Elt F)),
    binary main_call8_v0 main_call8_call0_v5 main_call8_call0_v6 (addf : (⟨S16384x128, .f32⟩ : BufTy).Contents (Elt F) → (⟨S16384x128, .f32⟩ : BufTy).Contents (Elt F) → (⟨S16384x128, .f32⟩ : BufTy).Contents (Elt F)),
    unary main_call8_call0_v3 main_call8_call0_v7 (Host.absf : (⟨S16384x128, .f32⟩ : BufTy).Contents (Elt F) → (⟨S16384x128, .f32⟩ : BufTy).Contents (Elt F)),
    unary main_call8_call0_v7 main_call8_call0_v8 (Host.negf : (⟨S16384x128, .f32⟩ : BufTy).Contents (Elt F) → (⟨S16384x128, .f32⟩ : BufTy).Contents (Elt F)),
    unary main_call8_call0_v8 main_call8_call0_v9 (Host.exp : (⟨S16384x128, .f32⟩ : BufTy).Contents (Elt F) → (⟨S16384x128, .f32⟩ : BufTy).Contents (Elt F)),
    unary main_call8_call0_v9 main_call8_call0_v10 (Host.log1p : (⟨S16384x128, .f32⟩ : BufTy).Contents (Elt F) → (⟨S16384x128, .f32⟩ : BufTy).Contents (Elt F)),
    binary main_call8_call0_v1 main_call8_call0_v10 main_call8_call0_v11 (addf : (⟨S16384x128, .f32⟩ : BufTy).Contents (Elt F) → (⟨S16384x128, .f32⟩ : BufTy).Contents (Elt F) → (⟨S16384x128, .f32⟩ : BufTy).Contents (Elt F)),
    ternary main_call8_call0_v4 main_call8_call0_v6 main_call8_call0_v11 main_call8_v1 (select : (⟨S16384x128, .i1⟩ : BufTy).Contents (Elt F) → (⟨S16384x128, .f32⟩ : BufTy).Contents (Elt F) → (⟨S16384x128, .f32⟩ : BufTy).Contents (Elt F) → (⟨S16384x128, .f32⟩ : BufTy).Contents (Elt F)),
    unary main_call8_v1 main_v77 (Host.negf : (⟨S16384x128, .f32⟩ : BufTy).Contents (Elt F) → (⟨S16384x128, .f32⟩ : BufTy).Contents (Elt F)),
    binary main_v76 main_v77 main_v78 (mulf : (⟨S16384x128, .f32⟩ : BufTy).Contents (Elt F) → (⟨S16384x128, .f32⟩ : BufTy).Contents (Elt F) → (⟨S16384x128, .f32⟩ : BufTy).Contents (Elt F)),
    nullary main_cst_31 (constant S_ .f32 0x00000000#32),
    binary main_v78 main_cst_31 main_v79 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_32 (constant S_ .f32 0x4A000000#32),
    binary main_v79 main_cst_32 main_v80 (Host.divf : (⟨S_, .f32⟩ : BufTy).Contents (Elt F) → (⟨S_, .f32⟩ : BufTy).Contents (Elt F) → (⟨S_, .f32⟩ : BufTy).Contents (Elt F)),
    nullary main_cst_33 (constant S_ .f32 0x3F800000#32),
    unary main_cst_33 main_v81 (broadcastInDim S16384x1024 ![] bcast_S_S16384x1024 : (⟨S_, .f32⟩ : BufTy).Contents (Elt F) → (⟨S16384x1024, .f32⟩ : BufTy).Contents (Elt F)),
    binary main_v81 main_v64 main_v82 (subf : (⟨S16384x1024, .f32⟩ : BufTy).Contents (Elt F) → (⟨S16384x1024, .f32⟩ : BufTy).Contents (Elt F) → (⟨S16384x1024, .f32⟩ : BufTy).Contents (Elt F)),
    nullary main_cst_34 (constant S_ .f32 0x40000000#32),
    unary main_cst_34 main_v83 (broadcastInDim S16384x1024 ![] bcast_S_S16384x1024 : (⟨S_, .f32⟩ : BufTy).Contents (Elt F) → (⟨S16384x1024, .f32⟩ : BufTy).Contents (Elt F)) ]

set_option maxRecDepth 8192 in
theorem ops_w5_sub : (ops_w5 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., binary_bufs_sub .., nullary_bufs_sub .., binary_bufs_sub .., nullary_bufs_sub .., unary_bufs_sub .., binary_bufs_sub .., nullary_bufs_sub .., unary_bufs_sub ..⟩

/-- The buffers that window 5's operations write. -/
abbrev ops_w5_W : List (Ref sig .tc) := [main_cst_29, main_v72, main_v73, main_cst_30, main_v74, main_v75, main_v76, main_call8_v0, main_call8_call0_cst, main_call8_call0_v0, main_call8_call0_v1, main_call8_call0_v2, main_call8_call0_v3, main_call8_call0_v4, main_call8_call0_v5, main_call8_call0_v6, main_call8_call0_v7, main_call8_call0_v8, main_call8_call0_v9, main_call8_call0_v10, main_call8_call0_v11, main_call8_v1, main_v77, main_v78, main_cst_31, main_v79, main_cst_32, main_v80, main_cst_33, main_v81, main_v82, main_cst_34, main_v83]
set_option maxRecDepth 8192 in
theorem ops_w5_writes : (ops_w5 : List (HloOp τ sig (Elt F))).Forall fun op => op.writes ⊆ (ops_w5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

/-- Window 6 (37 operations of main_part2), writing main_v84 … main_v98. -/
abbrev ops_w6 : List (HloOp τ sig (Elt F)) :=
  [ binary main_v82 main_v83 main_v84 (Host.powf : (⟨S16384x1024, .f32⟩ : BufTy).Contents (Elt F) → (⟨S16384x1024, .f32⟩ : BufTy).Contents (Elt F) → (⟨S16384x1024, .f32⟩ : BufTy).Contents (Elt F)),
    binary main_v84 main_v1 main_v85 (mulf : (⟨S16384x1024, .f32⟩ : BufTy).Contents (Elt F) → (⟨S16384x1024, .f32⟩ : BufTy).Contents (Elt F) → (⟨S16384x1024, .f32⟩ : BufTy).Contents (Elt F)),
    unary main_arg1 main_call9_v0 (Host.negf : (⟨S16384x1024, .f32⟩ : BufTy).Contents (Elt F) → (⟨S16384x1024, .f32⟩ : BufTy).Contents (Elt F)),
    nullary main_call9_call0_cst (constant S_ .f32 0x00000000#32),
    unary main_call9_call0_cst main_call9_call0_v0 (broadcastInDim S16384x1024 ![] bcast_S_S16384x1024 : (⟨S_, .f32⟩ : BufTy).Contents (Elt F) → (⟨S16384x1024, .f32⟩ : BufTy).Contents (Elt F)),
    binary main_call9_v0 main_call9_call0_v0 main_call9_call0_v1 (maximumf : (⟨S16384x1024, .f32⟩ : BufTy).Contents (Elt F) → (⟨S16384x1024, .f32⟩ : BufTy).Contents (Elt F) → (⟨S16384x1024, .f32⟩ : BufTy).Contents (Elt F)),
    unary main_call9_call0_cst main_call9_call0_v2 (broadcastInDim S16384x1024 ![] bcast_S_S16384x1024 : (⟨S_, .f32⟩ : BufTy).Contents (Elt F) → (⟨S16384x1024, .f32⟩ : BufTy).Contents (Elt F)),
    binary main_call9_v0 main_call9_call0_v2 main_call9_call0_v3 (subf : (⟨S16384x1024, .f32⟩ : BufTy).Contents (Elt F) → (⟨S16384x1024, .f32⟩ : BufTy).Contents (Elt F) → (⟨S16384x1024, .f32⟩ : BufTy).Contents (Elt F)),
    binary main_call9_call0_v3 main_call9_call0_v3 main_call9_call0_v4 (cmpf .une : (⟨S16384x1024, .f32⟩ : BufTy).Contents (Elt F) → (⟨S16384x1024, .f32⟩ : BufTy).Contents (Elt F) → (⟨S16384x1024, .i1⟩ : BufTy).Contents (Elt F)),
    unary main_call9_call0_cst main_call9_call0_v5 (broadcastInDim S16384x1024 ![] bcast_S_S16384x1024 : (⟨S_, .f32⟩ : BufTy).Contents (Elt F) → (⟨S16384x1024, .f32⟩ : BufTy).Contents (Elt F)),
    binary main_call9_v0 main_call9_call0_v5 main_call9_call0_v6 (addf : (⟨S16384x1024, .f32⟩ : BufTy).Contents (Elt F) → (⟨S16384x1024, .f32⟩ : BufTy).Contents (Elt F) → (⟨S16384x1024, .f32⟩ : BufTy).Contents (Elt F)),
    unary main_call9_call0_v3 main_call9_call0_v7 (Host.absf : (⟨S16384x1024, .f32⟩ : BufTy).Contents (Elt F) → (⟨S16384x1024, .f32⟩ : BufTy).Contents (Elt F)),
    unary main_call9_call0_v7 main_call9_call0_v8 (Host.negf : (⟨S16384x1024, .f32⟩ : BufTy).Contents (Elt F) → (⟨S16384x1024, .f32⟩ : BufTy).Contents (Elt F)),
    unary main_call9_call0_v8 main_call9_call0_v9 (Host.exp : (⟨S16384x1024, .f32⟩ : BufTy).Contents (Elt F) → (⟨S16384x1024, .f32⟩ : BufTy).Contents (Elt F)),
    unary main_call9_call0_v9 main_call9_call0_v10 (Host.log1p : (⟨S16384x1024, .f32⟩ : BufTy).Contents (Elt F) → (⟨S16384x1024, .f32⟩ : BufTy).Contents (Elt F)),
    binary main_call9_call0_v1 main_call9_call0_v10 main_call9_call0_v11 (addf : (⟨S16384x1024, .f32⟩ : BufTy).Contents (Elt F) → (⟨S16384x1024, .f32⟩ : BufTy).Contents (Elt F) → (⟨S16384x1024, .f32⟩ : BufTy).Contents (Elt F)),
    ternary main_call9_call0_v4 main_call9_call0_v6 main_call9_call0_v11 main_call9_v1 (select : (⟨S16384x1024, .i1⟩ : BufTy).Contents (Elt F) → (⟨S16384x1024, .f32⟩ : BufTy).Contents (Elt F) → (⟨S16384x1024, .f32⟩ : BufTy).Contents (Elt F) → (⟨S16384x1024, .f32⟩ : BufTy).Contents (Elt F)),
    unary main_call9_v1 main_v86 (Host.negf : (⟨S16384x1024, .f32⟩ : BufTy).Contents (Elt F) → (⟨S16384x1024, .f32⟩ : BufTy).Contents (Elt F)),
    binary main_v85 main_v86 main_v87 (mulf : (⟨S16384x1024, .f32⟩ : BufTy).Contents (Elt F) → (⟨S16384x1024, .f32⟩ : BufTy).Contents (Elt F) → (⟨S16384x1024, .f32⟩ : BufTy).Contents (Elt F)),
    nullary main_cst_35 (constant S_ .f32 0x00000000#32),
    binary main_v87 main_cst_35 main_v88 ((fun x v => Host.reduceAdd x v reducesTo_S16384x1024_S_d0_1 h_S_) : (⟨S16384x1024, .f32⟩ : BufTy).Contents (Elt F) → (⟨S_, .f32⟩ : BufTy).Contents (Elt F) → (⟨S_, .f32⟩ : BufTy).Contents (Elt F)),
    nullary main_cst_36 (constant S_ .f32 0x4B800000#32),
    binary main_v88 main_cst_36 main_v89 (Host.divf : (⟨S_, .f32⟩ : BufTy).Contents (Elt F) → (⟨S_, .f32⟩ : BufTy).Contents (Elt F) → (⟨S_, .f32⟩ : BufTy).Contents (Elt F)),
    nullary main_cst_37 (constant S_ .f32 0x3DCCCCCD#32),
    binary main_cst_37 main_v80 main_v90 (mulf : (⟨S_, .f32⟩ : BufTy).Contents (Elt F) → (⟨S_, .f32⟩ : BufTy).Contents (Elt F) → (⟨S_, .f32⟩ : BufTy).Contents (Elt F)),
    binary main_v30 main_v90 main_v91 (subf : (⟨S_, .f32⟩ : BufTy).Contents (Elt F) → (⟨S_, .f32⟩ : BufTy).Contents (Elt F) → (⟨S_, .f32⟩ : BufTy).Contents (Elt F)),
    nullary main_cst_38 (constant S_ .f32 0x3F800000#32),
    binary main_cst_38 main_v91 main_v92 (mulf : (⟨S_, .f32⟩ : BufTy).Contents (Elt F) → (⟨S_, .f32⟩ : BufTy).Contents (Elt F) → (⟨S_, .f32⟩ : BufTy).Contents (Elt F)),
    nullary main_cst_39 (constant S_ .f32 0x3DCCCCCD#32),
    binary main_cst_39 main_v89 main_v93 (mulf : (⟨S_, .f32⟩ : BufTy).Contents (Elt F) → (⟨S_, .f32⟩ : BufTy).Contents (Elt F) → (⟨S_, .f32⟩ : BufTy).Contents (Elt F)),
    binary main_v52 main_v93 main_v94 (subf : (⟨S_, .f32⟩ : BufTy).Contents (Elt F) → (⟨S_, .f32⟩ : BufTy).Contents (Elt F) → (⟨S_, .f32⟩ : BufTy).Contents (Elt F)),
    nullary main_cst_40 (constant S_ .f32 0x3F800000#32),
    binary main_cst_40 main_v94 main_v95 (mulf : (⟨S_, .f32⟩ : BufTy).Contents (Elt F) → (⟨S_, .f32⟩ : BufTy).Contents (Elt F) → (⟨S_, .f32⟩ : BufTy).Contents (Elt F)),
    binary main_v92 main_v95 main_v96 (addf : (⟨S_, .f32⟩ : BufTy).Contents (Elt F) → (⟨S_, .f32⟩ : BufTy).Contents (Elt F) → (⟨S_, .f32⟩ : BufTy).Contents (Elt F)),
    nullary main_cst_41 (constant S_ .f32 0x3F000000#32),
    binary main_cst_41 main_v71 main_v97 (mulf : (⟨S_, .f32⟩ : BufTy).Contents (Elt F) → (⟨S_, .f32⟩ : BufTy).Contents (Elt F) → (⟨S_, .f32⟩ : BufTy).Contents (Elt F)),
    binary main_v96 main_v97 main_v98 (addf : (⟨S_, .f32⟩ : BufTy).Contents (Elt F) → (⟨S_, .f32⟩ : BufTy).Contents (Elt F) → (⟨S_, .f32⟩ : BufTy).Contents (Elt F)) ]

set_option maxRecDepth 8192 in
theorem ops_w6_sub : (ops_w6 : List (HloOp τ sig (Elt F))).Forall fun op => op.bufs ⊆ tcRefs τ sig :=
  ⟨binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩

/-- The buffers that window 6's operations write. -/
abbrev ops_w6_W : List (Ref sig .tc) := [main_v84, main_v85, main_call9_v0, main_call9_call0_cst, main_call9_call0_v0, main_call9_call0_v1, main_call9_call0_v2, main_call9_call0_v3, main_call9_call0_v4, main_call9_call0_v5, main_call9_call0_v6, main_call9_call0_v7, main_call9_call0_v8, main_call9_call0_v9, main_call9_call0_v10, main_call9_call0_v11, main_call9_v1, main_v86, main_v87, main_cst_35, main_v88, main_cst_36, main_v89, main_cst_37, main_v90, main_v91, main_cst_38, main_v92, main_cst_39, main_v93, main_v94, main_cst_40, main_v95, main_v96, main_cst_41, main_v97, main_v98]
set_option maxRecDepth 8192 in
theorem ops_w6_writes : (ops_w6 : List (HloOp τ sig (Elt F))).Forall fun op => op.writes ⊆ (ops_w6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

end Cert.ReferenceIdeal.RefOps

end
-- ==== Proof.RefStages.lean ====
/-
  The jnp reference's values as pure functions of its four argument arrays: narrative logits x0 [16384,128],
  subnarrative logits x1 [16384,1024] and the integer label arrays l2, l3 of the same shapes.  Each definition is
  the composition of the program's own operations, in the program's order of operands and with its constants
  (f32 words) and shape facts, for one meaningful intermediate:
    nl, sl            the labels converted to floats;
    softplusN/S x     select (x - 0 != x - 0) (x + 0) (max x 0 + log1p (exp (-(|x - 0|))))   (the outlined softplus);
    npw, spw          per class, min 50 (max 1 (sum_b (1 - y) / (sum_b y + 1e-6)));
    bceN, bceS        pw * y * softplus (-x) + (1 - y) * softplus x;
    lossN             (sum of bceN) / 2^21;
    grpMean           the mean of bceS over each narrative's 8 subnarratives;  vc the number of positive pairs;
    lossS             vc > 0 ? (sum grpMean * y) / max vc 1 : 0;
    sigN, sigS        1 / (1 + exp (-x));   gmax the maximum of sigS over each group of 8;
    lossH             (sum of max (gmax - sigN) 0 * y) / 16384;
    focalN, focalS    (1 - sig x) ^ 2.0 * y * (-(softplus (-x)));   nf, sf their means;
    out               1 * (lossN - 0.1 * nf) + 1 * (lossS - 0.1 * sf) + 0.5 * lossH.
-/
import proofs.«117294_j80676665688521_2_alg».proof.ReferenceIdeal

noncomputable section

namespace Cert.ReferenceIdeal.RefStages

open Idealize.ShloMosaic Cert.ReferenceIdeal Cert.ReferenceIdeal.Facts₀

variable {F : FTy → Type} [FloatOps F] [Facts]

/-- The rank-zero constant of an f32 word. -/
def cst (w : BitVec 32) : FVec F S_ .f32 := constant (F := F) S_ .f32 w

/-- An f32 word broadcast over [16384,128]. -/
def bN (w : BitVec 32) : FVec F S16384x128 .f32 :=
  broadcastInDim S16384x128 ![] bcast_S_S16384x128 (constant (F := F) S_ .f32 w)
/-- An f32 word broadcast over [16384,1024]. -/
def bS (w : BitVec 32) : FVec F S16384x1024 .f32 :=
  broadcastInDim S16384x1024 ![] bcast_S_S16384x1024 (constant (F := F) S_ .f32 w)
/-- An f32 word broadcast over [128]. -/
def b128 (w : BitVec 32) : FVec F S128 .f32 :=
  broadcastInDim S128 ![] bcast_S_S128 (constant (F := F) S_ .f32 w)
/-- An f32 word broadcast over [1024]. -/
def b1024 (w : BitVec 32) : FVec F S1024 .f32 :=
  broadcastInDim S1024 ![] bcast_S_S1024 (constant (F := F) S_ .f32 w)

/-- %0: the narrative labels as floats. -/
def nl (l2 : IVec S16384x128 32) : FVec F S16384x128 .f32 := sitofp .f32 l2
/-- %1: the subnarrative labels as floats. -/
def sl (l3 : IVec S16384x1024 32) : FVec F S16384x1024 .f32 := sitofp .f32 l3

/-- The outlined softplus over [16384,128]: its thirteen operations composed. -/
def softplusN (x : FVec F S16384x128 .f32) : FVec F S16384x128 .f32 :=
  select (cmpf .une (subf x (bN 0x00000000#32)) (subf x (bN 0x00000000#32))) (addf x (bN 0x00000000#32))
    (addf (maximumf x (bN 0x00000000#32))
      (Host.log1p (Host.exp (Host.negf (Host.absf (subf x (bN 0x00000000#32)))))))
/-- The outlined softplus over [16384,1024]: its thirteen operations composed. -/
def softplusS (x : FVec F S16384x1024 .f32) : FVec F S16384x1024 .f32 :=
  select (cmpf .une (subf x (bS 0x00000000#32)) (subf x (bS 0x00000000#32))) (addf x (bS 0x00000000#32))
    (addf (maximumf x (bS 0x00000000#32))
      (Host.log1p (Host.exp (Host.negf (Host.absf (subf x (bS 0x00000000#32)))))))

/-- %9: the narrative positive-class weights, clipped to [1, 50]. -/
def npw (l2 : IVec S16384x128 32) : FVec F S128 .f32 :=
  minimumf (b128 0x42480000#32) (maximumf (b128 0x3F800000#32)
    (Host.divf
      (Host.reduceAdd (subf (bN 0x3F800000#32) (nl (F := F) l2)) (cst (F := F) 0x00000000#32) reducesTo_S16384x128_S128_d0 h_S_)
      (addf (Host.reduceAdd (nl (F := F) l2) (cst (F := F) 0x00000000#32) reducesTo_S16384x128_S128_d0 h_S_)
        (b128 0x358637BD#32))))
/-- %17: the subnarrative positive-class weights, clipped to [1, 50]. -/
def spw (l3 : IVec S16384x1024 32) : FVec F S1024 .f32 :=
  minimumf (b1024 0x42480000#32) (maximumf (b1024 0x3F800000#32)
    (Host.divf
      (Host.reduceAdd (subf (bS 0x3F800000#32) (sl (F := F) l3)) (cst (F := F) 0x00000000#32) reducesTo_S16384x1024_S1024_d0 h_S_)
      (addf (Host.reduceAdd (sl (F := F) l3) (cst (F := F) 0x00000000#32) reducesTo_S16384x1024_S1024_d0 h_S_)
        (b1024 0x358637BD#32))))

/-- %28: the weighted binary cross-entropy of the narrative logits. -/
def bceN (x0 : FVec F S16384x128 .f32) (l2 : IVec S16384x128 32) : FVec F S16384x128 .f32 :=
  addf
    (mulf (mulf (broadcastInDim S16384x128 ![0, 1] bcast_S1x128_S16384x128_0_1
        (broadcastInDim S1x128 ![1] bcast_S128_S1x128_1 (npw (F := F) l2))) (nl l2))
      (softplusN (Host.negf x0)))
    (mulf (subf (bN 0x3F800000#32) (nl l2)) (softplusN x0))
/-- %30: the narrative loss, the mean of bceN. -/
def lossN (x0 : FVec F S16384x128 .f32) (l2 : IVec S16384x128 32) : FVec F S_ .f32 :=
  Host.divf (Host.reduceAdd (bceN x0 l2) (cst (F := F) 0x00000000#32) reducesTo_S16384x128_S_d0_1 h_S_) (cst 0x4A000000#32)

/-- %41: the weighted binary cross-entropy of the subnarrative logits. -/
def bceS (x1 : FVec F S16384x1024 .f32) (l3 : IVec S16384x1024 32) : FVec F S16384x1024 .f32 :=
  addf
    (mulf (mulf (broadcastInDim S16384x1024 ![0, 1] bcast_S1x1024_S16384x1024_0_1
        (broadcastInDim S1x1024 ![1] bcast_S1024_S1x1024_1 (spw (F := F) l3))) (sl l3))
      (softplusS (Host.negf x1)))
    (mulf (subf (bS 0x3F800000#32) (sl l3)) (softplusS x1))
/-- %45: the mean of bceS over each narrative's eight subnarratives. -/
def grpMean (x1 : FVec F S16384x1024 .f32) (l3 : IVec S16384x1024 32) : FVec F S16384x128 .f32 :=
  Host.divf
    (Host.reduceAdd (shapeCast S16384x128x8 (bceS x1 l3) shapeCasts_S16384x1024_S16384x128x8) (cst (F := F) 0x00000000#32)
      reducesTo_S16384x128x8_S16384x128_d2 h_S_)
    (bN 0x41000000#32)
/-- %46: the number of positive (sample, narrative) pairs. -/
def vc (l2 : IVec S16384x128 32) : FVec F S_ .f32 :=
  Host.reduceAdd (nl (F := F) l2) (cst (F := F) 0x00000000#32) reducesTo_S16384x128_S_d0_1 h_S_
/-- %52: the subnarrative loss: the group means summed over the positive pairs, over their number; 0 if none. -/
def lossS (x1 : FVec F S16384x1024 .f32) (l2 : IVec S16384x128 32) (l3 : IVec S16384x1024 32) : FVec F S_ .f32 :=
  select (cmpf .ogt (vc (F := F) l2) (cst 0x00000000#32))
    (Host.divf
      (Host.reduceAdd (mulf (grpMean x1 l3) (nl l2)) (cst (F := F) 0x00000000#32) reducesTo_S16384x128_S_d0_1 h_S_)
      (maximumf (vc l2) (cst 0x3F800000#32)))
    (cst 0x00000000#32)

/-- %58: the sigmoid of the narrative logits. -/
def sigN (x0 : FVec F S16384x128 .f32) : FVec F S16384x128 .f32 :=
  Host.divf (bN 0x3F800000#32) (addf (bN 0x3F800000#32) (Host.exp (Host.negf x0)))
/-- %64: the sigmoid of the subnarrative logits. -/
def sigS (x1 : FVec F S16384x1024 .f32) : FVec F S16384x1024 .f32 :=
  Host.divf (bS 0x3F800000#32) (addf (bS 0x3F800000#32) (Host.exp (Host.negf x1)))
/-- %66: the largest subnarrative probability of each narrative's group. -/
def gmax (x1 : FVec F S16384x1024 .f32) : FVec F S16384x128 .f32 :=
  Host.reduce FloatOps.maximumf (shapeCast S16384x128x8 (sigS x1) shapeCasts_S16384x1024_S16384x128x8) (cst (F := F) 0xFF800000#32)
    reducesTo_S16384x128x8_S16384x128_d2 h_S_
/-- %71: the hierarchy loss: relu (gmax - sigN) summed over the positive pairs, over the batch size. -/
def lossH (x0 : FVec F S16384x128 .f32) (x1 : FVec F S16384x1024 .f32) (l2 : IVec S16384x128 32) : FVec F S_ .f32 :=
  Host.divf
    (Host.reduceAdd (mulf (maximumf (subf (gmax x1) (sigN x0)) (bN 0x00000000#32)) (nl l2)) (cst (F := F) 0x00000000#32)
      reducesTo_S16384x128_S_d0_1 h_S_)
    (cst 0x46800000#32)

/-- %78: the narrative focal terms. -/
def focalN (x0 : FVec F S16384x128 .f32) (l2 : IVec S16384x128 32) : FVec F S16384x128 .f32 :=
  mulf (mulf (Host.powf (subf (bN 0x3F800000#32) (sigN x0)) (bN 0x40000000#32)) (nl l2))
    (Host.negf (softplusN (Host.negf x0)))
/-- %80: their mean. -/
def nf (x0 : FVec F S16384x128 .f32) (l2 : IVec S16384x128 32) : FVec F S_ .f32 :=
  Host.divf (Host.reduceAdd (focalN x0 l2) (cst (F := F) 0x00000000#32) reducesTo_S16384x128_S_d0_1 h_S_) (cst 0x4A000000#32)
/-- %87: the subnarrative focal terms. -/
def focalS (x1 : FVec F S16384x1024 .f32) (l3 : IVec S16384x1024 32) : FVec F S16384x1024 .f32 :=
  mulf (mulf (Host.powf (subf (bS 0x3F800000#32) (sigS x1)) (bS 0x40000000#32)) (sl l3))
    (Host.negf (softplusS (Host.negf x1)))
/-- %89: their mean. -/
def sf (x1 : FVec F S16384x1024 .f32) (l3 : IVec S16384x1024 32) : FVec F S_ .f32 :=
  Host.divf (Host.reduceAdd (focalS x1 l3) (cst (F := F) 0x00000000#32) reducesTo_S16384x1024_S_d0_1 h_S_) (cst 0x4B800000#32)

/-- %98: the scalar result. -/
def out (x0 : FVec F S16384x128 .f32) (x1 : FVec F S16384x1024 .f32) (l2 : IVec S16384x128 32)
    (l3 : IVec S16384x1024 32) : FVec F S_ .f32 :=
  addf
    (addf (mulf (cst 0x3F800000#32) (subf (lossN x0 l2) (mulf (cst 0x3DCCCCCD#32) (nf x0 l2))))
      (mulf (cst 0x3F800000#32) (subf (lossS x1 l2 l3) (mulf (cst 0x3DCCCCCD#32) (sf x1 l3)))))
    (mulf (cst 0x3F000000#32) (lossH x0 x1 l2))

end Cert.ReferenceIdeal.RefStages

end
-- ==== Proof.RefW0.lean ====
/-
  The first stretch of the reference (its operations up to the two clipped positive-class weights), read as values:
  from any buffer contents V, after these operations the converted label arrays hold nl, sl of the label
  arguments, the two weight vectors hold npw, spw of them, and every buffer the stretch does not write is as in V.
-/
import proofs.«117294_j80676665688521_2_alg».proof.Proof.RefOps
import proofs.«117294_j80676665688521_2_alg».proof.Proof.RefStages

set_option pp.maxSteps 5000
set_option pp.deepTerms false

noncomputable section

namespace Cert.ReferenceIdeal.RefRun

open Cert.ReferenceIdeal Cert.ReferenceIdeal.RefOps Cert.ReferenceIdeal.RefStages Idealize.ShloMosaic Idealize.ShloMosaic.TcCoe Idealize.SL.Sem Idealize.ShloMosaic.StableHlo

variable {F : FTy → Type} [FloatOps F]

/-- A buffer the stretch does not write keeps its contents. -/
theorem w0_keep (V : Valuation τ sig (Elt F)) (r : Ref sig .tc) (h : r ∉ ops_w0_W) :
    after ops_w0 V (Proc.devRef .tc r) = V (Proc.devRef .tc r) :=
  after_of_writes_sub ops_w0 _ ops_w0_writes h

/-- %0 is the narrative labels converted. -/
theorem w0_v0 (V : Valuation τ sig (Elt F)) :
    after ops_w0 V (Proc.devRef .tc main_v0) = nl (V (Proc.devRef .tc main_arg2)) := by
  simp only [ops_w0]
  after_results_simp
  rfl

/-- %1 is the subnarrative labels converted. -/
theorem w0_v1 (V : Valuation τ sig (Elt F)) :
    after ops_w0 V (Proc.devRef .tc main_v1) = sl (V (Proc.devRef .tc main_arg3)) := by
  simp only [ops_w0]
  after_results_simp
  rfl

/-- %9 is the clipped narrative class weights. -/
theorem w0_v9 (V : Valuation τ sig (Elt F)) :
    after ops_w0 V (Proc.devRef .tc main_v9) = npw (V (Proc.devRef .tc main_arg2)) := by
  simp only [ops_w0]
  after_results_simp
  rfl

/-- %17 is the clipped subnarrative class weights. -/
theorem w0_v17 (V : Valuation τ sig (Elt F)) :
    after ops_w0 V (Proc.devRef .tc main_v17) = spw (V (Proc.devRef .tc main_arg3)) := by
  simp only [ops_w0]
  after_results_simp
  rfl

end Cert.ReferenceIdeal.RefRun

end
-- ==== Proof.RefW1.lean ====
/-
  The second stretch of the reference (the narrative weighted cross-entropy and its mean), read as values: from
  buffer contents V in which the narrative logits are x0, the converted narrative labels are nl l2 and the
  narrative class weights are npw l2, after these operations the narrative loss buffer holds lossN x0 l2; every
  buffer the stretch does not write is as in V.
-/
import proofs.«117294_j80676665688521_2_alg».proof.Proof.RefOps
import proofs.«117294_j80676665688521_2_alg».proof.Proof.RefStages

set_option pp.maxSteps 5000
set_option pp.deepTerms false

noncomputable section

namespace Cert.ReferenceIdeal.RefRun

open Cert.ReferenceIdeal Cert.ReferenceIdeal.RefOps Cert.ReferenceIdeal.RefStages Idealize.ShloMosaic Idealize.ShloMosaic.TcCoe Idealize.SL.Sem Idealize.ShloMosaic.StableHlo

variable {F : FTy → Type} [FloatOps F]

/-- A buffer the stretch does not write keeps its contents. -/
theorem w1_keep (V : Valuation τ sig (Elt F)) (r : Ref sig .tc) (h : r ∉ ops_w1_W) :
    after ops_w1 V (Proc.devRef .tc r) = V (Proc.devRef .tc r) :=
  after_of_writes_sub ops_w1 _ ops_w1_writes h

/-- %30 is the narrative loss. -/
theorem w1_v30 (V : Valuation τ sig (Elt F)) (x0 : FVec F S16384x128 .f32) (l2 : IVec S16384x128 32)
    (h0 : V (Proc.devRef .tc main_arg0) = x0)
    (hv0 : V (Proc.devRef .tc main_v0) = nl l2)
    (hv9 : V (Proc.devRef .tc main_v9) = npw l2) :
    after ops_w1 V (Proc.devRef .tc main_v30) = lossN x0 l2 := by
  simp only [ops_w1]
  after_results_simp
  rw [h0, hv0, hv9]
  rfl

end Cert.ReferenceIdeal.RefRun

end
-- ==== Proof.RefW2.lean ====
/-
  The third stretch of the reference (the subnarrative weighted cross-entropy, regrouped by narrative), read as
  values: from buffer contents V in which the subnarrative logits are x1, the converted subnarrative labels are
  sl l3 and the subnarrative class weights are spw l3, after these operations the regrouped buffer holds bceS x1 l3
  at shape [16384,128,8] and the following scalar constant is 0; every buffer the stretch does not write is as in V.
-/
import proofs.«117294_j80676665688521_2_alg».proof.Proof.RefOps
import proofs.«117294_j80676665688521_2_alg».proof.Proof.RefStages

set_option pp.maxSteps 5000
set_option pp.deepTerms false

noncomputable section

namespace Cert.ReferenceIdeal.RefRun

open Cert.ReferenceIdeal Cert.ReferenceIdeal.RefOps Cert.ReferenceIdeal.RefStages Idealize.ShloMosaic Idealize.ShloMosaic.TcCoe Idealize.SL.Sem Idealize.ShloMosaic.StableHlo

variable {F : FTy → Type} [FloatOps F]

/-- A buffer the stretch does not write keeps its contents. -/
theorem w2_keep (V : Valuation τ sig (Elt F)) (r : Ref sig .tc) (h : r ∉ ops_w2_W) :
    after ops_w2 V (Proc.devRef .tc r) = V (Proc.devRef .tc r) :=
  after_of_writes_sub ops_w2 _ ops_w2_writes h

/-- %42 is the subnarrative cross-entropy regrouped into eights. -/
theorem w2_v42 (V : Valuation τ sig (Elt F)) (x1 : FVec F S16384x1024 .f32) (l3 : IVec S16384x1024 32)
    (h1 : V (Proc.devRef .tc main_arg1) = x1)
    (hv1 : V (Proc.devRef .tc main_v1) = sl l3)
    (hv17 : V (Proc.devRef .tc main_v17) = spw l3) :
    after ops_w2 V (Proc.devRef .tc main_v42) = shapeCast S16384x128x8 (bceS x1 l3) Facts₀.shapeCasts_S16384x1024_S16384x128x8 := by
  simp only [ops_w2]
  after_results_simp
  rw [h1, hv1, hv17]
  rfl

/-- The scalar constant after it is 0. -/
theorem w2_cst15 (V : Valuation τ sig (Elt F)) :
    after ops_w2 V (Proc.devRef .tc main_cst_15) = cst 0x00000000#32 := by
  simp only [ops_w2]
  after_results_simp
  rfl

end Cert.ReferenceIdeal.RefRun

end
-- ==== Proof.RefW3.lean ====
/-
  The fourth stretch of the reference (the group means, the count of positive pairs and the subnarrative loss),
  read as values: from buffer contents V in which the regrouped cross-entropy is bceS x1 l3 at shape
  [16384,128,8], the scalar constant before it is 0 and the converted narrative labels are nl l2, after these
  operations the subnarrative loss buffer holds lossS x1 l2 l3; every buffer the stretch does not write is as in V.
-/
import proofs.«117294_j80676665688521_2_alg».proof.Proof.RefOps
import proofs.«117294_j80676665688521_2_alg».proof.Proof.RefStages

set_option pp.maxSteps 5000
set_option pp.deepTerms false

noncomputable section

namespace Cert.ReferenceIdeal.RefRun

open Cert.ReferenceIdeal Cert.ReferenceIdeal.RefOps Cert.ReferenceIdeal.RefStages Idealize.ShloMosaic Idealize.ShloMosaic.TcCoe Idealize.SL.Sem Idealize.ShloMosaic.StableHlo

variable {F : FTy → Type} [FloatOps F]

/-- A buffer the stretch does not write keeps its contents. -/
theorem w3_keep (V : Valuation τ sig (Elt F)) (r : Ref sig .tc) (h : r ∉ ops_w3_W) :
    after ops_w3 V (Proc.devRef .tc r) = V (Proc.devRef .tc r) :=
  after_of_writes_sub ops_w3 _ ops_w3_writes h

/-- %52 is the subnarrative loss. -/
theorem w3_v52 (V : Valuation τ sig (Elt F)) (x1 : FVec F S16384x1024 .f32) (l2 : IVec S16384x128 32) (l3 : IVec S16384x1024 32)
    (hv42 : V (Proc.devRef .tc main_v42) = shapeCast S16384x128x8 (bceS x1 l3) Facts₀.shapeCasts_S16384x1024_S16384x128x8)
    (hc15 : V (Proc.devRef .tc main_cst_15) = cst 0x00000000#32)
    (hv0 : V (Proc.devRef .tc main_v0) = nl l2) :
    after ops_w3 V (Proc.devRef .tc main_v52) = lossS x1 l2 l3 := by
  simp only [ops_w3]
  after_results_simp
  rw [hv42, hc15, hv0]
  rfl

end Cert.ReferenceIdeal.RefRun

end
-- ==== Proof.RefW4.lean ====
/-
  The fifth stretch of the reference (the two sigmoids, the group maxima and the hierarchy loss), read as values:
  from buffer contents V in which the logits are x0, x1 and the converted narrative labels are nl l2, after these
  operations the sigmoid buffers hold sigN x0 and sigS x1 and the hierarchy loss buffer holds lossH x0 x1 l2; every
  buffer the stretch does not write is as in V.
-/
import proofs.«117294_j80676665688521_2_alg».proof.Proof.RefOps
import proofs.«117294_j80676665688521_2_alg».proof.Proof.RefStages

set_option pp.maxSteps 5000
set_option pp.deepTerms false

noncomputable section

namespace Cert.ReferenceIdeal.RefRun

open Cert.ReferenceIdeal Cert.ReferenceIdeal.RefOps Cert.ReferenceIdeal.RefStages Idealize.ShloMosaic Idealize.ShloMosaic.TcCoe Idealize.SL.Sem Idealize.ShloMosaic.StableHlo

variable {F : FTy → Type} [FloatOps F]

/-- A buffer the stretch does not write keeps its contents. -/
theorem w4_keep (V : Valuation τ sig (Elt F)) (r : Ref sig .tc) (h : r ∉ ops_w4_W) :
    after ops_w4 V (Proc.devRef .tc r) = V (Proc.devRef .tc r) :=
  after_of_writes_sub ops_w4 _ ops_w4_writes h

/-- %58 is the narrative sigmoid. -/
theorem w4_v58 (V : Valuation τ sig (Elt F)) (x0 : FVec F S16384x128 .f32)
    (h0 : V (Proc.devRef .tc main_arg0) = x0) :
    after ops_w4 V (Proc.devRef .tc main_v58) = sigN x0 := by
  simp only [ops_w4]
  after_results_simp
  rw [h0]
  rfl

/-- %64 is the subnarrative sigmoid. -/
theorem w4_v64 (V : Valuation τ sig (Elt F)) (x1 : FVec F S16384x1024 .f32)
    (h1 : V (Proc.devRef .tc main_arg1) = x1) :
    after ops_w4 V (Proc.devRef .tc main_v64) = sigS x1 := by
  simp only [ops_w4]
  after_results_simp
  rw [h1]
  rfl

/-- %71 is the hierarchy loss. -/
theorem w4_v71 (V : Valuation τ sig (Elt F)) (x0 : FVec F S16384x128 .f32) (x1 : FVec F S16384x1024 .f32) (l2 : IVec S16384x128 32)
    (h0 : V (Proc.devRef .tc main_arg0) = x0)
    (h1 : V (Proc.devRef .tc main_arg1) = x1)
    (hv0 : V (Proc.devRef .tc main_v0) = nl l2) :
    after ops_w4 V (Proc.devRef .tc main_v71) = lossH x0 x1 l2 := by
  simp only [ops_w4]
  after_results_simp
  rw [h0, h1, hv0]
  rfl

end Cert.ReferenceIdeal.RefRun

end
-- ==== Proof.RefW5.lean ====
/-
  The sixth stretch of the reference (the narrative focal terms and their mean, and the subnarrative focal
  base and exponent), read as values: from buffer contents V in which the narrative logits are x0, the converted
  narrative labels are nl l2 and the sigmoid buffers hold sigN x0, sigS x1, after these operations the narrative
  focal mean buffer holds nf x0 l2, and the two operands of the subnarrative power hold 1 - sigS x1 and the
  broadcast exponent 2.0; every buffer the stretch does not write is as in V.
-/
import proofs.«117294_j80676665688521_2_alg».proof.Proof.RefOps
import proofs.«117294_j80676665688521_2_alg».proof.Proof.RefStages

set_option pp.maxSteps 5000
set_option pp.deepTerms false

noncomputable section

namespace Cert.ReferenceIdeal.RefRun

open Cert.ReferenceIdeal Cert.ReferenceIdeal.RefOps Cert.ReferenceIdeal.RefStages Idealize.ShloMosaic Idealize.ShloMosaic.TcCoe Idealize.SL.Sem Idealize.ShloMosaic.StableHlo

variable {F : FTy → Type} [FloatOps F]

/-- A buffer the stretch does not write keeps its contents. -/
theorem w5_keep (V : Valuation τ sig (Elt F)) (r : Ref sig .tc) (h : r ∉ ops_w5_W) :
    after ops_w5 V (Proc.devRef .tc r) = V (Proc.devRef .tc r) :=
  after_of_writes_sub ops_w5 _ ops_w5_writes h

/-- %80 is the narrative focal mean. -/
theorem w5_v80 (V : Valuation τ sig (Elt F)) (x0 : FVec F S16384x128 .f32) (l2 : IVec S16384x128 32)
    (h0 : V (Proc.devRef .tc main_arg0) = x0)
    (hv0 : V (Proc.devRef .tc main_v0) = nl l2)
    (hv58 : V (Proc.devRef .tc main_v58) = sigN x0) :
    after ops_w5 V (Proc.devRef .tc main_v80) = nf x0 l2 := by
  simp only [ops_w5]
  after_results_simp
  rw [h0, hv0, hv58]
  rfl

/-- %82 is one minus the subnarrative sigmoid. -/
theorem w5_v82 (V : Valuation τ sig (Elt F)) (x1 : FVec F S16384x1024 .f32)
    (hv64 : V (Proc.devRef .tc main_v64) = sigS x1) :
    after ops_w5 V (Proc.devRef .tc main_v82) = subf (bS 0x3F800000#32) (sigS x1) := by
  simp only [ops_w5]
  after_results_simp
  rw [hv64]
  rfl

/-- %83 is the exponent 2.0 broadcast. -/
theorem w5_v83 (V : Valuation τ sig (Elt F)) :
    after ops_w5 V (Proc.devRef .tc main_v83) = bS 0x40000000#32 := by
  simp only [ops_w5]
  after_results_simp
  rfl

end Cert.ReferenceIdeal.RefRun

end
-- ==== Proof.RefW6.lean ====
/-
  The last stretch of the reference (the subnarrative focal terms and their mean, and the combination of the
  three losses and two focal means), read as values: from buffer contents V in which the subnarrative logits are
  x1, the converted subnarrative labels are sl l3, the power's operands hold 1 - sigS x1 and the exponent, and the
  earlier scalar buffers hold lossN, lossS, lossH and nf, after these operations the result buffer holds
  out x0 x1 l2 l3; every buffer the stretch does not write is as in V.
-/
import proofs.«117294_j80676665688521_2_alg».proof.Proof.RefOps
import proofs.«117294_j80676665688521_2_alg».proof.Proof.RefStages

set_option pp.maxSteps 5000
set_option pp.deepTerms false

noncomputable section

namespace Cert.ReferenceIdeal.RefRun

open Cert.ReferenceIdeal Cert.ReferenceIdeal.RefOps Cert.ReferenceIdeal.RefStages Idealize.ShloMosaic Idealize.ShloMosaic.TcCoe Idealize.SL.Sem Idealize.ShloMosaic.StableHlo

variable {F : FTy → Type} [FloatOps F]

/-- A buffer the stretch does not write keeps its contents. -/
theorem w6_keep (V : Valuation τ sig (Elt F)) (r : Ref sig .tc) (h : r ∉ ops_w6_W) :
    after ops_w6 V (Proc.devRef .tc r) = V (Proc.devRef .tc r) :=
  after_of_writes_sub ops_w6 _ ops_w6_writes h

/-- %98 is the scalar result. -/
theorem w6_v98 (V : Valuation τ sig (Elt F)) (x0 : FVec F S16384x128 .f32) (x1 : FVec F S16384x1024 .f32) (l2 : IVec S16384x128 32) (l3 : IVec S16384x1024 32)
    (h1 : V (Proc.devRef .tc main_arg1) = x1)
    (hv1 : V (Proc.devRef .tc main_v1) = sl l3)
    (hv82 : V (Proc.devRef .tc main_v82) = subf (bS 0x3F800000#32) (sigS x1))
    (hv83 : V (Proc.devRef .tc main_v83) = bS 0x40000000#32)
    (hv80 : V (Proc.devRef .tc main_v80) = nf x0 l2)
    (hv30 : V (Proc.devRef .tc main_v30) = lossN x0 l2)
    (hv52 : V (Proc.devRef .tc main_v52) = lossS x1 l2 l3)
    (hv71 : V (Proc.devRef .tc main_v71) = lossH x0 x1 l2) :
    after ops_w6 V (Proc.devRef .tc main_v98) = out x0 x1 l2 l3 := by
  simp only [ops_w6]
  after_results_simp
  rw [h1, hv1, hv82, hv83, hv80, hv30, hv52, hv71]
  rfl

end Cert.ReferenceIdeal.RefRun

end
-- ==== Proof.RefRun.lean ====
/-
  The reference's run.  @main is the straight line of its operations: its three printed parts are the seven
  stretches of the operation table run in order, the calls of the outlined functions (clip, softplus, where, relu,
  log-sigmoid, the last calling softplus itself) being the callees' operations over the calls' buffers.  What the
  buffers hold after the line is the fold of the operations' results over the launch contents; read stretch by
  stretch (each stretch's values are the stage functions of the four argument arrays, every buffer a stretch does
  not write is unchanged through it), the scalar result buffer ends at out of the arguments' launch contents and
  the four argument arrays end as launched.  Hence: every weakly fair execution terminates in such a state.
-/
import proofs.«117294_j80676665688521_2_alg».proof.Proof.RefOps
import proofs.«117294_j80676665688521_2_alg».proof.Proof.RefStages
import proofs.«117294_j80676665688521_2_alg».proof.Proof.RefW0
import proofs.«117294_j80676665688521_2_alg».proof.Proof.RefW1
import proofs.«117294_j80676665688521_2_alg».proof.Proof.RefW2
import proofs.«117294_j80676665688521_2_alg».proof.Proof.RefW3
import proofs.«117294_j80676665688521_2_alg».proof.Proof.RefW4
import proofs.«117294_j80676665688521_2_alg».proof.Proof.RefW5
import proofs.«117294_j80676665688521_2_alg».proof.Proof.RefW6
import Idealize.ShloMosaic.Lib.Pipeline.Frame

set_option pp.maxSteps 5000
set_option pp.deepTerms false

noncomputable section

namespace Cert.ReferenceIdeal.RefRun

open Cert.ReferenceIdeal Cert.ReferenceIdeal.RefOps Cert.ReferenceIdeal.RefStages Idealize.ShloMosaic Idealize.ShloMosaic.TcCoe Idealize.SL.Sem Idealize.ShloMosaic.StableHlo

variable {F : FTy → Type} [FloatOps F]

/-- The operations of @main's first printed part. -/
def ops_part0 : List (HloOp τ sig (Elt F)) := ops_w0 ++ (ops_w1 ++ ops_w2)
/-- The operations of @main's second printed part. -/
def ops_part1 : List (HloOp τ sig (Elt F)) := ops_w3 ++ (ops_w4 ++ ops_w5)
/-- The operations of @main's third printed part. -/
def ops_part2 : List (HloOp τ sig (Elt F)) := ops_w6
/-- @main's operations, in order. -/
def ops : List (HloOp τ sig (Elt F)) := ops_part0 ++ (ops_part1 ++ ops_part2)

set_option maxRecDepth 16384 in
/-- The first part is its operations in sequence, the calls unfolded. -/
theorem main_part0_eq (c : Dev nD) : main_part0 (F := F) c = seq ops_part0 := by
  simp only [ops_part0, ops_w0, ops_w1, ops_w2, List.cons_append, List.nil_append]
  simp only [main_part0, fn_clip.body, fn_clip_0.body, fn_softplus.body, fn_softplus_1.body, fn_softplus_2.body,
    fn_softplus_3.body, seq, bind_assoc, pure_bind]
  rfl

set_option maxRecDepth 16384 in
/-- The second part is its operations in sequence, the calls unfolded. -/
theorem main_part1_eq (c : Dev nD) : main_part1 (F := F) c = seq ops_part1 := by
  simp only [ops_part1, ops_w3, ops_w4, ops_w5, List.cons_append, List.nil_append]
  simp only [main_part1, fn_where.body, fn_relu.body, fn_log_sigmoid.body, fn_softplus.body, seq, bind_assoc, pure_bind]
  rfl

set_option maxRecDepth 16384 in
/-- The third part is its operations in sequence, the calls unfolded. -/
theorem main_part2_eq (c : Dev nD) : main_part2 (F := F) c = seq ops_part2 := by
  simp only [ops_part2, ops_w6]
  simp only [main_part2, fn_log_sigmoid_4.body, fn_softplus_2.body, seq, bind_assoc, pure_bind]
  rfl

/-- @main is its operations in sequence. -/
theorem main_eq (c : Dev nD) : main (F := F) c = seq ops := by
  show main (F := F) c = seq (ops_part0 ++ (ops_part1 ++ ops_part2))
  rw [seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches only the TensorCore's references. -/
theorem ops_sub : (ops : List (HloOp τ sig (Elt F))).Forall fun op => op.bufs ⊆ tcRefs τ sig :=
  List.forall_iff_forall_mem.mpr fun op h => by
    simp only [ops, ops_part0, ops_part1, ops_part2, List.mem_append] at h
    rcases h with (h | h | h) | (h | h | h) | h
    exacts [List.forall_iff_forall_mem.mp ops_w0_sub op h, List.forall_iff_forall_mem.mp ops_w1_sub op h,
      List.forall_iff_forall_mem.mp ops_w2_sub op h, List.forall_iff_forall_mem.mp ops_w3_sub op h,
      List.forall_iff_forall_mem.mp ops_w4_sub op h, List.forall_iff_forall_mem.mp ops_w5_sub op h,
      List.forall_iff_forall_mem.mp ops_w6_sub op h]

/-- No operation leaves a result undetermined. -/
theorem ops_fresh : ∀ op ∈ (ops : List (HloOp τ sig (Elt F))), op.fresh = ∅ := by
  intro op h
  simp only [ops, ops_part0, ops_part1, ops_part2, List.mem_append] at h
  rcases h with (h | h | h) | (h | h | h) | h <;>
    ((repeat (cases h with | head => rfl | tail _ h => ?_)); exact nomatch h)

/-- The buffer contents after the first k+1 stretches. -/
def S1 (V : Valuation τ sig (Elt F)) : Valuation τ sig (Elt F) := after ops_w0 V
@[inherit_doc S1] def S2 (V : Valuation τ sig (Elt F)) : Valuation τ sig (Elt F) := after ops_w1 (S1 V)
@[inherit_doc S1] def S3 (V : Valuation τ sig (Elt F)) : Valuation τ sig (Elt F) := after ops_w2 (S2 V)
@[inherit_doc S1] def S4 (V : Valuation τ sig (Elt F)) : Valuation τ sig (Elt F) := after ops_w3 (S3 V)
@[inherit_doc S1] def S5 (V : Valuation τ sig (Elt F)) : Valuation τ sig (Elt F) := after ops_w4 (S4 V)
@[inherit_doc S1] def S6 (V : Valuation τ sig (Elt F)) : Valuation τ sig (Elt F) := after ops_w5 (S5 V)
@[inherit_doc S1] def S7 (V : Valuation τ sig (Elt F)) : Valuation τ sig (Elt F) := after ops_w6 (S6 V)

/-- The fold over the whole line is the stretches' folds in order. -/
theorem after_ops (V : Valuation τ sig (Elt F)) : after ops V = S7 V := by
  simp only [ops, ops_part0, ops_part1, ops_part2, after_append]
  rfl

/-- After the whole line: the result buffer holds out of the arguments, the arguments are unchanged. -/
theorem S7_read (V : Valuation τ sig (Elt F)) :
    S7 V (Proc.devRef .tc main_v98) = out (V (Proc.devRef .tc main_arg0)) (V (Proc.devRef .tc main_arg1)) (V (Proc.devRef .tc main_arg2)) (V (Proc.devRef .tc main_arg3))
      ∧ S7 V (Proc.devRef .tc main_arg0) = V (Proc.devRef .tc main_arg0) ∧ S7 V (Proc.devRef .tc main_arg1) = V (Proc.devRef .tc main_arg1)
      ∧ S7 V (Proc.devRef .tc main_arg2) = V (Proc.devRef .tc main_arg2) ∧ S7 V (Proc.devRef .tc main_arg3) = V (Proc.devRef .tc main_arg3) := by
  -- after stretch 0
  have e1_a0 : (S1 V) (Proc.devRef .tc main_arg0) = V (Proc.devRef .tc main_arg0) := w0_keep (V) main_arg0 (by decide)
  have e1_a1 : (S1 V) (Proc.devRef .tc main_arg1) = V (Proc.devRef .tc main_arg1) := w0_keep (V) main_arg1 (by decide)
  have e1_a2 : (S1 V) (Proc.devRef .tc main_arg2) = V (Proc.devRef .tc main_arg2) := w0_keep (V) main_arg2 (by decide)
  have e1_a3 : (S1 V) (Proc.devRef .tc main_arg3) = V (Proc.devRef .tc main_arg3) := w0_keep (V) main_arg3 (by decide)
  have e1_v0 : (S1 V) (Proc.devRef .tc main_v0) = nl (V (Proc.devRef .tc main_arg2)) := w0_v0 V
  have e1_v1 : (S1 V) (Proc.devRef .tc main_v1) = sl (V (Proc.devRef .tc main_arg3)) := w0_v1 V
  have e1_v9 : (S1 V) (Proc.devRef .tc main_v9) = npw (V (Proc.devRef .tc main_arg2)) := w0_v9 V
  have e1_v17 : (S1 V) (Proc.devRef .tc main_v17) = spw (V (Proc.devRef .tc main_arg3)) := w0_v17 V
  -- after stretch 1
  have e2_a0 : (S2 V) (Proc.devRef .tc main_arg0) = V (Proc.devRef .tc main_arg0) := (w1_keep (S1 V) main_arg0 (by decide)).trans e1_a0
  have e2_a1 : (S2 V) (Proc.devRef .tc main_arg1) = V (Proc.devRef .tc main_arg1) := (w1_keep (S1 V) main_arg1 (by decide)).trans e1_a1
  have e2_a2 : (S2 V) (Proc.devRef .tc main_arg2) = V (Proc.devRef .tc main_arg2) := (w1_keep (S1 V) main_arg2 (by decide)).trans e1_a2
  have e2_a3 : (S2 V) (Proc.devRef .tc main_arg3) = V (Proc.devRef .tc main_arg3) := (w1_keep (S1 V) main_arg3 (by decide)).trans e1_a3
  have e2_v0 : (S2 V) (Proc.devRef .tc main_v0) = nl (V (Proc.devRef .tc main_arg2)) := (w1_keep (S1 V) main_v0 (by decide)).trans e1_v0
  have e2_v1 : (S2 V) (Proc.devRef .tc main_v1) = sl (V (Proc.devRef .tc main_arg3)) := (w1_keep (S1 V) main_v1 (by decide)).trans e1_v1
  have e2_v17 : (S2 V) (Proc.devRef .tc main_v17) = spw (V (Proc.devRef .tc main_arg3)) := (w1_keep (S1 V) main_v17 (by decide)).trans e1_v17
  have e2_v30 : (S2 V) (Proc.devRef .tc main_v30) = lossN (V (Proc.devRef .tc main_arg0)) (V (Proc.devRef .tc main_arg2)) := w1_v30 (S1 V) _ _ e1_a0 e1_v0 e1_v9
  -- after stretch 2
  have e3_a0 : (S3 V) (Proc.devRef .tc main_arg0) = V (Proc.devRef .tc main_arg0) := (w2_keep (S2 V) main_arg0 (by decide)).trans e2_a0
  have e3_a1 : (S3 V) (Proc.devRef .tc main_arg1) = V (Proc.devRef .tc main_arg1) := (w2_keep (S2 V) main_arg1 (by decide)).trans e2_a1
  have e3_a2 : (S3 V) (Proc.devRef .tc main_arg2) = V (Proc.devRef .tc main_arg2) := (w2_keep (S2 V) main_arg2 (by decide)).trans e2_a2
  have e3_a3 : (S3 V) (Proc.devRef .tc main_arg3) = V (Proc.devRef .tc main_arg3) := (w2_keep (S2 V) main_arg3 (by decide)).trans e2_a3
  have e3_v0 : (S3 V) (Proc.devRef .tc main_v0) = nl (V (Proc.devRef .tc main_arg2)) := (w2_keep (S2 V) main_v0 (by decide)).trans e2_v0
  have e3_v1 : (S3 V) (Proc.devRef .tc main_v1) = sl (V (Proc.devRef .tc main_arg3)) := (w2_keep (S2 V) main_v1 (by decide)).trans e2_v1
  have e3_v30 : (S3 V) (Proc.devRef .tc main_v30) = lossN (V (Proc.devRef .tc main_arg0)) (V (Proc.devRef .tc main_arg2)) := (w2_keep (S2 V) main_v30 (by decide)).trans e2_v30
  have e3_v42 : (S3 V) (Proc.devRef .tc main_v42) = shapeCast S16384x128x8 (bceS (V (Proc.devRef .tc main_arg1)) (V (Proc.devRef .tc main_arg3))) Facts₀.shapeCasts_S16384x1024_S16384x128x8 := w2_v42 (S2 V) _ _ e2_a1 e2_v1 e2_v17
  have e3_c15 : (S3 V) (Proc.devRef .tc main_cst_15) = cst 0x00000000#32 := w2_cst15 (S2 V)
  -- after stretch 3
  have e4_a0 : (S4 V) (Proc.devRef .tc main_arg0) = V (Proc.devRef .tc main_arg0) := (w3_keep (S3 V) main_arg0 (by decide)).trans e3_a0
  have e4_a1 : (S4 V) (Proc.devRef .tc main_arg1) = V (Proc.devRef .tc main_arg1) := (w3_keep (S3 V) main_arg1 (by decide)).trans e3_a1
  have e4_a2 : (S4 V) (Proc.devRef .tc main_arg2) = V (Proc.devRef .tc main_arg2) := (w3_keep (S3 V) main_arg2 (by decide)).trans e3_a2
  have e4_a3 : (S4 V) (Proc.devRef .tc main_arg3) = V (Proc.devRef .tc main_arg3) := (w3_keep (S3 V) main_arg3 (by decide)).trans e3_a3
  have e4_v0 : (S4 V) (Proc.devRef .tc main_v0) = nl (V (Proc.devRef .tc main_arg2)) := (w3_keep (S3 V) main_v0 (by decide)).trans e3_v0
  have e4_v1 : (S4 V) (Proc.devRef .tc main_v1) = sl (V (Proc.devRef .tc main_arg3)) := (w3_keep (S3 V) main_v1 (by decide)).trans e3_v1
  have e4_v30 : (S4 V) (Proc.devRef .tc main_v30) = lossN (V (Proc.devRef .tc main_arg0)) (V (Proc.devRef .tc main_arg2)) := (w3_keep (S3 V) main_v30 (by decide)).trans e3_v30
  have e4_v52 : (S4 V) (Proc.devRef .tc main_v52) = lossS (V (Proc.devRef .tc main_arg1)) (V (Proc.devRef .tc main_arg2)) (V (Proc.devRef .tc main_arg3)) := w3_v52 (S3 V) _ _ _ e3_v42 e3_c15 e3_v0
  -- after stretch 4
  have e5_a0 : (S5 V) (Proc.devRef .tc main_arg0) = V (Proc.devRef .tc main_arg0) := (w4_keep (S4 V) main_arg0 (by decide)).trans e4_a0
  have e5_a1 : (S5 V) (Proc.devRef .tc main_arg1) = V (Proc.devRef .tc main_arg1) := (w4_keep (S4 V) main_arg1 (by decide)).trans e4_a1
  have e5_a2 : (S5 V) (Proc.devRef .tc main_arg2) = V (Proc.devRef .tc main_arg2) := (w4_keep (S4 V) main_arg2 (by decide)).trans e4_a2
  have e5_a3 : (S5 V) (Proc.devRef .tc main_arg3) = V (Proc.devRef .tc main_arg3) := (w4_keep (S4 V) main_arg3 (by decide)).trans e4_a3
  have e5_v0 : (S5 V) (Proc.devRef .tc main_v0) = nl (V (Proc.devRef .tc main_arg2)) := (w4_keep (S4 V) main_v0 (by decide)).trans e4_v0
  have e5_v1 : (S5 V) (Proc.devRef .tc main_v1) = sl (V (Proc.devRef .tc main_arg3)) := (w4_keep (S4 V) main_v1 (by decide)).trans e4_v1
  have e5_v30 : (S5 V) (Proc.devRef .tc main_v30) = lossN (V (Proc.devRef .tc main_arg0)) (V (Proc.devRef .tc main_arg2)) := (w4_keep (S4 V) main_v30 (by decide)).trans e4_v30
  have e5_v52 : (S5 V) (Proc.devRef .tc main_v52) = lossS (V (Proc.devRef .tc main_arg1)) (V (Proc.devRef .tc main_arg2)) (V (Proc.devRef .tc main_arg3)) := (w4_keep (S4 V) main_v52 (by decide)).trans e4_v52
  have e5_v58 : (S5 V) (Proc.devRef .tc main_v58) = sigN (V (Proc.devRef .tc main_arg0)) := w4_v58 (S4 V) _ e4_a0
  have e5_v64 : (S5 V) (Proc.devRef .tc main_v64) = sigS (V (Proc.devRef .tc main_arg1)) := w4_v64 (S4 V) _ e4_a1
  have e5_v71 : (S5 V) (Proc.devRef .tc main_v71) = lossH (V (Proc.devRef .tc main_arg0)) (V (Proc.devRef .tc main_arg1)) (V (Proc.devRef .tc main_arg2)) := w4_v71 (S4 V) _ _ _ e4_a0 e4_a1 e4_v0
  -- after stretch 5
  have e6_a0 : (S6 V) (Proc.devRef .tc main_arg0) = V (Proc.devRef .tc main_arg0) := (w5_keep (S5 V) main_arg0 (by decide)).trans e5_a0
  have e6_a1 : (S6 V) (Proc.devRef .tc main_arg1) = V (Proc.devRef .tc main_arg1) := (w5_keep (S5 V) main_arg1 (by decide)).trans e5_a1
  have e6_a2 : (S6 V) (Proc.devRef .tc main_arg2) = V (Proc.devRef .tc main_arg2) := (w5_keep (S5 V) main_arg2 (by decide)).trans e5_a2
  have e6_a3 : (S6 V) (Proc.devRef .tc main_arg3) = V (Proc.devRef .tc main_arg3) := (w5_keep (S5 V) main_arg3 (by decide)).trans e5_a3
  have e6_v1 : (S6 V) (Proc.devRef .tc main_v1) = sl (V (Proc.devRef .tc main_arg3)) := (w5_keep (S5 V) main_v1 (by decide)).trans e5_v1
  have e6_v30 : (S6 V) (Proc.devRef .tc main_v30) = lossN (V (Proc.devRef .tc main_arg0)) (V (Proc.devRef .tc main_arg2)) := (w5_keep (S5 V) main_v30 (by decide)).trans e5_v30
  have e6_v52 : (S6 V) (Proc.devRef .tc main_v52) = lossS (V (Proc.devRef .tc main_arg1)) (V (Proc.devRef .tc main_arg2)) (V (Proc.devRef .tc main_arg3)) := (w5_keep (S5 V) main_v52 (by decide)).trans e5_v52
  have e6_v71 : (S6 V) (Proc.devRef .tc main_v71) = lossH (V (Proc.devRef .tc main_arg0)) (V (Proc.devRef .tc main_arg1)) (V (Proc.devRef .tc main_arg2)) := (w5_keep (S5 V) main_v71 (by decide)).trans e5_v71
  have e6_v80 : (S6 V) (Proc.devRef .tc main_v80) = nf (V (Proc.devRef .tc main_arg0)) (V (Proc.devRef .tc main_arg2)) := w5_v80 (S5 V) _ _ e5_a0 e5_v0 e5_v58
  have e6_v82 : (S6 V) (Proc.devRef .tc main_v82) = subf (bS 0x3F800000#32) (sigS (V (Proc.devRef .tc main_arg1))) := w5_v82 (S5 V) _ e5_v64
  have e6_v83 : (S6 V) (Proc.devRef .tc main_v83) = bS 0x40000000#32 := w5_v83 (S5 V)
  -- after stretch 6
  have e7_a0 : (S7 V) (Proc.devRef .tc main_arg0) = V (Proc.devRef .tc main_arg0) := (w6_keep (S6 V) main_arg0 (by decide)).trans e6_a0
  have e7_a1 : (S7 V) (Proc.devRef .tc main_arg1) = V (Proc.devRef .tc main_arg1) := (w6_keep (S6 V) main_arg1 (by decide)).trans e6_a1
  have e7_a2 : (S7 V) (Proc.devRef .tc main_arg2) = V (Proc.devRef .tc main_arg2) := (w6_keep (S6 V) main_arg2 (by decide)).trans e6_a2
  have e7_a3 : (S7 V) (Proc.devRef .tc main_arg3) = V (Proc.devRef .tc main_arg3) := (w6_keep (S6 V) main_arg3 (by decide)).trans e6_a3
  have e7_v98 : (S7 V) (Proc.devRef .tc main_v98) = out (V (Proc.devRef .tc main_arg0)) (V (Proc.devRef .tc main_arg1)) (V (Proc.devRef .tc main_arg2)) (V (Proc.devRef .tc main_arg3)) := w6_v98 (S6 V) _ _ _ _ e6_a1 e6_v1 e6_v82 e6_v83 e6_v80 e6_v30 e6_v52 e6_v71
  exact ⟨e7_v98, e7_a0, e7_a1, e7_a2, e7_a3⟩

/-- On every device, for any float values, from any memory with zero counters: every weakly fair execution of @main
    terminates with the scalar result at out of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v98) = Cert.ReferenceIdeal.RefStages.out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v98).trans (by rw [after_ops]; exact (S7_read (launchContents m c)).1),
       (h c main_arg0).trans (by rw [after_ops]; exact (S7_read (launchContents m c)).2.1),
       (h c main_arg1).trans (by rw [after_ops]; exact (S7_read (launchContents m c)).2.2.1),
       (h c main_arg2).trans (by rw [after_ops]; exact (S7_read (launchContents m c)).2.2.2.1),
       (h c main_arg3).trans (by rw [after_ops]; exact (S7_read (launchContents m c)).2.2.2.2)⟩)
    (run_seq scopedRefs_eq scopedSems_eq defs main (fun _ => ops) main_eq (fun _ => ops_sub) m ρ (fun _ => ops_fresh))

end Cert.ReferenceIdeal.RefRun

end
-- ==== Proof.RefElems.lean ====
/-
  The reference program's outlined functions read at one element, over the extended reals.

  softplus, as the reference spells it, is thirteen operations: with z = x - 0 it returns x + 0 where z ≠ z and
  max x 0 + log(1 + exp(-|z|)) elsewhere.  On the extended reals nothing differs from itself, so the guard
  is never taken, x - 0 = x, |z| = max z (-z), and the value is  sp x = max x 0 + log(1 + exp(-(max x (-x)))).
  The sigmoid 1 / (1 + exp(-x)) is spelt with the f32 word of 1.0, which is the number 1; the log-sigmoid is
  -(sp (-x)); the clip to [1, 50] is min 50 (max 1 v) with 50 kept as its f32 word.
-/
import Idealize.ShloMosaic.Lib.IdealHost
import proofs.«117294_j80676665688521_2_alg».proof.Proof.Spec

noncomputable section

namespace Cert.ReferenceIdeal.RefValue

open Idealize.ShloMosaic Idealize.ShloMosaic.ValueIdx

/-- The scalar shape. -/
abbrev S0 : Shape := ⟨0, ![]⟩

/-- No extended real differs from itself. -/
theorem cmp_une_self (a : EReal) : Ideal.cmp .une a a = 0#1 := by simp [Ideal.cmp]

/-- The zero scalar broadcast to any shape reads 0 everywhere. -/
theorem bzero_apply {S : Shape} (hb : S0.BroadcastsInDim S ![]) (j : S.Idx) :
    broadcastInDim S ![] hb (constant (F := Ideal) S0 .f32 0x00000000#32) j = 0 := by
  rw [broadcastInDim_scalar_apply, constant_apply, Ideal.ofBits_zero_f32]

/-- The f32 one broadcast to any shape reads 1 everywhere. -/
theorem bone_apply {S : Shape} (hb : S0.BroadcastsInDim S ![]) (j : S.Idx) :
    broadcastInDim S ![] hb (constant (F := Ideal) S0 .f32 0x3F800000#32) j = 1 := by
  rw [broadcastInDim_scalar_apply, constant_apply, Cert.Spec.ofBits_one_f32]

/-- Any f32 scalar constant broadcast to any shape reads the number its word denotes. -/
theorem bconst_apply {S : Shape} (hb : S0.BroadcastsInDim S ![]) (w : BitVec 32) (j : S.Idx) :
    broadcastInDim S ![] hb (constant (F := Ideal) S0 .f32 w) j = Ideal.ofBits .f32 w := by
  rw [broadcastInDim_scalar_apply, constant_apply]

/-- The thirteen-operation softplus at an element is sp of the element. -/
theorem softplus_apply {S : Shape} (hb : S0.BroadcastsInDim S ![]) (x : FVec Ideal S .f32) (i : S.Idx) :
    select
        (cmpf .une (subf x (broadcastInDim S ![] hb (constant (F := Ideal) S0 .f32 0x00000000#32)))
          (subf x (broadcastInDim S ![] hb (constant (F := Ideal) S0 .f32 0x00000000#32))))
        (addf x (broadcastInDim S ![] hb (constant (F := Ideal) S0 .f32 0x00000000#32)))
        (addf (maximumf x (broadcastInDim S ![] hb (constant (F := Ideal) S0 .f32 0x00000000#32)))
          (Host.log1p (Host.exp (Host.negf (Host.absf
            (subf x (broadcastInDim S ![] hb (constant (F := Ideal) S0 .f32 0x00000000#32)))))))) i
      = Cert.Spec.sp (x i) := by
  show Scalar.select (Ideal.cmp .une (x i - broadcastInDim S ![] hb (constant (F := Ideal) S0 .f32 0x00000000#32) i)
        (x i - broadcastInDim S ![] hb (constant (F := Ideal) S0 .f32 0x00000000#32) i))
      (x i + broadcastInDim S ![] hb (constant (F := Ideal) S0 .f32 0x00000000#32) i)
      (max (x i) (broadcastInDim S ![] hb (constant (F := Ideal) S0 .f32 0x00000000#32) i)
        + Ideal.log1p (Ideal.exp (-(max (x i - broadcastInDim S ![] hb (constant (F := Ideal) S0 .f32 0x00000000#32) i)
            (-(x i - broadcastInDim S ![] hb (constant (F := Ideal) S0 .f32 0x00000000#32) i)))))) = _
  rw [bzero_apply hb i, sub_zero, cmp_une_self, select_zero]
  rfl

/-- 1 / (1 + exp(-x)) with f32 ones, at an element, is the sigmoid of the element. -/
theorem sigmoid_apply {S : Shape} (hb : S0.BroadcastsInDim S ![]) (x : FVec Ideal S .f32) (i : S.Idx) :
    Host.divf (broadcastInDim S ![] hb (constant (F := Ideal) S0 .f32 0x3F800000#32))
        (addf (broadcastInDim S ![] hb (constant (F := Ideal) S0 .f32 0x3F800000#32)) (Host.exp (Host.negf x))) i
      = Cert.Spec.sig (x i) := by
  show Ideal.div (broadcastInDim S ![] hb (constant (F := Ideal) S0 .f32 0x3F800000#32) i)
      (broadcastInDim S ![] hb (constant (F := Ideal) S0 .f32 0x3F800000#32) i + Ideal.exp (-(x i))) = _
  rw [bone_apply hb i]
  rfl

/-- The negated softplus of the negated array, at an element, is the log-sigmoid of the element. -/
theorem logsigmoid_apply {S : Shape} (hb : S0.BroadcastsInDim S ![]) (x : FVec Ideal S .f32) (i : S.Idx) :
    Host.negf (select
        (cmpf .une (subf (Host.negf x) (broadcastInDim S ![] hb (constant (F := Ideal) S0 .f32 0x00000000#32)))
          (subf (Host.negf x) (broadcastInDim S ![] hb (constant (F := Ideal) S0 .f32 0x00000000#32))))
        (addf (Host.negf x) (broadcastInDim S ![] hb (constant (F := Ideal) S0 .f32 0x00000000#32)))
        (addf (maximumf (Host.negf x) (broadcastInDim S ![] hb (constant (F := Ideal) S0 .f32 0x00000000#32)))
          (Host.log1p (Host.exp (Host.negf (Host.absf
            (subf (Host.negf x) (broadcastInDim S ![] hb (constant (F := Ideal) S0 .f32 0x00000000#32))))))))) i
      = Cert.Spec.lsig (x i) := by
  show -(select _ _ _ i) = _
  rw [softplus_apply hb (Host.negf x) i]
  rfl

/-- The clip to [1, 50] at an element: the f32 one is 1, the f32 fifty stays its word. -/
theorem clip_apply {S : Shape} (hb : S0.BroadcastsInDim S ![]) (v : FVec Ideal S .f32) (i : S.Idx) :
    minimumf (broadcastInDim S ![] hb (constant (F := Ideal) S0 .f32 0x42480000#32))
        (maximumf (broadcastInDim S ![] hb (constant (F := Ideal) S0 .f32 0x3F800000#32)) v) i
      = Cert.Spec.clip (v i) := by
  show min (broadcastInDim S ![] hb (constant (F := Ideal) S0 .f32 0x42480000#32) i)
      (max (broadcastInDim S ![] hb (constant (F := Ideal) S0 .f32 0x3F800000#32) i) (v i)) = _
  rw [bone_apply hb i, bconst_apply hb _ i]
  rfl

/-- A label word converted to a float is the signed integer it encodes. -/
theorem sitofp_lab {S : Shape} (l : IVec S 32) (i : S.Idx) :
    (sitofp .f32 l : FVec Ideal S .f32) i = Cert.Spec.lab (l i) := rfl

end Cert.ReferenceIdeal.RefValue

end
-- ==== Proof.LibRowMax.lean ====
/-
  A row's maximum over the extended reals, on both sides of a softmax.

  A kernel takes the maximum of each row of an [a, b] array lane-wise (a multi-reduction with a maximum body over the
  last axis, from -∞); a host program takes it by a reduce with a maximum body over the last axis of an [n0, n1, n2]
  array, from its initial value, and jnp then takes the maximum with -∞ once more.  Over the extended reals `max` is
  commutative and associative, so each is the fold of `max` over the row's entries in any order, and -∞ is its identity.
-/
import Idealize.ShloMosaic.Lib.ValueIdx
import Idealize.ShloMosaic.PureOps.Reduce
import Idealize.ShloMosaic.PureOps.Ideal.Laws

namespace Cert.RowMax

open Idealize.ShloMosaic Idealize.ShloMosaic.ValueIdx

/-- -∞ (the f32 pattern 0xFF800000) is below every extended real: the maximum with it changes nothing. -/
theorem max_negInf (a : EReal) : max (Ideal.ofBits .f32 0xFF800000#32) a = a := by
  simp [Ideal.ofBits, Ideal.ieee]

/-- Over the extended reals, the maximum over the last axis of an [a, b] array, read at row r, is the fold of `max`
    from the accumulator's value over the row's b entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  have hf : (src ∘ h.lift (ix1 r)) = fun k : Fin b => src (ix2 r k) := funext fun (k : Fin b) => congrArg src (by
    funext c
    apply Fin.ext
    match c with
    | ⟨0, _⟩ => rfl
    | ⟨1, _⟩ => rfl)
  exact congrArg (fun f => Finset.fold max (Ideal.ofBits φ acc) f (Finset.univ : Finset (Fin b))) hf

/-- Over the extended reals, the host's reduce with a maximum body over the last axis of an [n0, n1, n2] array, read at
    (p, q), is the fold of `max` from the initial value over the n2 entries at (p, q, ·). -/
theorem hostRowMax_apply {n0 n1 n2 : ℕ} {φ : FTy} {u : Shape} (x : FVec Ideal ⟨3, ![n0, n1, n2]⟩ φ) (init : u.Idx → Ideal φ)
    (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  have hf : (x ∘ h.lift (ix2 p q)) = fun k : Fin n2 => x (ix3 p q k) := funext fun (k : Fin n2) => congrArg x (by
    funext c
    apply Fin.ext
    match c with
    | ⟨0, _⟩ => rfl
    | ⟨1, _⟩ => rfl
    | ⟨2, _⟩ => rfl)
  exact congrArg (fun f => Finset.fold max (init (Shape.Idx.first hu)) f (Finset.univ : Finset (Fin n2))) hf

end Cert.RowMax
-- ==== Proof.RefIndex.lean ====
/-
  The reference's layout operations and host reductions read at an index, over the literal shapes of this program.

  The reshape [16384,1024] → [16384,128,8] keeps the row-major position, so entry (b, n, k) of the result is entry
  (b, 8n + k) of the operand.  A vector of length m broadcast to one row [1,m] and then down the 16384 rows reads
  entry n of the vector at (b, n).  Over the extended reals a host sum from the zero word is the plain sum over the
  reduced coordinates: over axis 0 of [16384, m] it is Σ_b at (b, n); over axis 2 of [16384,128,8] it is Σ_k at
  (b, n, k); over both axes of a rank-2 array it is the sum over every index.  The host maximum over axis 2 from -∞
  is the fold of max over k from the word of -∞.
-/
import Idealize.ShloMosaic.Lib.IdealHost
import Idealize.ShloMosaic.Lib.Pipeline.Value
import proofs.«117294_j80676665688521_2_alg».proof.ReferenceIdeal
import proofs.«117294_j80676665688521_2_alg».proof.Proof.Spec
import proofs.«117294_j80676665688521_2_alg».proof.Proof.LibRowMax

noncomputable section

namespace Cert.ReferenceIdeal.RefValue

open Idealize.ShloMosaic Idealize.ShloMosaic.ValueIdx
open Cert.ReferenceIdeal (S_ S128 S1024 S1x128 S1x1024 S16384x128 S16384x1024 S16384x128x8)

/-- The reshape of the subnarrative array into groups of eight: (b, n, k) reads (b, 8n + k). -/
theorem reshape_apply {α : Type} (x : S16384x1024.Idx → α) (h : S16384x1024.ShapeCasts S16384x128x8)
    (b : Fin 16384) (n : Fin 128) (k : Fin 8) :
    shapeCast S16384x128x8 x h (ix3 b n k) = x (ix2 b (Cert.Spec.sub n k)) := by
  refine shapeCast_apply x h (ix3 b n k) (ix2 b (Cert.Spec.sub n k)) ?_
  rw [Shape.rowMajor_val_two, Shape.rowMajor_val_three]
  show b.val * 1024 + (8 * n.val + k.val) = (b.val * 128 + n.val) * 8 + k.val
  omega

/-- A length-128 vector laid as one row and repeated down the rows reads its entry n at (b, n). -/
theorem rowBroadcastN_apply {α : Type} (v : S128.Idx → α)
    (h1 : S128.BroadcastsInDim S1x128 (![1] : Fin 1 → Fin S1x128.rank))
    (h2 : S1x128.BroadcastsInDim S16384x128 (![0, 1] : Fin 2 → Fin S16384x128.rank)) (b : Fin 16384) (n : Fin 128) :
    broadcastInDim S16384x128 ![0, 1] h2 (broadcastInDim S1x128 ![1] h1 v) (ix2 b n) = v (ix1 n) := by
  refine (broadcastInDim_apply _ h2 _ (ix2 b n) (ix2 (0 : Fin 1) n)
    (fun a => match a with | ⟨0, _⟩ => rfl | ⟨1, _⟩ => rfl)).trans ?_
  exact broadcastInDim_apply _ h1 v (ix2 (0 : Fin 1) n) (ix1 n) (fun a => match a with | ⟨0, _⟩ => rfl)

/-- A length-1024 vector laid as one row and repeated down the rows reads its entry j at (b, j). -/
theorem rowBroadcastS_apply {α : Type} (v : S1024.Idx → α)
    (h1 : S1024.BroadcastsInDim S1x1024 (![1] : Fin 1 → Fin S1x1024.rank))
    (h2 : S1x1024.BroadcastsInDim S16384x1024 (![0, 1] : Fin 2 → Fin S16384x1024.rank)) (b : Fin 16384) (j : Fin 1024) :
    broadcastInDim S16384x1024 ![0, 1] h2 (broadcastInDim S1x1024 ![1] h1 v) (ix2 b j) = v (ix1 j) := by
  refine (broadcastInDim_apply _ h2 _ (ix2 b j) (ix2 (0 : Fin 1) j)
    (fun a => match a with | ⟨0, _⟩ => rfl | ⟨1, _⟩ => rfl)).trans ?_
  exact broadcastInDim_apply _ h1 v (ix2 (0 : Fin 1) j) (ix1 j) (fun a => match a with | ⟨0, _⟩ => rfl)

/-- The host sum over the 16384 rows of a [16384,128] array, from the zero word, at column n. -/
theorem colSumN_apply (x : FVec Ideal S16384x128 .f32) (h' : S16384x128.ReducesTo [0] S128) (hu : 0 < S_.numel)
    (n : Fin 128) :
    Host.reduceAdd x (constant (F := Ideal) S_ .f32 0x00000000#32) h' hu (ix1 n) = ∑ b : Fin 16384, x (ix2 b n) := by
  have h : S16384x128.Reduces [0] S128 := by decide
  rw [hostReduceAdd_apply, Ideal.hostReduceAdd_single h' h, constant_apply, Ideal.ofBits_zero_f32, zero_add]
  exact Finset.sum_congr rfl fun (k : Fin 16384) _ => congrArg x (by
    funext c
    apply Fin.ext
    match c with
    | ⟨0, _⟩ => rfl
    | ⟨1, _⟩ => rfl)

/-- The host sum over the 16384 rows of a [16384,1024] array, from the zero word, at column j. -/
theorem colSumS_apply (x : FVec Ideal S16384x1024 .f32) (h' : S16384x1024.ReducesTo [0] S1024) (hu : 0 < S_.numel)
    (j : Fin 1024) :
    Host.reduceAdd x (constant (F := Ideal) S_ .f32 0x00000000#32) h' hu (ix1 j) = ∑ b : Fin 16384, x (ix2 b j) := by
  have h : S16384x1024.Reduces [0] S1024 := by decide
  rw [hostReduceAdd_apply, Ideal.hostReduceAdd_single h' h, constant_apply, Ideal.ofBits_zero_f32, zero_add]
  exact Finset.sum_congr rfl fun (k : Fin 16384) _ => congrArg x (by
    funext c
    apply Fin.ext
    match c with
    | ⟨0, _⟩ => rfl
    | ⟨1, _⟩ => rfl)

/-- The host sum over the eight members of each group, from the zero word, at (b, n). -/
theorem groupSum_apply (x : FVec Ideal S16384x128x8 .f32) (h' : S16384x128x8.ReducesTo [2] S16384x128)
    (hu : 0 < S_.numel) (b : Fin 16384) (n : Fin 128) :
    Host.reduceAdd x (constant (F := Ideal) S_ .f32 0x00000000#32) h' hu (ix2 b n) = ∑ k : Fin 8, x (ix3 b n k) := by
  have h : S16384x128x8.Reduces [2] S16384x128 := by decide
  rw [hostReduceAdd_apply, Ideal.hostReduceAdd_single h' h, constant_apply, Ideal.ofBits_zero_f32, zero_add]
  exact Finset.sum_congr rfl fun (k : Fin 8) _ => congrArg x (by
    funext c
    apply Fin.ext
    match c with
    | ⟨0, _⟩ => rfl
    | ⟨1, _⟩ => rfl
    | ⟨2, _⟩ => rfl)

/-- The host sum over both axes of a [16384,128] array, from the zero word: the sum over every index. -/
theorem totalN_apply (x : FVec Ideal S16384x128 .f32) (h' : S16384x128.ReducesTo [0, 1] S_) (hu : 0 < S_.numel)
    (j : S_.Idx) :
    Host.reduceAdd x (constant (F := Ideal) S_ .f32 0x00000000#32) h' hu j = ∑ i : S16384x128.Idx, x i := by
  rw [hostReduceAdd_apply, Ideal.hostReduceAdd_total h' (fun b => b.elim0), constant_apply, Ideal.ofBits_zero_f32,
    zero_add]

/-- The host sum over both axes of a [16384,1024] array, from the zero word: the sum over every index. -/
theorem totalS_apply (x : FVec Ideal S16384x1024 .f32) (h' : S16384x1024.ReducesTo [0, 1] S_) (hu : 0 < S_.numel)
    (j : S_.Idx) :
    Host.reduceAdd x (constant (F := Ideal) S_ .f32 0x00000000#32) h' hu j = ∑ i : S16384x1024.Idx, x i := by
  rw [hostReduceAdd_apply, Ideal.hostReduceAdd_total h' (fun b => b.elim0), constant_apply, Ideal.ofBits_zero_f32,
    zero_add]

/-- The host maximum over the eight members of each group, from the word of -∞, at (b, n): the fold of max. -/
theorem groupMax_apply (x : FVec Ideal S16384x128x8 .f32) (h' : S16384x128x8.ReducesTo [2] S16384x128)
    (hu : 0 < S_.numel) (b : Fin 16384) (n : Fin 128) :
    Host.reduce FloatOps.maximumf x (constant (F := Ideal) S_ .f32 0xFF800000#32) h' hu (ix2 b n)
      = (Finset.univ : Finset (Fin 8)).fold max (Ideal.ofBits .f32 0xFF800000#32) (fun k => x (ix3 b n k)) :=
  Cert.RowMax.hostRowMax_apply x _ h' (by decide) hu b n

end Cert.ReferenceIdeal.RefValue

end
-- ==== Proof.RefPoint.lean ====
/-
  The reference's elementwise stages read at an index, over the extended reals.

  Labels: the converted label arrays read lab of the word.  Weights: per class, the clip to [1, 50] of
  (Σ_b (1 - y)) / (Σ_b y + 1e-6), the sums over the 16384 samples.  Weighted binary cross-entropy at (b, n):
  w·y·sp(-x) + (1 - y)·sp x with w the class weight.  Sigmoid at an index: sig x.  Focal term at an index:
  (1 - sig x)^2.0 · y · lsig x, the exponent the f32 word of 2.0.
-/
import proofs.«117294_j80676665688521_2_alg».proof.Proof.RefStages
import proofs.«117294_j80676665688521_2_alg».proof.Proof.RefElems
import proofs.«117294_j80676665688521_2_alg».proof.Proof.RefIndex

noncomputable section

namespace Cert.ReferenceIdeal.RefValue

open Idealize.ShloMosaic Idealize.ShloMosaic.ValueIdx
open Cert.ReferenceIdeal Cert.ReferenceIdeal.Facts₀

variable [Facts]

/-- The host negation at an index. -/
theorem hostNegf_apply {S : Shape} (a : FVec Ideal S .f32) (i : S.Idx) : Host.negf a i = -(a i) := rfl
/-- The host power at an index. -/
theorem hostPowf_apply {S : Shape} (a b : FVec Ideal S .f32) (i : S.Idx) : Host.powf a b i = Ideal.pow (a i) (b i) := rfl

/-- The narrative labels as floats read lab of the word. -/
theorem nl_apply (l2 : IVec S16384x128 32) (i : S16384x128.Idx) : RefStages.nl (F := Ideal) l2 i = Cert.Spec.lab (l2 i) := rfl
/-- The subnarrative labels as floats read lab of the word. -/
theorem sl_apply (l3 : IVec S16384x1024 32) (i : S16384x1024.Idx) : RefStages.sl (F := Ideal) l3 i = Cert.Spec.lab (l3 i) := rfl

/-- An f32 word broadcast over [16384,128] reads the number it denotes. -/
theorem bN_apply (w : BitVec 32) (i : S16384x128.Idx) : RefStages.bN (F := Ideal) w i = Ideal.ofBits .f32 w :=
  bconst_apply bcast_S_S16384x128 w i
/-- An f32 word broadcast over [16384,1024] reads the number it denotes. -/
theorem bS_apply (w : BitVec 32) (i : S16384x1024.Idx) : RefStages.bS (F := Ideal) w i = Ideal.ofBits .f32 w :=
  bconst_apply bcast_S_S16384x1024 w i
/-- An f32 word broadcast over [128] reads the number it denotes. -/
theorem b128_apply (w : BitVec 32) (i : S128.Idx) : RefStages.b128 (F := Ideal) w i = Ideal.ofBits .f32 w :=
  bconst_apply bcast_S_S128 w i
/-- An f32 word broadcast over [1024] reads the number it denotes. -/
theorem b1024_apply (w : BitVec 32) (i : S1024.Idx) : RefStages.b1024 (F := Ideal) w i = Ideal.ofBits .f32 w :=
  bconst_apply bcast_S_S1024 w i

/-- softplus over [16384,128] at an index. -/
theorem softplusN_apply (x : FVec Ideal S16384x128 .f32) (i : S16384x128.Idx) :
    RefStages.softplusN x i = Cert.Spec.sp (x i) := softplus_apply bcast_S_S16384x128 x i
/-- softplus over [16384,1024] at an index. -/
theorem softplusS_apply (x : FVec Ideal S16384x1024 .f32) (i : S16384x1024.Idx) :
    RefStages.softplusS x i = Cert.Spec.sp (x i) := softplus_apply bcast_S_S16384x1024 x i

/-- The sigmoid of the narrative logits at an index. -/
theorem sigN_apply (x0 : FVec Ideal S16384x128 .f32) (i : S16384x128.Idx) :
    RefStages.sigN x0 i = Cert.Spec.sig (x0 i) := sigmoid_apply bcast_S_S16384x128 x0 i
/-- The sigmoid of the subnarrative logits at an index. -/
theorem sigS_apply (x1 : FVec Ideal S16384x1024 .f32) (i : S16384x1024.Idx) :
    RefStages.sigS x1 i = Cert.Spec.sig (x1 i) := sigmoid_apply bcast_S_S16384x1024 x1 i

/-- The narrative class weight n. -/
theorem npw_apply (l2 : IVec S16384x128 32) (n : Fin 128) :
    RefStages.npw (F := Ideal) l2 (ix1 n) = Cert.Spec.npw l2 n := by
  simp only [RefStages.npw, RefStages.cst, minimumf_apply, maximumf_apply, hostDivf_apply, addf_apply, colSumN_apply,
    subf_apply, b128_apply, bN_apply, nl_apply, Cert.Spec.ofBits_one_f32]
  rfl

/-- The subnarrative class weight j. -/
theorem spw_apply (l3 : IVec S16384x1024 32) (j : Fin 1024) :
    RefStages.spw (F := Ideal) l3 (ix1 j) = Cert.Spec.spw l3 j := by
  simp only [RefStages.spw, RefStages.cst, minimumf_apply, maximumf_apply, hostDivf_apply, addf_apply, colSumS_apply,
    subf_apply, b1024_apply, bS_apply, sl_apply, Cert.Spec.ofBits_one_f32]
  rfl

/-- The narrative cross-entropy at (b, n). -/
theorem bceN_apply (x0 : FVec Ideal S16384x128 .f32) (l2 : IVec S16384x128 32) (b : Fin 16384) (n : Fin 128) :
    RefStages.bceN x0 l2 (ix2 b n) = Cert.Spec.bceN x0 l2 b n := by
  simp only [RefStages.bceN, addf_apply, mulf_apply, subf_apply, nl_apply, softplusN_apply, hostNegf_apply, bN_apply,
    Cert.Spec.ofBits_one_f32]
  rw [rowBroadcastN_apply (RefStages.npw (F := Ideal) l2) bcast_S128_S1x128_1 bcast_S1x128_S16384x128_0_1 b n,
    npw_apply]
  rfl

/-- The subnarrative cross-entropy at (b, j). -/
theorem bceS_apply (x1 : FVec Ideal S16384x1024 .f32) (l3 : IVec S16384x1024 32) (b : Fin 16384) (j : Fin 1024) :
    RefStages.bceS x1 l3 (ix2 b j) = Cert.Spec.bceS x1 l3 b j := by
  simp only [RefStages.bceS, addf_apply, mulf_apply, subf_apply, sl_apply, softplusS_apply, hostNegf_apply, bS_apply,
    Cert.Spec.ofBits_one_f32]
  rw [rowBroadcastS_apply (RefStages.spw (F := Ideal) l3) bcast_S1024_S1x1024_1 bcast_S1x1024_S16384x1024_0_1 b j,
    spw_apply]
  rfl

/-- The narrative focal term at an index. -/
theorem focalN_apply (x0 : FVec Ideal S16384x128 .f32) (l2 : IVec S16384x128 32) (i : S16384x128.Idx) :
    RefStages.focalN x0 l2 i = Cert.Spec.focal (Cert.Spec.lab (l2 i)) (x0 i) := by
  simp only [RefStages.focalN, mulf_apply, subf_apply, hostPowf_apply, hostNegf_apply, sigN_apply, nl_apply,
    softplusN_apply, bN_apply, Cert.Spec.ofBits_one_f32]
  rfl

/-- The subnarrative focal term at an index. -/
theorem focalS_apply (x1 : FVec Ideal S16384x1024 .f32) (l3 : IVec S16384x1024 32) (i : S16384x1024.Idx) :
    RefStages.focalS x1 l3 i = Cert.Spec.focal (Cert.Spec.lab (l3 i)) (x1 i) := by
  simp only [RefStages.focalS, mulf_apply, subf_apply, hostPowf_apply, hostNegf_apply, sigS_apply, sl_apply,
    softplusS_apply, bS_apply, Cert.Spec.ofBits_one_f32]
  rfl

end Cert.ReferenceIdeal.RefValue

end
-- ==== Proof.RefValue.lean ====
/-
  The reference's scalar result is the loss of the specification, over the extended reals.

  Each host reduction from the zero word is the plain sum of the stage it reduces: the narrative loss is
  (Σ bce) / 2^21; the group mean at (b, n) is (Σ_k bce at (b, 8n + k)) / 8; the count of positive pairs is Σ y;
  the subnarrative loss is (Σ mean·y) / max count 1 where the count is positive and 0 elsewhere; the group
  maximum at (b, n) is the fold of max from -∞ over the eight sigmoids; the hierarchy loss is
  (Σ max (gmax - sig) 0 · y) / 2^14; the focal means are (Σ focal) / 2^21 and / 2^24.  The last eleven scalar
  operations combine them as  1·(lossN - 0.1·nf) + 1·(lossS - 0.1·sf) + 0.5·lossH.
-/
import proofs.«117294_j80676665688521_2_alg».proof.Proof.RefPoint

noncomputable section

namespace Cert.ReferenceIdeal.RefValue

open Idealize.ShloMosaic Idealize.ShloMosaic.ValueIdx
open Cert.ReferenceIdeal Cert.ReferenceIdeal.Facts₀

variable [Facts]

/-- The narrative cross-entropy at any index, by its coordinates. -/
theorem bceN_at (x0 : FVec Ideal S16384x128 .f32) (l2 : IVec S16384x128 32) (i : S16384x128.Idx) :
    RefStages.bceN x0 l2 i = Cert.Spec.bceN x0 l2 (i 0) (i 1) := by
  obtain ⟨b, n, rfl⟩ : ∃ (b : Fin 16384) (n : Fin 128), i = ix2 b n := ⟨i 0, i 1, eq_ix2 i⟩
  exact bceN_apply x0 l2 b n

/-- The narrative loss: the sum of the cross-entropies over 2^21. -/
theorem lossN_apply (x0 : FVec Ideal S16384x128 .f32) (l2 : IVec S16384x128 32) (j : S_.Idx) :
    RefStages.lossN x0 l2 j = Ideal.div (Cert.Spec.A x0 l2) Cert.Spec.cBN := by
  simp only [RefStages.lossN, RefStages.cst, hostDivf_apply, totalN_apply, constant_apply, bceN_at]
  rfl

/-- The mean cross-entropy of narrative n's eight subnarratives for sample b. -/
theorem grpMean_apply (x1 : FVec Ideal S16384x1024 .f32) (l3 : IVec S16384x1024 32) (b : Fin 16384) (n : Fin 128) :
    RefStages.grpMean x1 l3 (ix2 b n) = Cert.Spec.grp x1 l3 b n := by
  simp only [RefStages.grpMean, RefStages.cst, hostDivf_apply, groupSum_apply, reshape_apply, bceS_apply, bN_apply]
  rfl

/-- The same at any index, by its coordinates. -/
theorem grpMean_at (x1 : FVec Ideal S16384x1024 .f32) (l3 : IVec S16384x1024 32) (i : S16384x128.Idx) :
    RefStages.grpMean x1 l3 i = Cert.Spec.grp x1 l3 (i 0) (i 1) := by
  obtain ⟨b, n, rfl⟩ : ∃ (b : Fin 16384) (n : Fin 128), i = ix2 b n := ⟨i 0, i 1, eq_ix2 i⟩
  exact grpMean_apply x1 l3 b n

/-- The number of positive pairs: the sum of the labels. -/
theorem vc_apply (l2 : IVec S16384x128 32) (j : S_.Idx) : RefStages.vc (F := Ideal) l2 j = Cert.Spec.Vc l2 := by
  simp only [RefStages.vc, RefStages.cst, totalN_apply, nl_apply]
  rfl

/-- The group means summed over the positive pairs. -/
theorem sumG_eq (x1 : FVec Ideal S16384x1024 .f32) (l2 : IVec S16384x128 32) (l3 : IVec S16384x1024 32) :
    (∑ i : S16384x128.Idx, mulf (RefStages.grpMean x1 l3) (RefStages.nl (F := Ideal) l2) i) = Cert.Spec.G x1 l2 l3 := by
  simp only [mulf_apply, grpMean_at, nl_apply, Cert.Spec.G]

/-- The subnarrative loss: where the count is positive the group means summed over the positive pairs over the
    count (at least 1), and 0 elsewhere. -/
theorem lossS_apply (x1 : FVec Ideal S16384x1024 .f32) (l2 : IVec S16384x128 32) (l3 : IVec S16384x1024 32)
    (j : S_.Idx) :
    RefStages.lossS x1 l2 l3 j
      = Scalar.select (Ideal.cmp .ogt (Cert.Spec.Vc l2) 0)
          (Ideal.div (Cert.Spec.G x1 l2 l3) (max (Cert.Spec.Vc l2) 1)) 0 := by
  simp only [RefStages.lossS, RefStages.cst, select_apply]
  rw [cmpf_apply, Ideal.cmpf_def, hostDivf_apply, maximumf_apply, vc_apply, constant_apply, constant_apply,
    Ideal.ofBits_zero_f32, Cert.Spec.ofBits_one_f32, totalN_apply, sumG_eq]

/-- The largest sigmoid among narrative n's eight subnarratives for sample b. -/
theorem gmax_apply (x1 : FVec Ideal S16384x1024 .f32) (b : Fin 16384) (n : Fin 128) :
    RefStages.gmax x1 (ix2 b n) = Cert.Spec.gmax x1 b n := by
  simp only [RefStages.gmax, RefStages.cst, groupMax_apply, reshape_apply, sigS_apply]
  rfl

/-- The same at any index, by its coordinates. -/
theorem gmax_at (x1 : FVec Ideal S16384x1024 .f32) (i : S16384x128.Idx) :
    RefStages.gmax x1 i = Cert.Spec.gmax x1 (i 0) (i 1) := by
  obtain ⟨b, n, rfl⟩ : ∃ (b : Fin 16384) (n : Fin 128), i = ix2 b n := ⟨i 0, i 1, eq_ix2 i⟩
  exact gmax_apply x1 b n

/-- One summand of the hierarchy loss. -/
theorem hterm_at (x0 : FVec Ideal S16384x128 .f32) (x1 : FVec Ideal S16384x1024 .f32) (l2 : IVec S16384x128 32)
    (i : S16384x128.Idx) :
    mulf (maximumf (subf (RefStages.gmax x1) (RefStages.sigN x0)) (RefStages.bN 0x00000000#32)) (RefStages.nl l2) i
      = max (Cert.Spec.gmax x1 (i 0) (i 1) - Cert.Spec.sig (x0 i)) 0 * Cert.Spec.lab (l2 i) := by
  rw [mulf_apply, maximumf_apply, subf_apply, gmax_at, sigN_apply, bN_apply, nl_apply, Ideal.ofBits_zero_f32]

/-- The hierarchy terms summed. -/
theorem sumH_eq (x0 : FVec Ideal S16384x128 .f32) (x1 : FVec Ideal S16384x1024 .f32) (l2 : IVec S16384x128 32) :
    (∑ i : S16384x128.Idx,
        mulf (maximumf (subf (RefStages.gmax x1) (RefStages.sigN x0)) (RefStages.bN 0x00000000#32)) (RefStages.nl l2) i)
      = Cert.Spec.H x0 x1 l2 := by
  delta Cert.Spec.H
  exact Finset.sum_congr rfl (fun i _ => hterm_at x0 x1 l2 i)

/-- The hierarchy loss: the positive parts of (group maximum - narrative sigmoid) summed over the positive pairs,
    over 2^14. -/
theorem lossH_apply (x0 : FVec Ideal S16384x128 .f32) (x1 : FVec Ideal S16384x1024 .f32) (l2 : IVec S16384x128 32)
    (j : S_.Idx) :
    RefStages.lossH x0 x1 l2 j = Ideal.div (Cert.Spec.H x0 x1 l2) Cert.Spec.cB := by
  rw [RefStages.lossH, RefStages.cst, RefStages.cst, hostDivf_apply, totalN_apply, constant_apply, sumH_eq]
  rfl

/-- The narrative focal mean: the sum of the focal terms over 2^21. -/
theorem nf_apply (x0 : FVec Ideal S16384x128 .f32) (l2 : IVec S16384x128 32) (j : S_.Idx) :
    RefStages.nf x0 l2 j = Ideal.div (Cert.Spec.NF x0 l2) Cert.Spec.cBN := by
  simp only [RefStages.nf, RefStages.cst, hostDivf_apply, totalN_apply, constant_apply, focalN_apply]
  rfl

/-- The subnarrative focal mean: the sum of the focal terms over 2^24. -/
theorem sf_apply (x1 : FVec Ideal S16384x1024 .f32) (l3 : IVec S16384x1024 32) (j : S_.Idx) :
    RefStages.sf x1 l3 j = Ideal.div (Cert.Spec.SF x1 l3) Cert.Spec.cBS := by
  simp only [RefStages.sf, RefStages.cst, hostDivf_apply, totalS_apply, constant_apply, focalS_apply]
  rfl

/-- A rank-zero f32 constant reads the number its word denotes. -/
theorem cst_apply (w : BitVec 32) (j : S_.Idx) : RefStages.cst (F := Ideal) w j = Ideal.ofBits .f32 w := by
  rw [RefStages.cst, constant_apply]

/-- The reference's scalar result is the specification's total loss. -/
theorem out_eq (x0 : FVec Ideal S16384x128 .f32) (x1 : FVec Ideal S16384x1024 .f32) (l2 : IVec S16384x128 32)
    (l3 : IVec S16384x1024 32) :
    Cert.ReferenceIdeal.RefStages.out (F := Ideal) x0 x1 l2 l3 = fun _ => Cert.Spec.total x0 x1 l2 l3 := by
  funext j
  rw [RefStages.out, addf_apply, addf_apply, mulf_apply, mulf_apply, mulf_apply, subf_apply, subf_apply, mulf_apply,
    mulf_apply, lossN_apply, nf_apply, lossS_apply, sf_apply, lossH_apply, cst_apply, cst_apply, cst_apply,
    Cert.Spec.ofBits_one_f32]
  delta Cert.Spec.total Cert.Spec.tail Cert.Spec.tenth Cert.Spec.half
  rfl
end Cert.ReferenceIdeal.RefValue

end
-- ==== Proof.lean ====
/-
  The certificate: the Pallas loss kernel (two pallas_calls: column sums of the labels, then the weighted BCE,
  focal and hierarchy terms accumulated over the batch) against the jnp reference, over the extended reals.

  The three frames are the generated ones (the reference's is its hand-read run with the result dropped); the ideal
  pass rewrote nothing, so the idealization claim is trivial.  For the value claim both programs are shown to end with
  their scalar result at `Spec.total` of the four argument arrays: the kernel program by reading its ten segments
  (module KValue: block accumulators as whole sums, class weights from column sums, the re-laid subnarrative arrays,
  0.125 against division by 8, the square against the power 2.0 for real logits, which is where the precondition is
  used), the reference by reading its host operations one by one (module RefValue).
-/
import proofs.«117294_j80676665688521_2_alg».proof.Defs
import proofs.«117294_j80676665688521_2_alg».proof.Proof.Gen.Kernel
import proofs.«117294_j80676665688521_2_alg».proof.Proof.Gen.Kernel.Frame
import proofs.«117294_j80676665688521_2_alg».proof.Proof.Gen.KernelIdeal
import proofs.«117294_j80676665688521_2_alg».proof.Proof.Gen.KernelIdeal.Frame
import proofs.«117294_j80676665688521_2_alg».proof.Proof.Gen.ReferenceIdeal
import proofs.«117294_j80676665688521_2_alg».proof.Proof.Gen.Pre_finite_inputs
import proofs.«117294_j80676665688521_2_alg».proof.Proof.KRun
import proofs.«117294_j80676665688521_2_alg».proof.Proof.KValue
import proofs.«117294_j80676665688521_2_alg».proof.Proof.KFinite
import proofs.«117294_j80676665688521_2_alg».proof.Proof.RefRun
import proofs.«117294_j80676665688521_2_alg».proof.Proof.RefValue
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run with the result dropped
    exact fun m ρ _ => (θ_run Cert.ReferenceIdeal.defs _ _).mono (fun _ h c => (h c).2)
      (Cert.ReferenceIdeal.RefRun.run (F := Ideal) m ρ)
  · -- the value claim: both results are the specification's total of the (agreeing) arguments
    intro m ρ m' ρ' hpre hagree
    refine ⟨fun c => fun _ => Cert.Spec.total (Cert.KernelIdeal.KGlue.x0 m c) (Cert.KernelIdeal.KGlue.x1 m c)
      (Cert.KernelIdeal.KGlue.l2 m c) (Cert.KernelIdeal.KGlue.l3 m c), ?_, ?_⟩
    · refine (θ_run Cert.KernelIdeal.defs _ _).mono (fun r h c => ⟨(h c).1.trans ?_, (h c).2⟩)
        (Cert.KernelIdeal.KRun.run (F := Ideal) m ρ)
      have hfin := Cert.KFinite.finite_of_pre (hP := Cert.Pre_finite_inputs.Gen.facts) _ _ _ _ (hpre c)
      exact Cert.KernelIdeal.KValue.value m ρ c hfin.1 hfin.2
    · refine (θ_run Cert.ReferenceIdeal.defs _ _).mono (fun r h c => ⟨(h c).1.trans ?_, (h c).2⟩)
        (Cert.ReferenceIdeal.RefRun.run (F := Ideal) m' ρ')
      rw [(hagree c).1, (hagree c).2.1, (hagree c).2.2.1, (hagree c).2.2.2]
      exact Cert.ReferenceIdeal.RefValue.out_eq _ _ _ _⟩

end Cert.Proof

end
